-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S200000x112 : Shape := ⟨2, ![200000, 112]⟩
abbrev S1000000x2 : Shape := ⟨2, ![1000000, 2]⟩
abbrev S1000000 : Shape := ⟨1, ![1000000]⟩
abbrev S1000000x16 : Shape := ⟨2, ![1000000, 16]⟩
abbrev S200000 : Shape := ⟨1, ![200000]⟩
abbrev S256x64 : Shape := ⟨2, ![256, 64]⟩
abbrev S64 : Shape := ⟨1, ![64]⟩
abbrev S240x128 : Shape := ⟨2, ![240, 128]⟩
abbrev S128 : Shape := ⟨1, ![128]⟩
abbrev S128x144 : Shape := ⟨2, ![128, 144]⟩
abbrev S144 : Shape := ⟨1, ![144]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S200000x112 : S_.BroadcastsInDim S200000x112 (![] : Fin 0 → Fin S200000x112.rank)
  reducesTo_S200000x112_S_d0_1 : S200000x112.ReducesTo [0, 1] S_
  bcast_S_S1000000x16 : S_.BroadcastsInDim S1000000x16 (![] : Fin 0 → Fin S1000000x16.rank)
  reducesTo_S1000000x16_S_d0_1 : S1000000x16.ReducesTo [0, 1] S_
  bcast_S_S200000 : S_.BroadcastsInDim S200000 (![] : Fin 0 → Fin S200000.rank)
  reducesTo_S200000_S_d0 : S200000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S240x128 : S_.BroadcastsInDim S240x128 (![] : Fin 0 → Fin S240x128.rank)
  reducesTo_S240x128_S_d0_1 : S240x128.ReducesTo [0, 1] S_
  bcast_S_S128 : S_.BroadcastsInDim S128 (![] : Fin 0 → Fin S128.rank)
  reducesTo_S128_S_d0 : S128.ReducesTo [0] S_
  bcast_S_S128x144 : S_.BroadcastsInDim S128x144 (![] : Fin 0 → Fin S128x144.rank)
  reducesTo_S128x144_S_d0_1 : S128x144.ReducesTo [0, 1] S_
  bcast_S_S144 : S_.BroadcastsInDim S144 (![] : Fin 0 → Fin S144.rank)
  reducesTo_S144_S_d0 : S144.ReducesTo [0] S_

variable [Facts]

def fn_part3 {F : FTy → Type} [FloatOps F] (main_arg14 : FVec F S144 .f32) (main_v48 : IVec S_ 1) (main_v49 : FVec F S128x144 .f32) (main_v50 : FVec F S128x144 .f32) : IVec S_ 1 :=
  let main_v51 : IVec S128x144 1 := cmpf .olt main_v49 main_v50
  let main_c_19 : IVec S_ 1 := constantI S_ 1 1#1
  let main_v52 : IVec S_ 1 := (fun x v => Host.reduce IntOp.andi x v reducesTo_S128x144_S_d0_1 h_S_) main_v51 main_c_19
  let main_v53 : IVec S_ 1 := andi main_v48 main_v52
  let main_v54 : FVec F S144 .f32 := Host.absf main_arg14
  let main_cst_20 : FVec F S_ .f32 := constant S_ .f32 0x7F800000#32
  let main_v55 : FVec F S144 .f32 := broadcastInDim S144 ![] bcast_S_S144 main_cst_20
  let main_v56 : IVec S144 1 := cmpf .olt main_v54 main_v55
  let main_c_21 : IVec S_ 1 := constantI S_ 1 1#1
  let main_v57 : IVec S_ 1 := (fun x v => Host.reduce IntOp.andi x v reducesTo_S144_S_d0 h_S_) main_v56 main_c_21
  let main_v58 : IVec S_ 1 := andi main_v53 main_v57
  main_v58

def fn_part2 {F : FTy → Type} [FloatOps F] (main_arg10 : FVec F S64 .f32) (main_arg11 : FVec F S240x128 .f32) (main_arg12 : FVec F S128 .f32) (main_arg13 : FVec F S128x144 .f32) (main_arg14 : FVec F S144 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S240x128 .f32 := Host.absf main_arg11
  let main_cst_14 : FVec F S_ .f32 := constant S_ .f32 0x7F800000#32
  let main_v40 : FVec F S240x128 .f32 := broadcastInDim S240x128 ![] bcast_S_S240x128 main_cst_14
  let main_v41 : IVec S240x128 1 := cmpf .olt main_v39 main_v40
  let main_c_15 : IVec S_ 1 := constantI S_ 1 1#1
  let main_v42 : IVec S_ 1 := (fun x v => Host.reduce IntOp.andi x v reducesTo_S240x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x144 .f32 := Host.absf main_arg13
  let main_cst_18 : FVec F S_ .f32 := constant S_ .f32 0x7F800000#32
  let main_v50 : FVec F S128x144 .f32 := broadcastInDim S128x144 ![] bcast_S_S128x144 main_cst_18
  fn_part3 (F := F) main_arg14 main_v48 main_v49 main_v50

def fn_part1 {F : FTy → Type} [FloatOps F] (main_arg7 : FVec F S256x64 .f32) (main_arg8 : FVec F S64 .f32) (main_arg9 : FVec F S256x64 .f32) (main_arg10 : FVec F S64 .f32) (main_arg11 : FVec F S240x128 .f32) (main_arg12 : FVec F S128 .f32) (main_arg13 : FVec F S128x144 .f32) (main_arg14 : FVec F S144 .f32) (main_v13 : IVec S_ 1) (main_v16 : IVec S200000 1) : IVec S_ 1 :=
  let main_c_5 : IVec S_ 1 := constantI S_ 1 1#1
  let main_v17 : IVec S_ 1 := (fun x v => Host.reduce IntOp.andi x v reducesTo_S200000_S_d0 h_S_) main_v16 main_c_5
  let main_v18 : IVec S_ 1 := andi main_v13 main_v17
  let main_v19 : FVec F S256x64 .f32 := Host.absf main_arg7
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x64 .f32 := Host.absf main_arg9
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S50000x64 .f32) (main_arg1 : FVec F S200000x112 .f32) (main_arg2 : IVec S1000000x2 32) (main_arg3 : IVec S1000000 32) (main_arg4 : FVec F S1000000x16 .f32) (main_arg5 : IVec S1000000 32) (main_arg6 : FVec F S200000 .f32) (main_arg7 : FVec F S256x64 .f32) (main_arg8 : FVec F S64 .f32) (main_arg9 : FVec F S256x64 .f32) (main_arg10 : FVec F S64 .f32) (main_arg11 : FVec F S240x128 .f32) (main_arg12 : FVec F S128 .f32) (main_arg13 : FVec F S128x144 .f32) (main_arg14 : FVec F S144 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S200000x112 .f32 := Host.absf main_arg1
  let main_cst_0 : FVec F S_ .f32 := constant S_ .f32 0x7F800000#32
  let main_v5 : FVec F S200000x112 .f32 := broadcastInDim S200000x112 ![] bcast_S_S200000x112 main_cst_0
  let main_v6 : IVec S200000x112 1 := cmpf .olt main_v4 main_v5
  let main_c_1 : IVec S_ 1 := constantI S_ 1 1#1
  let main_v7 : IVec S_ 1 := (fun x v => Host.reduce IntOp.andi x v reducesTo_S200000x112_S_d0_1 h_S_) main_v6 main_c_1
  let main_v8 : IVec S_ 1 := andi main_v3 main_v7
  let main_v9 : FVec F S1000000x16 .f32 := Host.absf main_arg4
  let main_cst_2 : FVec F S_ .f32 := constant S_ .f32 0x7F800000#32
  let main_v10 : FVec F S1000000x16 .f32 := broadcastInDim S1000000x16 ![] bcast_S_S1000000x16 main_cst_2
  let main_v11 : IVec S1000000x16 1 := cmpf .olt main_v9 main_v10
  let main_c_3 : IVec S_ 1 := constantI S_ 1 1#1
  let main_v12 : IVec S_ 1 := (fun x v => Host.reduce IntOp.andi x v reducesTo_S1000000x16_S_d0_1 h_S_) main_v11 main_c_3
  let main_v13 : IVec S_ 1 := andi main_v8 main_v12
  let main_v14 : FVec F S200000 .f32 := Host.absf main_arg6
  let main_cst_4 : FVec F S_ .f32 := constant S_ .f32 0x7F800000#32
  let main_v15 : FVec F S200000 .f32 := broadcastInDim S200000 ![] bcast_S_S200000 main_cst_4
  let main_v16 : IVec S200000 1 := cmpf .olt main_v14 main_v15
  fn_part1 (F := F) main_arg7 main_arg8 main_arg9 main_arg10 main_arg11 main_arg12 main_arg13 main_arg14 main_v13 main_v16
-- ==== Kernel.lean ====
abbrev S50000x64 : Shape := ⟨2, ![50000, 64]⟩
abbrev S200000x112 : Shape := ⟨2, ![200000, 112]⟩
abbrev S1000000x2 : Shape := ⟨2, ![1000000, 2]⟩
abbrev S1000000 : Shape := ⟨1, ![1000000]⟩
abbrev S1000000x16 : Shape := ⟨2, ![1000000, 16]⟩
abbrev S200000 : Shape := ⟨1, ![200000]⟩
abbrev S256x64 : Shape := ⟨2, ![256, 64]⟩
abbrev S64 : Shape := ⟨1, ![64]⟩
abbrev S240x128 : Shape := ⟨2, ![240, 128]⟩
abbrev S128 : Shape := ⟨1, ![128]⟩
abbrev S128x144 : Shape := ⟨2, ![128, 144]⟩
abbrev S144 : Shape := ⟨1, ![144]⟩
abbrev S1000000x1 : Shape := ⟨2, ![1000000, 1]⟩
abbrev S_ : Shape := ⟨0, ![]⟩
abbrev S1000000x64 : Shape := ⟨2, ![1000000, 64]⟩
abbrev S1000000x112 : Shape := ⟨2, ![1000000, 112]⟩
abbrev S1000000x17 : Shape := ⟨2, ![1000000, 17]⟩
abbrev S5000x64 : Shape := ⟨2, ![5000, 64]⟩
abbrev S5000x112 : Shape := ⟨2, ![5000, 112]⟩
abbrev S5000x17 : Shape := ⟨2, ![5000, 17]⟩
abbrev S5000x16 : Shape := ⟨2, ![5000, 16]⟩
abbrev S5000x1 : Shape := ⟨2, ![5000, 1]⟩
abbrev S5000x256 : Shape := ⟨2, ![5000, 256]⟩
abbrev S1x64 : Shape := ⟨2, ![1, 64]⟩
abbrev S400000x64 : Shape := ⟨2, ![400000, 64]⟩
abbrev S200000x128 : Shape := ⟨2, ![200000, 128]⟩
abbrev S200000x144 : Shape := ⟨2, ![200000, 144]⟩
abbrev S4000x128 : Shape := ⟨2, ![4000, 128]⟩
abbrev S4000x112 : Shape := ⟨2, ![4000, 112]⟩
abbrev S4000x144 : Shape := ⟨2, ![4000, 144]⟩
abbrev S4000x240 : Shape := ⟨2, ![4000, 240]⟩
abbrev S1x128 : Shape := ⟨2, ![1, 128]⟩
abbrev S1x144 : Shape := ⟨2, ![1, 144]⟩

abbrev nBuf : Space → Nat
  | .hbm => 77
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S200000x112, .f32⟩
  | .hbm, ⟨2, _⟩ => ⟨S1000000x2, .i32⟩
  | .hbm, ⟨3, _⟩ => ⟨S1000000, .i32⟩
  | .hbm, ⟨4, _⟩ => ⟨S1000000x16, .f32⟩
  | .hbm, ⟨5, _⟩ => ⟨S1000000, .i32⟩
  | .hbm, ⟨6, _⟩ => ⟨S200000, .f32⟩
  | .hbm, ⟨7, _⟩ => ⟨S256x64, .f32⟩
  | .hbm, ⟨8, _⟩ => ⟨S64, .f32⟩
  | .hbm, ⟨9, _⟩ => ⟨S256x64, .f32⟩
  | .hbm, ⟨10, _⟩ => ⟨S64, .f32⟩
  | .hbm, ⟨11, _⟩ => ⟨S240x128, .f32⟩
  | .hbm, ⟨12, _⟩ => ⟨S128, .f32⟩
  | .hbm, ⟨13, _⟩ => ⟨S128x144, .f32⟩
  | .hbm, ⟨14, _⟩ => ⟨S144, .f32⟩
  | .hbm, ⟨15, _⟩ => ⟨S50000x64, .bf16⟩
  | .hbm, ⟨16, _⟩ => ⟨S200000x112, .bf16⟩
  | .hbm, ⟨17, _⟩ => ⟨S1000000x1, .i32⟩
  | .hbm, ⟨18, _⟩ => ⟨S1000000, .i32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x64, .bf16⟩
  | .hbm, ⟨28, _⟩ => ⟨S1000000x1, .i32⟩
  | .hbm, ⟨29, _⟩ => ⟨S1000000, .i32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x64, .bf16⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000x112, .bf16⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000, .f32⟩
  | .hbm, ⟨57, _⟩ => ⟨S1000000, .f32⟩
  | .hbm, ⟨58, _⟩ => ⟨S1000000, .f32⟩
  | .hbm, ⟨59, _⟩ => ⟨S_, .f32⟩
  | .hbm, ⟨60, _⟩ => ⟨S1000000, .f32⟩
  | .hbm, ⟨61, _⟩ => ⟨S1000000, .f32⟩
  | .hbm, ⟨62, _⟩ => ⟨S1000000, .f32⟩
  | .hbm, ⟨63, _⟩ => ⟨S1000000x1, .f32⟩
  | .hbm, ⟨64, _⟩ => ⟨S1000000x17, .f32⟩
  | .hbm, ⟨65, _⟩ => ⟨S256x64, .bf16⟩
  | .hbm, ⟨66, _⟩ => ⟨S256x64, .bf16⟩
  | .hbm, ⟨67, _⟩ => ⟨S1000000x64, .f32⟩
  | .hbm, ⟨68, _⟩ => ⟨S_, .f32⟩
  | .hbm, ⟨69, _⟩ => ⟨S400000x64, .f32⟩
  | .hbm, ⟨70, _⟩ => ⟨S1000000x1, .i32⟩
  | .hbm, ⟨71, _⟩ => ⟨S400000x64, .f32⟩
  | .hbm, ⟨72, _⟩ => ⟨S200000x128, .f32⟩
  | .hbm, ⟨73, _⟩ => ⟨S200000x128, .bf16⟩
  | .hbm, ⟨74, _⟩ => ⟨S240x128, .bf16⟩
  | .hbm, ⟨75, _⟩ => ⟨S128x144, .bf16⟩
  | .hbm, ⟨76, _⟩ => ⟨S200000x144, .f32⟩
  | .local _ .vmem, ⟨0, _⟩ => ⟨S5000x64, .bf16⟩
  | .local _ .vmem, ⟨1, _⟩ => ⟨S5000x64, .bf16⟩
  | .local _ .vmem, ⟨2, _⟩ => ⟨S5000x64, .bf16⟩
  | .local _ .vmem, ⟨3, _⟩ => ⟨S5000x64, .bf16⟩
  | .local _ .vmem, ⟨4, _⟩ => ⟨S5000x112, .bf16⟩
  | .local _ .vmem, ⟨5, _⟩ => ⟨S5000x112, .bf16⟩
  | .local _ .vmem, ⟨6, _⟩ => ⟨S5000x17, .f32⟩
  | .local _ .vmem, ⟨7, _⟩ => ⟨S5000x17, .f32⟩
  | .local _ .vmem, ⟨8, _⟩ => ⟨S256x64, .bf16⟩
  | .local _ .vmem, ⟨9, _⟩ => ⟨S64, .f32⟩
  | .local _ .vmem, ⟨10, _⟩ => ⟨S256x64, .bf16⟩
  | .local _ .vmem, ⟨11, _⟩ => ⟨S64, .f32⟩
  | .local _ .vmem, ⟨12, _⟩ => ⟨S5000x64, .f32⟩
  | .local _ .vmem, ⟨13, _⟩ => ⟨S5000x64, .f32⟩
  | .local _ .vmem, ⟨14, _⟩ => ⟨S4000x128, .bf16⟩
  | .local _ .vmem, ⟨15, _⟩ => ⟨S4000x128, .bf16⟩
  | .local _ .vmem, ⟨16, _⟩ => ⟨S4000x112, .bf16⟩
  | .local _ .vmem, ⟨17, _⟩ => ⟨S4000x112, .bf16⟩
  | .local _ .vmem, ⟨18, _⟩ => ⟨S240x128, .bf16⟩
  | .local _ .vmem, ⟨19, _⟩ => ⟨S128, .f32⟩
  | .local _ .vmem, ⟨20, _⟩ => ⟨S128x144, .bf16⟩
  | .local _ .vmem, ⟨21, _⟩ => ⟨S144, .f32⟩
  | .local _ .vmem, ⟨22, _⟩ => ⟨S4000x144, .f32⟩
  | .local _ .vmem, ⟨23, _⟩ => ⟨S4000x144, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x112 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x17 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x112 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S240x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x144 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S144 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x144 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  slices_S1000000x2_S1000000x1_0_0 : S1000000x2.Slices ![0, 0] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S1000000x2_S1000000x1_0_1 : S1000000x2.Slices ![0, 1] S1000000x1
  concatenates_S1000000x16_S1000000x1_S1000000x17_d1 : Shape.Concatenates [S1000000x16, S1000000x1] S1000000x17 1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x112_S5000x112_0_0 : ∀ a, (![0, 0] : Fin 2 → Nat) a + S5000x112.size a ≤ S5000x112.size a
  h_S5000x112 : 0 < S5000x112.numel
  shapeCasts_S5000x112_S5000x112 : S5000x112.ShapeCasts S5000x112
  inb_S5000x17_S5000x17_0_0 : ∀ a, (![0, 0] : Fin 2 → Nat) a + S5000x17.size a ≤ S5000x17.size a
  h_S5000x17 : 0 < S5000x17.numel
  shapeCasts_S5000x17_S5000x17 : S5000x17.ShapeCasts S5000x17
  slices_S5000x17_o0_0_S5000x16 : S5000x17.Slices ![0, 0] S5000x16
  slices_S5000x17_o0_16_S5000x1 : S5000x17.Slices ![0, 16] S5000x1
  concatenates_S5000x64_S5000x64_S5000x112_S5000x16_S5000x256_d1 : Shape.Concatenates [S5000x64, S5000x64, S5000x112, S5000x16] S5000x256 1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  broadcasts_S5000x1_S5000x64 : S5000x1.Broadcasts S5000x64
  bcast_S_S400000x64 : S_.BroadcastsInDim S400000x64 (![] : Fin 0 → Fin S400000x64.rank)
  shapeCasts_S400000x64_S200000x128 : S400000x64.ShapeCasts S200000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x112_S4000x112_0_0 : ∀ a, (![0, 0] : Fin 2 → Nat) a + S4000x112.size a ≤ S4000x112.size a
  h_S4000x112 : 0 < S4000x112.numel
  shapeCasts_S4000x112_S4000x112 : S4000x112.ShapeCasts S4000x112
  concatenates_S4000x128_S4000x112_S4000x240_d1 : Shape.Concatenates [S4000x128, S4000x112] S4000x240 1
  inb_S240x128_S240x128_0_0 : ∀ a, (![0, 0] : Fin 2 → Nat) a + S240x128.size a ≤ S240x128.size a
  h_S240x128 : 0 < S240x128.numel
  shapeCasts_S240x128_S240x128 : S240x128.ShapeCasts S240x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x144_S128x144_0_0 : ∀ a, (![0, 0] : Fin 2 → Nat) a + S128x144.size a ≤ S128x144.size a
  h_S128x144 : 0 < S128x144.numel
  shapeCasts_S128x144_S128x144 : S128x144.ShapeCasts S128x144
  inb_S144_S144_0 : ∀ a, (![0] : Fin 1 → Nat) a + S144.size a ≤ S144.size a
  h_S144 : 0 < S144.numel
  shapeCasts_S144_S1x144 : S144.ShapeCasts S1x144
  broadcasts_S1x144_S4000x144 : S1x144.Broadcasts S4000x144
  inb_S4000x144_S4000x144_0_0 : ∀ a, (![0, 0] : Fin 2 → Nat) a + S4000x144.size a ≤ S4000x144.size a
  h_S4000x144 : 0 < S4000x144.numel
  gather_S50000x64_S1000000x1_S1000000x64_1_0_n_n_0_1_164_wf : GatherDims.WF S50000x64 S1000000x1 S1000000x64 [1] [0] [] [0] [] 1 ![1, 64]
  gather_S200000x112_S1000000x1_S1000000x112_1_0_n_n_0_1_1112_wf : GatherDims.WF S200000x112 S1000000x1 S1000000x112 [1] [0] [] [0] [] 1 ![1, 112]
  gather_S200000_S1000000x1_S1000000_n_0_n_n_0_1_1_wf : GatherDims.WF S200000 S1000000x1 S1000000 [] [0] [] [0] [] 1 ![1]
  dot_S5000x256_S256x64_S5000x64_1_0_0_1_n_n_wf : DotDims.WF S5000x256 S256x64 S5000x64 [1] [0] [0] [1] [] []
  scatter_S400000x64_S1000000x1_S1000000x64_1_0_0_1_wf : ScatterDims.WF S400000x64 S1000000x1 S1000000x64 [1] [0] [0] 1
  dot_S4000x240_S240x128_S4000x128_1_0_0_1_n_n_wf : DotDims.WF S4000x240 S240x128 S4000x128 [1] [0] [0] [1] [] []
  dot_S4000x128_S128x144_S4000x144_1_0_0_1_n_n_wf : DotDims.WF S4000x128 S128x144 S4000x144 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1000000x64.size a
  hwx0_0 : ∀ i : grid0.Coords, EltTy.bits .bf16 = 32 ∨ (Rect.block (s := S1000000x64) S5000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S1000000x64.size a
  hwx0_1 : ∀ i : grid0.Coords, EltTy.bits .bf16 = 32 ∨ (Rect.block (s := S1000000x64) S5000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x112.size a ≤ S1000000x112.size a
  hwx0_2 : ∀ i : grid0.Coords, EltTy.bits .bf16 = 32 ∨ (Rect.block (s := S1000000x112) S5000x112.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x17.size a ≤ S1000000x17.size a
  hwx0_3 : ∀ i : grid0.Coords, EltTy.bits .f32 = 32 ∨ (Rect.block (s := S1000000x17) S5000x17.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .bf16 = 32 ∨ (Rect.block (s := S256x64) S256x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x64.size a ≤ S256x64.size a
  hwx0_6 : ∀ i : grid0.Coords, EltTy.bits .bf16 = 32 ∨ (Rect.block (s := S256x64) S256x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S1000000x64.size a
  hwx0_8 : ∀ i : grid0.Coords, EltTy.bits .f32 = 32 ∨ (Rect.block (s := S1000000x64) S5000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S200000x128.size a
  hwx1_0 : ∀ i : grid1.Coords, EltTy.bits .bf16 = 32 ∨ (Rect.block (s := S200000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x112.size a ≤ S200000x112.size a
  hwx1_1 : ∀ i : grid1.Coords, EltTy.bits .bf16 = 32 ∨ (Rect.block (s := S200000x112) S4000x112.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S240x128.size a ≤ S240x128.size a
  hwx1_2 : ∀ i : grid1.Coords, EltTy.bits .bf16 = 32 ∨ (Rect.block (s := S240x128) S240x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x144.size a ≤ S128x144.size a
  hwx1_4 : ∀ i : grid1.Coords, EltTy.bits .bf16 = 32 ∨ (Rect.block (s := S128x144) S128x144.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S144.size a ≤ S144.size a
  hwx1_5 : ∀ i : grid1.Coords, EltTy.bits .f32 = 32 ∨ (Rect.block (s := S144) S144.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x144.size a ≤ S200000x144.size a
  hwx1_6 : ∀ i : grid1.Coords, EltTy.bits .f32 = 32 ∨ (Rect.block (s := S200000x144) S4000x144.size (cc1_transform_6 i) (hinb1_6 i)).WholeWords (EltTy.packing .f32)

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def gather_S200000x112_S1000000x1_S1000000x112_1_0_n_n_0_1_1112 : GatherDims S200000x112 S1000000x1 S1000000x112 where
  offsetDims := [1]
  collapsedSliceDims := [0]
  operandBatchingDims := []
  startIndicesBatchingDims := []
  startIndexMap := [0]
  indexVectorDim := 1
  sliceSizes := ![1, 112]
  wf := gather_S200000x112_S1000000x1_S1000000x112_1_0_n_n_0_1_1112_wf
def gather_S200000_S1000000x1_S1000000_n_0_n_n_0_1_1 : GatherDims S200000 S1000000x1 S1000000 where
  offsetDims := []
  collapsedSliceDims := [0]
  operandBatchingDims := []
  startIndicesBatchingDims := []
  startIndexMap := [0]
  indexVectorDim := 1
  sliceSizes := ![1]
  wf := gather_S200000_S1000000x1_S1000000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def scatter_S400000x64_S1000000x1_S1000000x64_1_0_0_1 : ScatterDims S400000x64 S1000000x1 S1000000x64 where
  updateWindowDims := [1]
  insertedWindowDims := [0]
  scatterDimsToOperandDims := [0]
  indexVectorDim := 1
  wf := scatter_S400000x64_S1000000x1_S1000000x64_1_0_0_1_wf
def dot_S4000x240_S240x128_S4000x128_1_0_0_1_n_n : DotDims S4000x240 S240x128 S4000x128 where
  lhsContracting := [1]
  rhsContracting := [0]
  lhsNonContracting := [0]
  rhsNonContracting := [1]
  lhsBatch := []
  rhsBatch := []
  wf := dot_S4000x240_S240x128_S4000x128_1_0_0_1_n_n_wf
def dot_S4000x128_S128x144_S4000x144_1_0_0_1_n_n : DotDims S4000x128 S128x144 S4000x144 where
  lhsContracting := [1]
  rhsContracting := [0]
  lhsNonContracting := [0]
  rhsNonContracting := [1]
  lhsBatch := []
  rhsBatch := []
  wf := dot_S4000x128_S128x144_S4000x144_1_0_0_1_n_n_wf

abbrev win0_0 : Pipeline.Window sig grid0 :=
  Pipeline.Window.ofSpec (Memref.whole main_v10) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S5000x112.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S5000x17.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v41) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S256x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v43) S5000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v48) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4000x112.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S240x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S128x144.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S144.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S4000x144.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S200000x112 : Shape := ⟨2, ![200000, 112]⟩
abbrev S1000000x2 : Shape := ⟨2, ![1000000, 2]⟩
abbrev S1000000 : Shape := ⟨1, ![1000000]⟩
abbrev S1000000x16 : Shape := ⟨2, ![1000000, 16]⟩
abbrev S200000 : Shape := ⟨1, ![200000]⟩
abbrev S256x64 : Shape := ⟨2, ![256, 64]⟩
abbrev S64 : Shape := ⟨1, ![64]⟩
abbrev S240x128 : Shape := ⟨2, ![240, 128]⟩
abbrev S128 : Shape := ⟨1, ![128]⟩
abbrev S128x144 : Shape := ⟨2, ![128, 144]⟩
abbrev S144 : Shape := ⟨1, ![144]⟩
abbrev S1000000x1 : Shape := ⟨2, ![1000000, 1]⟩
abbrev S_ : Shape := ⟨0, ![]⟩
abbrev S1000000x64 : Shape := ⟨2, ![1000000, 64]⟩
abbrev S1000000x112 : Shape := ⟨2, ![1000000, 112]⟩
abbrev S1000000x256 : Shape := ⟨2, ![1000000, 256]⟩
abbrev S1x64 : Shape := ⟨2, ![1, 64]⟩
abbrev S400000x64 : Shape := ⟨2, ![400000, 64]⟩
abbrev S200000x2x64 : Shape := ⟨3, ![200000, 2, 64]⟩
abbrev S200000x1x64 : Shape := ⟨3, ![200000, 1, 64]⟩
abbrev S200000x64 : Shape := ⟨2, ![200000, 64]⟩
abbrev S200000x240 : Shape := ⟨2, ![200000, 240]⟩
abbrev S200000x128 : Shape := ⟨2, ![200000, 128]⟩
abbrev S1x128 : Shape := ⟨2, ![1, 128]⟩
abbrev S200000x144 : Shape := ⟨2, ![200000, 144]⟩
abbrev S1x144 : Shape := ⟨2, ![1, 144]⟩

abbrev nBuf : Space → Nat
  | .hbm => 126
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S200000x112, .f32⟩
  | .hbm, ⟨2, _⟩ => ⟨S1000000x2, .i32⟩
  | .hbm, ⟨3, _⟩ => ⟨S1000000, .i32⟩
  | .hbm, ⟨4, _⟩ => ⟨S1000000x16, .f32⟩
  | .hbm, ⟨5, _⟩ => ⟨S1000000, .i32⟩
  | .hbm, ⟨6, _⟩ => ⟨S200000, .f32⟩
  | .hbm, ⟨7, _⟩ => ⟨S256x64, .f32⟩
  | .hbm, ⟨8, _⟩ => ⟨S64, .f32⟩
  | .hbm, ⟨9, _⟩ => ⟨S256x64, .f32⟩
  | .hbm, ⟨10, _⟩ => ⟨S64, .f32⟩
  | .hbm, ⟨11, _⟩ => ⟨S240x128, .f32⟩
  | .hbm, ⟨12, _⟩ => ⟨S128, .f32⟩
  | .hbm, ⟨13, _⟩ => ⟨S128x144, .f32⟩
  | .hbm, ⟨14, _⟩ => ⟨S144, .f32⟩
  | .hbm, ⟨15, _⟩ => ⟨S1000000x1, .i32⟩
  | .hbm, ⟨16, _⟩ => ⟨S1000000, .i32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x64, .f32⟩
  | .hbm, ⟨26, _⟩ => ⟨S1000000x1, .i32⟩
  | .hbm, ⟨27, _⟩ => ⟨S1000000, .i32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x64, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x112, .f32⟩
  | .hbm, ⟨46, _⟩ => ⟨S1000000x256, .f32⟩
  | .hbm, ⟨47, _⟩ => ⟨S1000000x64, .f32⟩
  | .hbm, ⟨48, _⟩ => ⟨S1x64, .f32⟩
  | .hbm, ⟨49, _⟩ => ⟨S1000000x64, .f32⟩
  | .hbm, ⟨50, _⟩ => ⟨S1000000x64, .f32⟩
  | .hbm, ⟨51, _⟩ => ⟨S1000000x64, .f32⟩
  | .hbm, ⟨52, _⟩ => ⟨S1000000x64, .f32⟩
  | .hbm, ⟨53, _⟩ => ⟨S_, .f32⟩
  | .hbm, ⟨54, _⟩ => ⟨S1000000x64, .f32⟩
  | .hbm, ⟨55, _⟩ => ⟨S1000000x64, .f32⟩
  | .hbm, ⟨56, _⟩ => ⟨S_, .f32⟩
  | .hbm, ⟨57, _⟩ => ⟨S1000000x64, .f32⟩
  | .hbm, ⟨58, _⟩ => ⟨S1000000x64, .f32⟩
  | .hbm, ⟨59, _⟩ => ⟨S1000000x64, .f32⟩
  | .hbm, ⟨60, _⟩ => ⟨S1x64, .f32⟩
  | .hbm, ⟨61, _⟩ => ⟨S1000000x64, .f32⟩
  | .hbm, ⟨62, _⟩ => ⟨S1000000x64, .f32⟩
  | .hbm, ⟨63, _⟩ => ⟨S_, .f32⟩
  | .hbm, ⟨64, _⟩ => ⟨S1000000x64, .f32⟩
  | .hbm, ⟨65, _⟩ => ⟨S1000000x64, .f32⟩
  | .hbm, ⟨66, _⟩ => ⟨S1000000x64, .f32⟩
  | .hbm, ⟨67, _⟩ => ⟨S1000000x64, .f32⟩
  | .hbm, ⟨68, _⟩ => ⟨S1000000x64, .i1⟩
  | .hbm, ⟨69, _⟩ => ⟨S1000000x64, .f32⟩
  | .hbm, ⟨70, _⟩ => ⟨S1000000x64, .f32⟩
  | .hbm, ⟨71, _⟩ => ⟨S1000000x64, .f32⟩
  | .hbm, ⟨72, _⟩ => ⟨S1000000x64, .f32⟩
  | .hbm, ⟨73, _⟩ => ⟨S1000000x64, .f32⟩
  | .hbm, ⟨74, _⟩ => ⟨S1000000x64, .f32⟩
  | .hbm, ⟨75, _⟩ => ⟨S1000000x64, .f32⟩
  | .hbm, ⟨76, _⟩ => ⟨S1000000x64, .f32⟩
  | .hbm, ⟨77, _⟩ => ⟨S1000000x64, .f32⟩
  | .hbm, ⟨78, _⟩ => ⟨S_, .i32⟩
  | .hbm, ⟨79, _⟩ => ⟨S1000000, .i32⟩
  | .hbm, ⟨80, _⟩ => ⟨S1000000, .i1⟩
  | .hbm, ⟨81, _⟩ => ⟨S_, .i32⟩
  | .hbm, ⟨82, _⟩ => ⟨S1000000, .i32⟩
  | .hbm, ⟨83, _⟩ => ⟨S1000000, .i32⟩
  | .hbm, ⟨84, _⟩ => ⟨S1000000, .i32⟩
  | .hbm, ⟨85, _⟩ => ⟨S1000000x1, .i32⟩
  | .hbm, ⟨86, _⟩ => ⟨S1000000, .f32⟩
  | .hbm, ⟨87, _⟩ => ⟨S1000000, .f32⟩
  | .hbm, ⟨88, _⟩ => ⟨S1000000, .f32⟩
  | .hbm, ⟨89, _⟩ => ⟨S_, .f32⟩
  | .hbm, ⟨90, _⟩ => ⟨S1000000, .f32⟩
  | .hbm, ⟨91, _⟩ => ⟨S1000000, .f32⟩
  | .hbm, ⟨92, _⟩ => ⟨S_, .f32⟩
  | .hbm, ⟨93, _⟩ => ⟨S1000000, .f32⟩
  | .hbm, ⟨94, _⟩ => ⟨S1000000, .f32⟩
  | .hbm, ⟨95, _⟩ => ⟨S1000000, .f32⟩
  | .hbm, ⟨96, _⟩ => ⟨S1000000x1, .f32⟩
  | .hbm, ⟨97, _⟩ => ⟨S1000000x64, .f32⟩
  | .hbm, ⟨98, _⟩ => ⟨S1000000x64, .f32⟩
  | .hbm, ⟨99, _⟩ => ⟨S_, .f32⟩
  | .hbm, ⟨100, _⟩ => ⟨S400000x64, .f32⟩
  | .hbm, ⟨101, _⟩ => ⟨S1000000x1, .i32⟩
  | .hbm, ⟨102, _⟩ => ⟨S400000x64, .f32⟩
  | .hbm, ⟨103, _⟩ => ⟨S200000x2x64, .f32⟩
  | .hbm, ⟨104, _⟩ => ⟨S200000x1x64, .f32⟩
  | .hbm, ⟨105, _⟩ => ⟨S200000x64, .f32⟩
  | .hbm, ⟨106, _⟩ => ⟨S200000x1x64, .f32⟩
  | .hbm, ⟨107, _⟩ => ⟨S200000x64, .f32⟩
  | .hbm, ⟨108, _⟩ => ⟨S200000x240, .f32⟩
  | .hbm, ⟨109, _⟩ => ⟨S200000x128, .f32⟩
  | .hbm, ⟨110, _⟩ => ⟨S1x128, .f32⟩
  | .hbm, ⟨111, _⟩ => ⟨S200000x128, .f32⟩
  | .hbm, ⟨112, _⟩ => ⟨S200000x128, .f32⟩
  | .hbm, ⟨113, _⟩ => ⟨S200000x128, .f32⟩
  | .hbm, ⟨114, _⟩ => ⟨S200000x128, .f32⟩
  | .hbm, ⟨115, _⟩ => ⟨S_, .f32⟩
  | .hbm, ⟨116, _⟩ => ⟨S200000x128, .f32⟩
  | .hbm, ⟨117, _⟩ => ⟨S200000x128, .f32⟩
  | .hbm, ⟨118, _⟩ => ⟨S_, .f32⟩
  | .hbm, ⟨119, _⟩ => ⟨S200000x128, .f32⟩
  | .hbm, ⟨120, _⟩ => ⟨S200000x128, .f32⟩
  | .hbm, ⟨121, _⟩ => ⟨S200000x128, .f32⟩
  | .hbm, ⟨122, _⟩ => ⟨S200000x144, .f32⟩
  | .hbm, ⟨123, _⟩ => ⟨S1x144, .f32⟩
  | .hbm, ⟨124, _⟩ => ⟨S200000x144, .f32⟩
  | .hbm, ⟨125, _⟩ => ⟨S200000x144, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_v7 : Ref sig .tc := ⟨.hbm, 71, rfl⟩
abbrev main_call0_v8 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_v40 : Ref sig .tc := ⟨.hbm, 76, rfl⟩
abbrev main_v41 : Ref sig .tc := ⟨.hbm, 77, rfl⟩
abbrev main_c_6 : Ref sig .tc := ⟨.hbm, 78, rfl⟩
abbrev main_v42 : Ref sig .tc := ⟨.hbm, 79, rfl⟩
abbrev main_v43 : Ref sig .tc := ⟨.hbm, 80, rfl⟩
abbrev main_c_7 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_8 : Ref sig .tc := ⟨.hbm, 89, rfl⟩
abbrev main_v51 : Ref sig .tc := ⟨.hbm, 90, rfl⟩
abbrev main_v52 : Ref sig .tc := ⟨.hbm, 91, rfl⟩
abbrev main_cst_9 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_10 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_call1_v0 : Ref sig .tc := ⟨.hbm, 113, rfl⟩
abbrev main_call1_v1 : Ref sig .tc := ⟨.hbm, 114, rfl⟩
abbrev main_call1_cst : Ref sig .tc := ⟨.hbm, 115, rfl⟩
abbrev main_call1_v2 : Ref sig .tc := ⟨.hbm, 116, rfl⟩
abbrev main_call1_v3 : Ref sig .tc := ⟨.hbm, 117, rfl⟩
abbrev main_call1_cst_0 : Ref sig .tc := ⟨.hbm, 118, rfl⟩
abbrev main_call1_v4 : Ref sig .tc := ⟨.hbm, 119, rfl⟩
abbrev main_call1_v5 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩

abbrev nD : Nat := 1
abbrev τ : Topo := Topo.v7x

variable {F : FTy → Type} [FloatOps F]

class Facts₀ : Prop where
  slices_S1000000x2_S1000000x1_0_0 : S1000000x2.Slices ![0, 0] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S1000000x2_S1000000x1_0_1 : S1000000x2.Slices ![0, 1] S1000000x1
  concatenates_S1000000x64_S1000000x64_S1000000x112_S1000000x16_S1000000x256_d1 : Shape.Concatenates [S1000000x64, S1000000x64, S1000000x112, S1000000x16] S1000000x256 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S1000000x1_S1000000x64_0_1 : S1000000x1.BroadcastsInDim S1000000x64 (![0, 1] : Fin 2 → Fin S1000000x64.rank)
  bcast_S_S400000x64 : S_.BroadcastsInDim S400000x64 (![] : Fin 0 → Fin S400000x64.rank)
  shapeCasts_S400000x64_S200000x2x64 : S400000x64.ShapeCasts S200000x2x64
  slices_S200000x2x64_S200000x1x64_0_0_0 : S200000x2x64.Slices ![0, 0, 0] S200000x1x64
  shapeCasts_S200000x1x64_S200000x64 : S200000x1x64.ShapeCasts S200000x64
  slices_S200000x2x64_S200000x1x64_0_1_0 : S200000x2x64.Slices ![0, 1, 0] S200000x1x64
  concatenates_S200000x64_S200000x64_S200000x112_S200000x240_d1 : Shape.Concatenates [S200000x64, S200000x64, S200000x112] S200000x240 1
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S144_S1x144_1 : S144.BroadcastsInDim S1x144 (![1] : Fin 1 → Fin S1x144.rank)
  bcast_S1x144_S200000x144_0_1 : S1x144.BroadcastsInDim S200000x144 (![0, 1] : Fin 2 → Fin S200000x144.rank)
  gather_S50000x64_S1000000x1_S1000000x64_1_0_n_n_0_1_164_wf : GatherDims.WF S50000x64 S1000000x1 S1000000x64 [1] [0] [] [0] [] 1 ![1, 64]
  gather_S200000x112_S1000000x1_S1000000x112_1_0_n_n_0_1_1112_wf : GatherDims.WF S200000x112 S1000000x1 S1000000x112 [1] [0] [] [0] [] 1 ![1, 112]
  dot_S1000000x256_S256x64_S1000000x64_1_0_0_1_n_n_wf : DotDims.WF S1000000x256 S256x64 S1000000x64 [1] [0] [0] [1] [] []
  gather_S200000_S1000000x1_S1000000_n_0_n_n_0_1_1_wf : GatherDims.WF S200000 S1000000x1 S1000000 [] [0] [] [0] [] 1 ![1]
  scatter_S400000x64_S1000000x1_S1000000x64_1_0_0_1_wf : ScatterDims.WF S400000x64 S1000000x1 S1000000x64 [1] [0] [0] 1
  dot_S200000x240_S240x128_S200000x128_1_0_0_1_n_n_wf : DotDims.WF S200000x240 S240x128 S200000x128 [1] [0] [0] [1] [] []
  dot_S200000x128_S128x144_S200000x144_1_0_0_1_n_n_wf : DotDims.WF S200000x128 S128x144 S200000x144 [1] [0] [0] [1] [] []

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def gather_S200000x112_S1000000x1_S1000000x112_1_0_n_n_0_1_1112 : GatherDims S200000x112 S1000000x1 S1000000x112 where
  offsetDims := [1]
  collapsedSliceDims := [0]
  operandBatchingDims := []
  startIndicesBatchingDims := []
  startIndexMap := [0]
  indexVectorDim := 1
  sliceSizes := ![1, 112]
  wf := gather_S200000x112_S1000000x1_S1000000x112_1_0_n_n_0_1_1112_wf
def dot_S1000000x256_S256x64_S1000000x64_1_0_0_1_n_n : DotDims S1000000x256 S256x64 S1000000x64 where
  lhsContracting := [1]
  rhsContracting := [0]
  lhsNonContracting := [0]
  rhsNonContracting := [1]
  lhsBatch := []
  rhsBatch := []
  wf := dot_S1000000x256_S256x64_S1000000x64_1_0_0_1_n_n_wf
def gather_S200000_S1000000x1_S1000000_n_0_n_n_0_1_1 : GatherDims S200000 S1000000x1 S1000000 where
  offsetDims := []
  collapsedSliceDims := [0]
  operandBatchingDims := []
  startIndicesBatchingDims := []
  startIndexMap := [0]
  indexVectorDim := 1
  sliceSizes := ![1]
  wf := gather_S200000_S1000000x1_S1000000_n_0_n_n_0_1_1_wf
def scatter_S400000x64_S1000000x1_S1000000x64_1_0_0_1 : ScatterDims S400000x64 S1000000x1 S1000000x64 where
  updateWindowDims := [1]
  insertedWindowDims := [0]
  scatterDimsToOperandDims := [0]
  indexVectorDim := 1
  wf := scatter_S400000x64_S1000000x1_S1000000x64_1_0_0_1_wf
def dot_S200000x240_S240x128_S200000x128_1_0_0_1_n_n : DotDims S200000x240 S240x128 S200000x128 where
  lhsContracting := [1]
  rhsContracting := [0]
  lhsNonContracting := [0]
  rhsNonContracting := [1]
  lhsBatch := []
  rhsBatch := []
  wf := dot_S200000x240_S240x128_S200000x128_1_0_0_1_n_n_wf
def dot_S200000x128_S128x144_S200000x144_1_0_0_1_n_n : DotDims S200000x128 S128x144 S200000x144 where
  lhsContracting := [1]
  rhsContracting := [0]
  lhsNonContracting := [0]
  rhsNonContracting := [1]
  lhsBatch := []
  rhsBatch := []
  wf := dot_S200000x128_S128x144_S200000x144_1_0_0_1_n_n_wf

class Facts : Prop extends Facts₀ where

variable [Facts]
-- ==== Proof.KRun.lean ====
/-
  The idealized kernel program's run, with EVERY buffer named at its end.

  The program is two pipelined regions among two stretches of host operations. Its buffers' contents at the four
  boundaries are a fold: the launch memory, then the first stretch's operations applied, then the first region's arrays
  replaced by what its write-backs leave, then the second stretch, then the second region's arrays. Every weakly fair
  execution terminates, nothing faulting, and ends with every buffer that outlives the regions at the last of these
  (run_all). Two readings of that: the argument arrays are never written, so they end as launched, and the result
  buffer ends at the fold's value there (run_result).
-/
import proofs.«176142_j34437047779388_2_alg».proof.Proof.KernelIdealFrameP

set_option maxRecDepth 16384

noncomputable section

namespace Cert.EdgeMsg.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer that outlives the regions at the
    last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result buffer ends at the last boundary's contents there, and the argument arrays end as launched. -/
theorem run_result : θ_run defs (onTc (τ := τ) (main (F := F))) ⟨m, fun _ => 0, ρ⟩ (fun r => ∀ c : Dev nD,
      r.2.mem ((c.tc : Thread nD τ).loc main_v51) = W4 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v51 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c)⟩) (run_all m ρ)

end Cert.EdgeMsg.KRun

end
-- ==== Proof.RefArgs.lean ====
/-
  The second program never writes an argument array: folding its 111 operations over the launch memory leaves each
  argument's buffer as launched.
-/
import proofs.«176142_j34437047779388_2_alg».proof.Proof.ReferenceRunP

set_option maxRecDepth 8192

noncomputable section

namespace Cert.EdgeMsg.RefArgs

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F] (m : (ℓ : Loc nD τ sig) → Buf (Elt F) ℓ) (c : Dev nD)

set_option maxHeartbeats 4000000 in
theorem kept0 : after (ops (F := F)) (launchContents m c) (Proc.devRef .tc main_arg0) = m ((c.tc : Thread nD τ).loc main_arg0) := by
  after_results_simp <;> rfl

set_option maxHeartbeats 4000000 in
theorem kept1 : after (ops (F := F)) (launchContents m c) (Proc.devRef .tc main_arg1) = m ((c.tc : Thread nD τ).loc main_arg1) := by
  after_results_simp <;> rfl

set_option maxHeartbeats 4000000 in
theorem kept2 : after (ops (F := F)) (launchContents m c) (Proc.devRef .tc main_arg2) = m ((c.tc : Thread nD τ).loc main_arg2) := by
  after_results_simp <;> rfl

set_option maxHeartbeats 4000000 in
theorem kept3 : after (ops (F := F)) (launchContents m c) (Proc.devRef .tc main_arg3) = m ((c.tc : Thread nD τ).loc main_arg3) := by
  after_results_simp <;> rfl

set_option maxHeartbeats 4000000 in
theorem kept4 : after (ops (F := F)) (launchContents m c) (Proc.devRef .tc main_arg4) = m ((c.tc : Thread nD τ).loc main_arg4) := by
  after_results_simp <;> rfl

set_option maxHeartbeats 4000000 in
theorem kept5 : after (ops (F := F)) (launchContents m c) (Proc.devRef .tc main_arg5) = m ((c.tc : Thread nD τ).loc main_arg5) := by
  after_results_simp <;> rfl

set_option maxHeartbeats 4000000 in
theorem kept6 : after (ops (F := F)) (launchContents m c) (Proc.devRef .tc main_arg6) = m ((c.tc : Thread nD τ).loc main_arg6) := by
  after_results_simp <;> rfl

set_option maxHeartbeats 4000000 in
theorem kept7 : after (ops (F := F)) (launchContents m c) (Proc.devRef .tc main_arg7) = m ((c.tc : Thread nD τ).loc main_arg7) := by
  after_results_simp <;> rfl

set_option maxHeartbeats 4000000 in
theorem kept8 : after (ops (F := F)) (launchContents m c) (Proc.devRef .tc main_arg8) = m ((c.tc : Thread nD τ).loc main_arg8) := by
  after_results_simp <;> rfl

set_option maxHeartbeats 4000000 in
theorem kept9 : after (ops (F := F)) (launchContents m c) (Proc.devRef .tc main_arg9) = m ((c.tc : Thread nD τ).loc main_arg9) := by
  after_results_simp <;> rfl

set_option maxHeartbeats 4000000 in
theorem kept10 : after (ops (F := F)) (launchContents m c) (Proc.devRef .tc main_arg10) = m ((c.tc : Thread nD τ).loc main_arg10) := by
  after_results_simp <;> rfl

set_option maxHeartbeats 4000000 in
theorem kept11 : after (ops (F := F)) (launchContents m c) (Proc.devRef .tc main_arg11) = m ((c.tc : Thread nD τ).loc main_arg11) := by
  after_results_simp <;> rfl

set_option maxHeartbeats 4000000 in
theorem kept12 : after (ops (F := F)) (launchContents m c) (Proc.devRef .tc main_arg12) = m ((c.tc : Thread nD τ).loc main_arg12) := by
  after_results_simp <;> rfl

set_option maxHeartbeats 4000000 in
theorem kept13 : after (ops (F := F)) (launchContents m c) (Proc.devRef .tc main_arg13) = m ((c.tc : Thread nD τ).loc main_arg13) := by
  after_results_simp <;> rfl

set_option maxHeartbeats 4000000 in
theorem kept14 : after (ops (F := F)) (launchContents m c) (Proc.devRef .tc main_arg14) = m ((c.tc : Thread nD τ).loc main_arg14) := by
  after_results_simp <;> rfl

end Cert.EdgeMsg.RefArgs

end
-- ==== Proof.Spec.lean ====
/-
  What both programs compute, an entry at a time, on the extended reals.

  A sample r has 256 features: the 64 features of each of its two atoms, the 112 of its edge and its 16 angle
  features, side by side (feat). Two dense layers over them give a gate, logistic (z.Wf + bf), and a core,
  softplus (z.Ws + bs); their product, damped by the sample's distance factor, is the sample's message (gatedAt).
  Messages are then summed per slot (twice as many slots as edges: that sum is one and the same operation in both
  programs and is not opened here), the two slots of an edge are laid side by side (pairRows) next to the edge's own
  112 features (hfeat), and a dense layer, silu, and a second dense layer give the result (edgeAt).

  Everything is stated for ANY number of rows: an entry of row r depends on row r of the row-wise operands only
  (gatedAt_congr, edgeAt_congr), so a block of rows computes what the whole array computes on those rows.
-/
import Idealize.ShloMosaic.Lib.ValueIdx
import Idealize.ShloMosaic.PureOps.Ideal

noncomputable section

open scoped BigOperators

namespace Cert.EdgeMsg

open Idealize.ShloMosaic Idealize.ShloMosaic.ValueIdx

/-- An r by c array of extended reals. -/
abbrev Mat (r c : ℕ) : Type := (⟨2, ![r, c]⟩ : Shape).Idx → EReal
/-- A vector of n extended reals. -/
abbrev Row (n : ℕ) : Type := (⟨1, ![n]⟩ : Shape).Idx → EReal

/-- log (1 + e^x) in its overflow-safe form max x 0 + log1p (e^(-|x|)), with |x| = max x (-x). -/
def softplus (x : EReal) : EReal := max x 0 + Ideal.log1p (Ideal.exp (-(max x (-x))))

/-- x times logistic x. -/
def silu (x : EReal) : EReal := x * Ideal.logistic x

/-- Feature k of sample r: first atom (64), second atom (64), edge (112), angles (16). -/
def feat {R : ℕ} (a0 a1 : Mat R 64) (eg : Mat R 112) (ang : Mat R 16) (r : Fin R) (k : Fin 256) : EReal :=
  if h0 : k.val < 64 then a0 (ix2 r ⟨k.val, h0⟩)
  else if h1 : k.val < 128 then a1 (ix2 r ⟨k.val - 64, by omega⟩)
  else if h2 : k.val < 240 then eg (ix2 r ⟨k.val - 128, by omega⟩)
  else ang (ix2 r ⟨k.val - 240, by have := k.isLt; omega⟩)

/-- A dense layer at (r, j): row r of x against column j of w, plus the bias' entry j. -/
def lin {R K N : ℕ} (x : Fin R → Fin K → EReal) (w : Mat K N) (b : Row N) (r : Fin R) (j : Fin N) : EReal :=
  (∑ k : Fin K, x r k * w (ix2 k j)) + b (ix1 j)

/-- The message of sample r, feature j: gate times core times the sample's distance factor. -/
def gatedAt {R : ℕ} (a0 a1 : Mat R 64) (eg : Mat R 112) (ang : Mat R 16) (dec : Row R)
    (wf : Mat 256 64) (bf : Row 64) (ws : Mat 256 64) (bs : Row 64) (r : Fin R) (j : Fin 64) : EReal :=
  Ideal.logistic (lin (feat a0 a1 eg ang) wf bf r j) * softplus (lin (feat a0 a1 eg ang) ws bs r j) * dec (ix1 r)

/-- All messages, as one array. -/
def gated {R : ℕ} (a0 a1 : Mat R 64) (eg : Mat R 112) (ang : Mat R 16) (dec : Row R)
    (wf : Mat 256 64) (bf : Row 64) (ws : Mat 256 64) (bs : Row 64) : Mat R 64 :=
  fun i => gatedAt a0 a1 eg ang dec wf bf ws bs (i 0) (i 1)

theorem gated_apply {R : ℕ} (a0 a1 : Mat R 64) (eg : Mat R 112) (ang : Mat R 16) (dec : Row R)
    (wf : Mat 256 64) (bf : Row 64) (ws : Mat 256 64) (bs : Row 64) (r : Fin R) (j : Fin 64) :
    gated a0 a1 eg ang dec wf bf ws bs (ix2 r j) = gatedAt a0 a1 eg ang dec wf bf ws bs r j := rfl

/-- The features of a sample are those of any sample, of any array, with the same rows. -/
theorem feat_congr {R R' : ℕ} {a0 a1 : Mat R 64} {eg : Mat R 112} {ang : Mat R 16}
    {a0' a1' : Mat R' 64} {eg' : Mat R' 112} {ang' : Mat R' 16} {r : Fin R} {r' : Fin R'}
    (h0 : ∀ k, a0 (ix2 r k) = a0' (ix2 r' k)) (h1 : ∀ k, a1 (ix2 r k) = a1' (ix2 r' k))
    (he : ∀ k, eg (ix2 r k) = eg' (ix2 r' k)) (ha : ∀ k, ang (ix2 r k) = ang' (ix2 r' k)) :
    feat a0 a1 eg ang r = feat a0' a1' eg' ang' r' := by
  funext k
  unfold feat
  split_ifs
  · exact h0 _
  · exact h1 _
  · exact he _
  · exact ha _

/-- A message depends on its own sample's rows only. -/
theorem gatedAt_congr {R R' : ℕ} {a0 a1 : Mat R 64} {eg : Mat R 112} {ang : Mat R 16} {dec : Row R}
    {a0' a1' : Mat R' 64} {eg' : Mat R' 112} {ang' : Mat R' 16} {dec' : Row R'} {r : Fin R} {r' : Fin R'}
    (h0 : ∀ k, a0 (ix2 r k) = a0' (ix2 r' k)) (h1 : ∀ k, a1 (ix2 r k) = a1' (ix2 r' k))
    (he : ∀ k, eg (ix2 r k) = eg' (ix2 r' k)) (ha : ∀ k, ang (ix2 r k) = ang' (ix2 r' k))
    (hd : dec (ix1 r) = dec' (ix1 r'))
    (wf : Mat 256 64) (bf : Row 64) (ws : Mat 256 64) (bs : Row 64) (j : Fin 64) :
    gatedAt a0 a1 eg ang dec wf bf ws bs r j = gatedAt a0' a1' eg' ang' dec' wf bf ws bs r' j := by
  unfold gatedAt lin
  rw [feat_congr h0 h1 he ha, hd]

/-- Feature l of edge e: its two summed slots side by side (128), then its own features (112). -/
def hfeat {E : ℕ} (agg : Mat E 128) (ef : Mat E 112) (e : Fin E) (l : Fin 240) : EReal :=
  if h : l.val < 128 then agg (ix2 e ⟨l.val, h⟩) else ef (ix2 e ⟨l.val - 128, by have := l.isLt; omega⟩)

/-- The result at edge e, output feature j: dense, silu, dense. -/
def edgeAt {E : ℕ} (agg : Mat E 128) (ef : Mat E 112) (w1 : Mat 240 128) (b1 : Row 128) (w2 : Mat 128 144)
    (b2 : Row 144) (e : Fin E) (j : Fin 144) : EReal :=
  (∑ k : Fin 128, silu (lin (hfeat agg ef) w1 b1 e k) * w2 (ix2 k j)) + b2 (ix1 j)

/-- The whole result, as one array. -/
def edge {E : ℕ} (agg : Mat E 128) (ef : Mat E 112) (w1 : Mat 240 128) (b1 : Row 128) (w2 : Mat 128 144)
    (b2 : Row 144) : Mat E 144 :=
  fun i => edgeAt agg ef w1 b1 w2 b2 (i 0) (i 1)

theorem edge_apply {E : ℕ} (agg : Mat E 128) (ef : Mat E 112) (w1 : Mat 240 128) (b1 : Row 128) (w2 : Mat 128 144)
    (b2 : Row 144) (e : Fin E) (j : Fin 144) :
    edge agg ef w1 b1 w2 b2 (ix2 e j) = edgeAt agg ef w1 b1 w2 b2 e j := rfl

theorem hfeat_congr {E E' : ℕ} {agg : Mat E 128} {ef : Mat E 112} {agg' : Mat E' 128} {ef' : Mat E' 112}
    {e : Fin E} {e' : Fin E'} (hg : ∀ k, agg (ix2 e k) = agg' (ix2 e' k)) (hf : ∀ k, ef (ix2 e k) = ef' (ix2 e' k)) :
    hfeat agg ef e = hfeat agg' ef' e' := by
  funext l
  unfold hfeat
  split_ifs
  · exact hg _
  · exact hf _

/-- An edge's result depends on its own rows only. -/
theorem edgeAt_congr {E E' : ℕ} {agg : Mat E 128} {ef : Mat E 112} {agg' : Mat E' 128} {ef' : Mat E' 112}
    {e : Fin E} {e' : Fin E'} (hg : ∀ k, agg (ix2 e k) = agg' (ix2 e' k)) (hf : ∀ k, ef (ix2 e k) = ef' (ix2 e' k))
    (w1 : Mat 240 128) (b1 : Row 128) (w2 : Mat 128 144) (b2 : Row 144) (j : Fin 144) :
    edgeAt agg ef w1 b1 w2 b2 e j = edgeAt agg' ef' w1 b1 w2 b2 e' j := by
  unfold edgeAt lin
  rw [hfeat_congr hg hf]

/-- The 400000 slot sums as 200000 rows of two slots each: entry (e, l) is slot 2e + l / 64, feature l % 64. -/
def pairRows (A : Mat 400000 64) : Mat 200000 128 :=
  fun i => A (ix2 (⟨2 * (i 0).val + (i 1).val / 64, by have h0 := idx2_lt0 i; have h1 := idx2_lt1 i; omega⟩ : Fin 400000)
    (⟨(i 1).val % 64, Nat.mod_lt _ (by norm_num)⟩ : Fin 64))

theorem pairRows_apply (A : Mat 400000 64) (e : Fin 200000) (l : Fin 128) :
    pairRows A (ix2 e l) = A (ix2 (⟨2 * e.val + l.val / 64, by have := e.isLt; have := l.isLt; omega⟩ : Fin 400000)
      (⟨l.val % 64, Nat.mod_lt _ (by norm_num)⟩ : Fin 64)) := rfl

/-- The 16 angle features of every sample: the first 16 of its 17 columns. -/
def angOf {R : ℕ} (x : Mat R 17) : Mat R 16 :=
  fun i => x (ix2 (i 0) (⟨(i 1).val, by have := idx2_lt1 i; omega⟩ : Fin 17))

theorem angOf_apply {R : ℕ} (x : Mat R 17) (r : Fin R) (k : Fin 16) :
    angOf x (ix2 r k) = x (ix2 r (⟨k.val, by have := k.isLt; omega⟩ : Fin 17)) := rfl

/-- The distance factor of every sample: the last of its 17 columns. -/
def decOf {R : ℕ} (x : Mat R 17) : Row R := fun i => x (ix2 (i 0) (16 : Fin 17))

theorem decOf_apply {R : ℕ} (x : Mat R 17) (r : Fin R) : decOf x (ix1 r) = x (ix2 r (16 : Fin 17)) := rfl

end Cert.EdgeMsg

end
-- ==== Proof.KLayout.lean ====
/-
  Three small facts about how the first program lays its data out, on the extended reals.

  The distance factor: one program divides by 18, the other by 9 and then by 2. A quotient by a nonzero real is the
  product with its reciprocal, on every extended real, and products associate, so the two agree everywhere (no
  finiteness is needed).
  The slot sums: reshaping the 400000 x 64 array of slot sums to 200000 x 128 lays the two slots of an edge side by
  side (pairRows), because both read the same row-major position.
  The 17-column operand: 16 angle columns followed by one distance column, so its first 16 columns are the angles and
  its last the distance factor.
-/
import proofs.«176142_j34437047779388_2_alg».proof.Proof.Spec
import Idealize.ShloMosaic.Lib.Pipeline.Value

noncomputable section

namespace Cert.EdgeMsg.KLayout

open Cert.EdgeMsg Idealize.ShloMosaic Idealize.ShloMosaic.ValueIdx

/-! ## The three divisors -/

theorem ofBits_9 : Ideal.ofBits .f32 0x41100000#32 = ((9 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_18 : Ideal.ofBits .f32 0x41900000#32 = ((18 : ℝ) : EReal) := by
  simp [Ideal.ofBits, Ideal.ieee, -EReal.coe_mul]; norm_num

/-- Dividing by 9 and then by 2 is dividing by 18, on every extended real. -/
theorem div_9_2 (x : EReal) :
    Ideal.div (Ideal.div x (Ideal.ofBits .f32 0x41100000#32)) (Ideal.ofBits .f32 0x40000000#32)
      = Ideal.div x (Ideal.ofBits .f32 0x41900000#32) := by
  rw [ofBits_9, ofBits_2, ofBits_18, Ideal.div_coe (by norm_num : (9 : ℝ) ≠ 0), Ideal.div_coe (by norm_num : (2 : ℝ) ≠ 0),
    Ideal.div_coe (by norm_num : (18 : ℝ) ≠ 0), mul_assoc, ← EReal.coe_mul]
  congr 2
  norm_num

/-! ## The slot sums, two slots to a row -/

theorem reshape_pairs (A : Mat 400000 64) (h : (⟨2, ![400000, 64]⟩ : Shape).ShapeCasts ⟨2, ![200000, 128]⟩) :
    shapeCast ⟨2, ![200000, 128]⟩ A h = pairRows A := by
  funext i
  obtain ⟨e, l, rfl⟩ : ∃ (e : Fin 200000) (l : Fin 128), i = ix2 e l := ⟨i 0, i 1, eq_ix2 i⟩
  rw [pairRows_apply]
  refine shapeCast_apply A h (ix2 e l) _ ?_
  rw [Shape.rowMajor_val_two, Shape.rowMajor_val_two]
  show (2 * e.val + l.val / 64) * 64 + l.val % 64 = e.val * 128 + l.val
  omega

/-! ## The 17-column operand -/

theorem ang_of_cat {R : ℕ} (A : Mat R 16) (B : Mat R 1)
    (h : Shape.Concatenates [(⟨2, ![R, 16]⟩ : Shape), ⟨2, ![R, 1]⟩] ⟨2, ![R, 17]⟩ 1) :
    angOf (concatenate ⟨2, ![R, 17]⟩ 1 [⟨⟨2, ![R, 16]⟩, A⟩, ⟨⟨2, ![R, 1]⟩, B⟩] h) = A := by
  funext i
  obtain ⟨r, k, rfl⟩ : ∃ (r : Fin R) (k : Fin 16), i = ix2 r k := ⟨i 0, i 1, eq_ix2 i⟩
  rw [angOf_apply]
  exact concatenate_pair_apply_left (t := ⟨2, ![R, 17]⟩) (s₁ := ⟨2, ![R, 16]⟩) (s₂ := ⟨2, ![R, 1]⟩) (1 : Fin 2) A B h
    (ix2 r (⟨k.val, by have := k.isLt; omega⟩ : Fin 17)) rfl (ix2 r k)
    (fun b => match b with | ⟨0, _⟩ => rfl | ⟨1, _⟩ => rfl)

theorem dec_of_cat {R : ℕ} (A : Mat R 16) (B : Mat R 1)
    (h : Shape.Concatenates [(⟨2, ![R, 16]⟩ : Shape), ⟨2, ![R, 1]⟩] ⟨2, ![R, 17]⟩ 1) (r : Fin R) :
    decOf (concatenate ⟨2, ![R, 17]⟩ 1 [⟨⟨2, ![R, 16]⟩, A⟩, ⟨⟨2, ![R, 1]⟩, B⟩] h) (ix1 r) = B (ix2 r (0 : Fin 1)) := by
  rw [decOf_apply]
  exact concatenate_pair_apply_right (t := ⟨2, ![R, 17]⟩) (s₁ := ⟨2, ![R, 16]⟩) (s₂ := ⟨2, ![R, 1]⟩) (1 : Fin 2) A B h
    (ix2 r (16 : Fin 17)) rfl rfl (ix2 r (0 : Fin 1))
    (fun b hb => match b, hb with
      | ⟨0, _⟩, _ => rfl
      | ⟨1, _⟩, hb => absurd rfl hb)
    (by rfl)

end Cert.EdgeMsg.KLayout

end
-- ==== Proof.KBlocks0.lean ====
/-
  The first region's output array, as ONE function of the arrays the region finds.

  The region walks 200 points; at point t every row-wise operand's block is rows 5000 t … 5000 t + 4999 of its array
  (all columns), the two weight matrices and the two bias vectors are read whole at every point, and the body's
  store fills the output's block of the same 5000 rows. A message depends on its own sample's rows only, so what
  point t writes back is rows 5000 t … of the array of ALL messages; the 200 blocks tile the array, hence the array
  the region leaves IS the array of all messages.
-/
import proofs.«176142_j34437047779388_2_alg».proof.Proof.KernelIdealFrameP
import proofs.«176142_j34437047779388_2_alg».proof.Proof.Spec
import Idealize.ShloMosaic.Lib.Pipeline.Value

set_option maxRecDepth 16384

noncomputable section

namespace Cert.EdgeMsg.KBlocks0

open Cert.KernelIdeal Cert.KernelIdeal.Gen Cert.KernelIdeal.GenP Cert.EdgeMsg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 200 points: the row-wise windows sit at block (t, 0), the others at 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

theorem t_lt (t : Fin cfg0.N) : t.val < 200 := by
  have h : t.val < cfg0.N := t.isLt
  have e : cfg0.N = 200 := N_0
  omega

/-- Row p of point t's block is row 5000 t + p of the array. -/
abbrev row (t : Fin cfg0.N) (p : Fin 5000) : Fin 1000000 := ⟨5000 * t.val + p.val, by have := t_lt t; have := p.isLt; omega⟩

/-! ## Each window's block, read at an entry -/

theorem blk0 (c : Dev nD) (t : Fin cfg0.N) (p : Fin 5000) (k : Fin 64) :
    iblk0 V c 0 t (ix2 p k) = V c main_v10 (ix2 (row t p) k) := by
  show V c main_v10 (((cfg0.win 0).blk t).view.emb (ix2 p k)) = _
  refine congrArg _ ?_
  obtain ⟨e0, e1, -⟩ := idx_facts t
  funext a; apply Fin.ext
  match a with
  | ⟨0, _⟩ => show win0_0.index t (0 : Fin 2) * 5000 + 1 * p.val = 5000 * t.val + p.val; omega
  | ⟨1, _⟩ => show win0_0.index t (1 : Fin 2) * 64 + 1 * k.val = k.val; omega

theorem blk1 (c : Dev nD) (t : Fin cfg0.N) (p : Fin 5000) (k : Fin 64) :
    iblk0 V c 1 t (ix2 p k) = V c main_v19 (ix2 (row t p) k) := by
  show V c main_v19 (((cfg0.win 1).blk t).view.emb (ix2 p k)) = _
  refine congrArg _ ?_
  obtain ⟨-, -, e0, e1, -⟩ := idx_facts t
  funext a; apply Fin.ext
  match a with
  | ⟨0, _⟩ => show win0_1.index t (0 : Fin 2) * 5000 + 1 * p.val = 5000 * t.val + p.val; omega
  | ⟨1, _⟩ => show win0_1.index t (1 : Fin 2) * 64 + 1 * k.val = k.val; omega

theorem blk2 (c : Dev nD) (t : Fin cfg0.N) (p : Fin 5000) (k : Fin 112) :
    iblk0 V c 2 t (ix2 p k) = V c main_v26 (ix2 (row t p) k) := by
  show V c main_v26 (((cfg0.win 2).blk t).view.emb (ix2 p k)) = _
  refine congrArg _ ?_
  obtain ⟨-, -, -, -, e0, e1, -⟩ := idx_facts t
  funext a; apply Fin.ext
  match a with
  | ⟨0, _⟩ => show win0_2.index t (0 : Fin 2) * 5000 + 1 * p.val = 5000 * t.val + p.val; omega
  | ⟨1, _⟩ => show win0_2.index t (1 : Fin 2) * 112 + 1 * k.val = k.val; omega

theorem blk3 (c : Dev nD) (t : Fin cfg0.N) (p : Fin 5000) (k : Fin 17) :
    iblk0 V c 3 t (ix2 p k) = V c main_v40 (ix2 (row t p) k) := by
  show V c main_v40 (((cfg0.win 3).blk t).view.emb (ix2 p k)) = _
  refine congrArg _ ?_
  obtain ⟨-, -, -, -, -, -, e0, e1, -⟩ := idx_facts t
  funext a; apply Fin.ext
  match a with
  | ⟨0, _⟩ => show win0_3.index t (0 : Fin 2) * 5000 + 1 * p.val = 5000 * t.val + p.val; omega
  | ⟨1, _⟩ => show win0_3.index t (1 : Fin 2) * 17 + 1 * k.val = k.val; omega

/-- The weights and biases are read whole at every point. -/
theorem blk4 (c : Dev nD) (t : Fin cfg0.N) : iblk0 V c 4 t = V c main_v41 := by
  funext y
  show V c main_v41 (((cfg0.win 4).blk t).view.emb y) = _
  refine congrArg _ ?_
  obtain ⟨-, -, -, -, -, -, -, -, e0, e1, -⟩ := idx_facts t
  funext a; apply Fin.ext
  match a with
  | ⟨0, _⟩ => show win0_4.index t (0 : Fin 2) * 256 + 1 * (y 0).val = (y 0).val; omega
  | ⟨1, _⟩ => show win0_4.index t (1 : Fin 2) * 64 + 1 * (y 1).val = (y 1).val; omega

theorem blk5 (c : Dev nD) (t : Fin cfg0.N) : iblk0 V c 5 t = V c main_arg8 := by
  funext y
  show V c main_arg8 (((cfg0.win 5).blk t).view.emb y) = _
  refine congrArg _ ?_
  obtain ⟨-, -, -, -, -, -, -, -, -, -, e0, -⟩ := idx_facts t
  funext a; apply Fin.ext
  match a with
  | ⟨0, _⟩ => show win0_5.index t (0 : Fin 1) * 64 + 1 * (y 0).val = (y 0).val; omega

theorem blk6 (c : Dev nD) (t : Fin cfg0.N) : iblk0 V c 6 t = V c main_v42 := by
  funext y
  show V c main_v42 (((cfg0.win 6).blk t).view.emb y) = _
  refine congrArg _ ?_
  obtain ⟨-, -, -, -, -, -, -, -, -, -, -, e0, e1, -⟩ := idx_facts t
  funext a; apply Fin.ext
  match a with
  | ⟨0, _⟩ => show win0_6.index t (0 : Fin 2) * 256 + 1 * (y 0).val = (y 0).val; omega
  | ⟨1, _⟩ => show win0_6.index t (1 : Fin 2) * 64 + 1 * (y 1).val = (y 1).val; omega

theorem blk7 (c : Dev nD) (t : Fin cfg0.N) : iblk0 V c 7 t = V c main_arg10 := by
  funext y
  show V c main_arg10 (((cfg0.win 7).blk t).view.emb y) = _
  refine congrArg _ ?_
  obtain ⟨-, -, -, -, -, -, -, -, -, -, -, -, -, e0, -⟩ := idx_facts t
  funext a; apply Fin.ext
  match a with
  | ⟨0, _⟩ => show win0_7.index t (0 : Fin 1) * 64 + 1 * (y 0).val = (y 0).val; omega

/-! ## What a point writes back, and the array -/

/-- The array of all messages, of the arrays the region finds: the two atoms' and the edge's gathered features, the
    angle columns and the distance column of the 17-column operand, the two weight matrices and biases. -/
abbrev G (c : Dev nD) : Mat 1000000 64 :=
  gated (R := 1000000) (V c main_v10) (V c main_v19) (V c main_v26) (angOf (R := 1000000) (V c main_v40))
    (decOf (R := 1000000) (V c main_v40)) (V c main_v41) (V c main_arg8) (V c main_v42) (V c main_arg10)

-- The body's stored value at an entry is the specification's entry of the blocks it loaded.
variable (hpay : ∀ (v0 v2 : Vec Ideal S5000x64 .bf16) (v4 : Vec Ideal S5000x112 .bf16) (v6 : Vec Ideal S5000x17 .f32)
    (v12 v14 : Vec Ideal S256x64 .bf16) (v17 v22 : Vec Ideal S64 .f32) (p : Fin 5000) (q : Fin 64),
    k0_pay1 (F := Ideal) (k0_pay3 v6) (k0_pay5 v0 v2 v4 v6 v12 v17) (k0_pay6 v0 v2 v4 v6 v14 v22) (ix2 p q)
      = gatedAt (R := 5000) v0 v2 v4 (angOf v6) (decOf v6) v12 v17 v14 v22 p q)

include hpay in
/-- What point t writes back is block t of the array of all messages. -/
theorem flushed_eq (c : Dev nD) (t : Fin cfg0.N) :
    (dat0 (F := Ideal) V c).flushed 8 t = ((cfg0.win 8).blk t).view.read (Elt Ideal) (G V c) := by
  show (cfg0.win 8).cut (grid0.coords t) ((dat0 (F := Ideal) V c).after 8 t) = _
  rw [after0_8]
  unfold out0_8
  rw [View.canon_unit_zero hz2]
  simp only [View.ld_unit_zero (S := S5000x64) hz2, View.ld_unit_zero (S := S5000x112) hz2,
    View.ld_unit_zero (S := S5000x17) hz2, View.ld_unit_zero (S := S256x64) hz2, View.ld_unit_zero (S := S64) hz1]
  funext j
  obtain ⟨p, q, rfl⟩ : ∃ (p : Fin 5000) (q : Fin 64), j = ix2 p q := ⟨j 0, j 1, eq_ix2 j⟩
  refine (hpay _ _ _ _ _ _ _ _ p q).trans ?_
  rw [blk4, blk5, blk6, blk7]
  have hemb : ((cfg0.win 8).blk t).view.emb (ix2 p q) = ix2 (row t p) q := by
    obtain ⟨-, -, -, -, -, -, -, -, -, -, -, -, -, -, e0, e1⟩ := idx_facts t
    funext a; apply Fin.ext
    match a with
    | ⟨0, _⟩ => show win0_8.index t (0 : Fin 2) * 5000 + 1 * p.val = 5000 * t.val + p.val; omega
    | ⟨1, _⟩ => show win0_8.index t (1 : Fin 2) * 64 + 1 * q.val = q.val; omega
  show _ = G V c (((cfg0.win 8).blk t).view.emb (ix2 p q))
  rw [hemb]
  show _ = gatedAt (R := 1000000) _ _ _ _ _ _ _ _ _ (row t p) q
  exact gatedAt_congr (fun k => blk0 V c t p k) (fun k => blk1 V c t p k) (fun k => blk2 V c t p k)
    (fun k => by rw [angOf_apply, angOf_apply]; exact blk3 V c t p _)
    (by rw [decOf_apply, decOf_apply]; exact blk3 V c t p _) _ _ _ _ q

/-- An index of the array is in point t's block iff each coordinate is in the block's range on its axis. -/
theorem mem_blk (t : Fin cfg0.N) (i : S1000000x64.Idx) :
    i ∈ ((cfg0.win 8).blk t).view.set ↔ ∀ a : Fin 2, win0_8.index t a * S5000x64.size a ≤ (i a).val ∧ (i a).val < win0_8.index t a * S5000x64.size a + S5000x64.size a := by
  show i ∈ ((View.whole main_v43).slice (win0_8.rect t)).set ↔ _
  rw [View.set_slice_whole, Rect.mem_set_unit]
  exact Iff.rfl

/-- Every entry is in some point's block: row r is in block r / 5000. -/
theorem cover (i : S1000000x64.Idx) :
    ∃ t : Fin cfg0.N, (cfg0.win 8).flush t = true ∧ i ∈ ((cfg0.win 8).blk t).view.set := by
  have h0 : (i 0).val < 1000000 := (i 0).isLt
  have h1 : (i 1).val < 64 := (i 1).isLt
  have hN : cfg0.N = 200 := N_0
  let t : Fin cfg0.N := ⟨(i 0).val / 5000, by rw [hN]; omega⟩
  refine ⟨t, flush0_8 t, ?_⟩
  rw [mem_blk]
  obtain ⟨-, -, -, -, -, -, -, -, -, -, -, -, -, -, e0, e1⟩ := idx_facts t
  have ht : t.val = (i 0).val / 5000 := rfl
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 64 ≤ (i 1).val ∧ (i 1).val < win0_8.index t (1 : Fin 2) * 64 + 64; omega

include hpay in
/-- THE ARRAY the first region leaves: all messages. -/
theorem final (c : Dev nD) : (dat0 (F := Ideal) V c).arrAt 8 cfg0.N = G V c :=
  (dat0 (F := Ideal) V c).arrAt_eq_of_cover 8 (G V c) (fun t _ => flushed_eq V hpay c t) cover

end Cert.EdgeMsg.KBlocks0

end
-- ==== Proof.KBlocks1.lean ====
/-
  The second region's output array, as ONE function of the arrays the region finds.

  The region walks 50 points; at point t the two row-wise operands' blocks are rows 4000 t … 4000 t + 3999 of their
  arrays (all columns), the two weight matrices and the two bias vectors are read whole at every point, and the body's
  store fills the output's block of the same 4000 rows. An edge's result depends on its own rows only, so what point t
  writes back is rows 4000 t … of the whole result; the 50 blocks tile the array, hence the array the region leaves IS
  the whole result.
-/
import proofs.«176142_j34437047779388_2_alg».proof.Proof.KernelIdealFrameP
import proofs.«176142_j34437047779388_2_alg».proof.Proof.Spec
import Idealize.ShloMosaic.Lib.Pipeline.Value

set_option maxRecDepth 16384

noncomputable section

namespace Cert.EdgeMsg.KBlocks1

open Cert.KernelIdeal Cert.KernelIdeal.Gen Cert.KernelIdeal.GenP Cert.EdgeMsg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 50 points: the row-wise windows sit at block (t, 0), the others at 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

theorem t_lt (t : Fin cfg1.N) : t.val < 50 := by
  have h : t.val < cfg1.N := t.isLt
  have e : cfg1.N = 50 := N_1
  omega

/-- Row p of point t's block is row 4000 t + p of the array. -/
abbrev row (t : Fin cfg1.N) (p : Fin 4000) : Fin 200000 := ⟨4000 * t.val + p.val, by have := t_lt t; have := p.isLt; omega⟩

/-! ## Each window's block, read at an entry -/

theorem blk0 (c : Dev nD) (t : Fin cfg1.N) (p : Fin 4000) (k : Fin 128) :
    iblk1 V c 0 t (ix2 p k) = V c main_v48 (ix2 (row t p) k) := by
  show V c main_v48 (((cfg1.win 0).blk t).view.emb (ix2 p k)) = _
  refine congrArg _ ?_
  obtain ⟨e0, e1, -⟩ := idx_facts t
  funext a; apply Fin.ext
  match a with
  | ⟨0, _⟩ => show win1_0.index t (0 : Fin 2) * 4000 + 1 * p.val = 4000 * t.val + p.val; omega
  | ⟨1, _⟩ => show win1_0.index t (1 : Fin 2) * 128 + 1 * k.val = k.val; omega

theorem blk1 (c : Dev nD) (t : Fin cfg1.N) (p : Fin 4000) (k : Fin 112) :
    iblk1 V c 1 t (ix2 p k) = V c main_v1 (ix2 (row t p) k) := by
  show V c main_v1 (((cfg1.win 1).blk t).view.emb (ix2 p k)) = _
  refine congrArg _ ?_
  obtain ⟨-, -, e0, e1, -⟩ := idx_facts t
  funext a; apply Fin.ext
  match a with
  | ⟨0, _⟩ => show win1_1.index t (0 : Fin 2) * 4000 + 1 * p.val = 4000 * t.val + p.val; omega
  | ⟨1, _⟩ => show win1_1.index t (1 : Fin 2) * 112 + 1 * k.val = k.val; omega

/-- The weights and biases are read whole at every point. -/
theorem blk2 (c : Dev nD) (t : Fin cfg1.N) : iblk1 V c 2 t = V c main_v49 := by
  funext y
  show V c main_v49 (((cfg1.win 2).blk t).view.emb y) = _
  refine congrArg _ ?_
  obtain ⟨-, -, -, -, e0, e1, -⟩ := idx_facts t
  funext a; apply Fin.ext
  match a with
  | ⟨0, _⟩ => show win1_2.index t (0 : Fin 2) * 240 + 1 * (y 0).val = (y 0).val; omega
  | ⟨1, _⟩ => show win1_2.index t (1 : Fin 2) * 128 + 1 * (y 1).val = (y 1).val; omega

theorem blk3 (c : Dev nD) (t : Fin cfg1.N) : iblk1 V c 3 t = V c main_arg12 := by
  funext y
  show V c main_arg12 (((cfg1.win 3).blk t).view.emb y) = _
  refine congrArg _ ?_
  obtain ⟨-, -, -, -, -, -, e0, -⟩ := idx_facts t
  funext a; apply Fin.ext
  match a with
  | ⟨0, _⟩ => show win1_3.index t (0 : Fin 1) * 128 + 1 * (y 0).val = (y 0).val; omega

theorem blk4 (c : Dev nD) (t : Fin cfg1.N) : iblk1 V c 4 t = V c main_v50 := by
  funext y
  show V c main_v50 (((cfg1.win 4).blk t).view.emb y) = _
  refine congrArg _ ?_
  obtain ⟨-, -, -, -, -, -, -, e0, e1, -⟩ := idx_facts t
  funext a; apply Fin.ext
  match a with
  | ⟨0, _⟩ => show win1_4.index t (0 : Fin 2) * 128 + 1 * (y 0).val = (y 0).val; omega
  | ⟨1, _⟩ => show win1_4.index t (1 : Fin 2) * 144 + 1 * (y 1).val = (y 1).val; omega

theorem blk5 (c : Dev nD) (t : Fin cfg1.N) : iblk1 V c 5 t = V c main_arg14 := by
  funext y
  show V c main_arg14 (((cfg1.win 5).blk t).view.emb y) = _
  refine congrArg _ ?_
  obtain ⟨-, -, -, -, -, -, -, -, -, e0, -⟩ := idx_facts t
  funext a; apply Fin.ext
  match a with
  | ⟨0, _⟩ => show win1_5.index t (0 : Fin 1) * 144 + 1 * (y 0).val = (y 0).val; omega

/-! ## What a point writes back, and the array -/

/-- The whole result, of the arrays the region finds: the paired slot sums, the edges' own features, the two weight
    matrices and biases. -/
abbrev G (c : Dev nD) : Mat 200000 144 :=
  edge (E := 200000) (V c main_v48) (V c main_v1) (V c main_v49) (V c main_arg12) (V c main_v50) (V c main_arg14)

-- The body's stored value at an entry is the specification's entry of the blocks it loaded.
variable (hpay : ∀ (v0 : Vec Ideal S4000x128 .bf16) (v2 : Vec Ideal S4000x112 .bf16) (v5 : Vec Ideal S240x128 .bf16)
    (v8 : Vec Ideal S128 .f32) (v15 : Vec Ideal S128x144 .bf16) (v18 : Vec Ideal S144 .f32) (p : Fin 4000) (q : Fin 144),
    k1_pay1 (F := Ideal) v0 v2 v5 v8 v15 v18 (ix2 p q) = edgeAt (E := 4000) v0 v2 v5 v8 v15 v18 p q)

include hpay in
/-- What point t writes back is block t of the whole result. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 (F := Ideal) V c).after 6 t) = _
  rw [after1_6]
  unfold out1_6
  rw [View.canon_unit_zero hz2]
  simp only [View.ld_unit_zero (S := S4000x128) hz2, View.ld_unit_zero (S := S4000x112) hz2,
    View.ld_unit_zero (S := S240x128) hz2, View.ld_unit_zero (S := S128x144) hz2,
    View.ld_unit_zero (S := S128) hz1, View.ld_unit_zero (S := S144) hz1]
  funext j
  obtain ⟨p, q, rfl⟩ : ∃ (p : Fin 4000) (q : Fin 144), j = ix2 p q := ⟨j 0, j 1, eq_ix2 j⟩
  refine (hpay _ _ _ _ _ _ p q).trans ?_
  rw [blk2, blk3, blk4, blk5]
  have hemb : ((cfg1.win 6).blk t).view.emb (ix2 p q) = ix2 (row t p) q := by
    obtain ⟨-, -, -, -, -, -, -, -, -, -, e0, e1⟩ := idx_facts t
    funext a; apply Fin.ext
    match a with
    | ⟨0, _⟩ => show win1_6.index t (0 : Fin 2) * 4000 + 1 * p.val = 4000 * t.val + p.val; omega
    | ⟨1, _⟩ => show win1_6.index t (1 : Fin 2) * 144 + 1 * q.val = q.val; omega
  show _ = G V c (((cfg1.win 6).blk t).view.emb (ix2 p q))
  rw [hemb]
  show _ = edgeAt (E := 200000) _ _ _ _ _ _ (row t p) q
  exact edgeAt_congr (fun k => blk0 V c t p k) (fun k => blk1 V c t p k) _ _ _ _ q

/-- An index of the array is in point t's block iff each coordinate is in the block's range on its axis. -/
theorem mem_blk (t : Fin cfg1.N) (i : S200000x144.Idx) :
    i ∈ ((cfg1.win 6).blk t).view.set ↔ ∀ a : Fin 2, win1_6.index t a * S4000x144.size a ≤ (i a).val ∧ (i a).val < win1_6.index t a * S4000x144.size a + S4000x144.size a := by
  show i ∈ ((View.whole main_v51).slice (win1_6.rect t)).set ↔ _
  rw [View.set_slice_whole, Rect.mem_set_unit]
  exact Iff.rfl

/-- Every entry is in some point's block: row r is in block r / 4000. -/
theorem cover (i : S200000x144.Idx) :
    ∃ t : Fin cfg1.N, (cfg1.win 6).flush t = true ∧ i ∈ ((cfg1.win 6).blk t).view.set := by
  have h0 : (i 0).val < 200000 := (i 0).isLt
  have h1 : (i 1).val < 144 := (i 1).isLt
  have hN : cfg1.N = 50 := N_1
  let t : Fin cfg1.N := ⟨(i 0).val / 4000, by rw [hN]; omega⟩
  refine ⟨t, flush1_6 t, ?_⟩
  rw [mem_blk]
  obtain ⟨-, -, -, -, -, -, -, -, -, -, e0, e1⟩ := idx_facts t
  have ht : t.val = (i 0).val / 4000 := rfl
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 144 ≤ (i 1).val ∧ (i 1).val < win1_6.index t (1 : Fin 2) * 144 + 144; omega

include hpay in
/-- THE ARRAY the second region leaves: the whole result. -/
theorem final (c : Dev nD) : (dat1 (F := Ideal) V c).arrAt 6 cfg1.N = G V c :=
  (dat1 (F := Ideal) V c).arrAt_eq_of_cover 6 (G V c) (fun t _ => flushed_eq V hpay c t) cover

end Cert.EdgeMsg.KBlocks1

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«176142_j34437047779388_2_alg».proof.Proof.LibDotIdx
import proofs.«176142_j34437047779388_2_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.KHost.lean ====
/-
  What the two regions find in their arrays, and so what the first program's result buffer ends holding, in terms of
  the launch memory.

  Before the first region the host gathers each sample's two atoms' rows and its edge's row (from tables whose change
  of float format is the identity on the extended reals), appends to the 16 angle columns a 17th, the distance factor
  exp (-(d d) / 18) of the sample's gathered distance d, and changes the format of the two weight matrices: the
  region's operands are, array for array, the stages of the same names in the other program — except the distance
  factor, which the other program spells exp (-(d d) / 9 / 2), the same extended real. Between the regions the host
  sums the messages per slot, reshapes the 400000 x 64 sums to 200000 x 128 and changes formats; the second region's
  operands are those, the edges' own features and the second pair of weights and biases.
-/
import proofs.«176142_j34437047779388_2_alg».proof.Proof.KernelIdealFrameP
import proofs.«176142_j34437047779388_2_alg».proof.Proof.ReferenceReadP
import proofs.«176142_j34437047779388_2_alg».proof.Proof.Spec
import proofs.«176142_j34437047779388_2_alg».proof.Proof.KLayout
import proofs.«176142_j34437047779388_2_alg».proof.Proof.KBlocks0
import proofs.«176142_j34437047779388_2_alg».proof.Proof.KBlocks1
import proofs.«176142_j34437047779388_2_alg».proof.Proof.LibRowOps

set_option maxRecDepth 16384

noncomputable section

namespace Cert.EdgeMsg.KHost

open Cert.KernelIdeal Cert.KernelIdeal.Gen Cert.KernelIdeal.GenP Cert.EdgeMsg
open Idealize.ShloMosaic Idealize.ShloMosaic.TcCoe Idealize.ShloMosaic.ValueIdx Idealize.SL.Sem Idealize.ShloMosaic.StableHlo
open Cert.ReferenceIdeal.ReadP (val_main_v8 val_main_v17 val_main_v24 val_main_v48 val_main_v49 val_main_v50 val_main_v51
  val_main_v52 val_main_v53 val_main_v54 val_main_v55 val_main_cst_8 val_main_cst_9 val_main_v58 val_main_v59 val_main_v60 val_main_v61)

variable (m : (ℓ : Loc nD τ sig) → Buf (Elt Ideal) ℓ) (ρ : Dev nD → PrngReg)

/-! ## The first region's operands -/

theorem V1_v10 (c : Dev nD) : V1 m ρ c main_v10 = val_main_v8 (F := Ideal) (m ((c : Thread nD τ).loc main_arg0)) (m ((c : Thread nD τ).loc main_arg2)) := by
  show StableHlo.after hostOps0 (W0 m ρ c) (Proc.devRef .tc main_v10) = _
  after_results_simp <;> rfl

theorem V1_v19 (c : Dev nD) : V1 m ρ c main_v19 = val_main_v17 (F := Ideal) (m ((c : Thread nD τ).loc main_arg0)) (m ((c : Thread nD τ).loc main_arg2)) := by
  show StableHlo.after hostOps0 (W0 m ρ c) (Proc.devRef .tc main_v19) = _
  after_results_simp <;> rfl

theorem V1_v26 (c : Dev nD) : V1 m ρ c main_v26 = val_main_v24 (F := Ideal) (m ((c : Thread nD τ).loc main_arg1)) (m ((c : Thread nD τ).loc main_arg3)) := by
  show StableHlo.after hostOps0 (W0 m ρ c) (Proc.devRef .tc main_v26) = _
  after_results_simp <;> rfl

theorem V1_v41 (c : Dev nD) : V1 m ρ c main_v41 = (m ((c : Thread nD τ).loc main_arg7)) := by
  show StableHlo.after hostOps0 (W0 m ρ c) (Proc.devRef .tc main_v41) = _
  after_results_simp <;> rfl

theorem V1_arg8 (c : Dev nD) : V1 m ρ c main_arg8 = (m ((c : Thread nD τ).loc main_arg8)) := by
  show StableHlo.after hostOps0 (W0 m ρ c) (Proc.devRef .tc main_arg8) = _
  after_results_simp <;> rfl

theorem V1_v42 (c : Dev nD) : V1 m ρ c main_v42 = (m ((c : Thread nD τ).loc main_arg9)) := by
  show StableHlo.after hostOps0 (W0 m ρ c) (Proc.devRef .tc main_v42) = _
  after_results_simp <;> rfl

theorem V1_arg10 (c : Dev nD) : V1 m ρ c main_arg10 = (m ((c : Thread nD τ).loc main_arg10)) := by
  show StableHlo.after hostOps0 (W0 m ρ c) (Proc.devRef .tc main_arg10) = _
  after_results_simp <;> rfl

/-- The distance column as this program computes it: exp (-(d d) / 18) of the gathered distances, as one column. -/
abbrev decCol (x3 : (⟨S1000000, .i32⟩ : BufTy).Contents (Elt Ideal)) (x6 : (⟨S200000, .f32⟩ : BufTy).Contents (Elt Ideal)) :
    (⟨S1000000x1, .f32⟩ : BufTy).Contents (Elt Ideal) :=
  broadcastInDim S1000000x1 ![0] bcast_S1000000_S1000000x1_0
    (Host.exp (Host.divf (Host.negf (mulf (val_main_v48 (F := Ideal) x3 x6) (val_main_v48 (F := Ideal) x3 x6)))
      (broadcastInDim S1000000 ![] bcast_S_S1000000 (constant (F := Ideal) S_ .f32 0x41900000#32))))

/-- The 17-column operand: the angle columns, then the distance column. -/
theorem V1_v40 (c : Dev nD) : V1 m ρ c main_v40
    = concatenate S1000000x17 1 [⟨S1000000x16, (m ((c : Thread nD τ).loc main_arg4))⟩, ⟨S1000000x1, decCol (m ((c : Thread nD τ).loc main_arg3)) (m ((c : Thread nD τ).loc main_arg6))⟩] concatenates_S1000000x16_S1000000x1_S1000000x17_d1 := by
  show StableHlo.after hostOps0 (W0 m ρ c) (Proc.devRef .tc main_v40) = _
  after_results_simp <;> rfl

theorem ang_V1 (c : Dev nD) : angOf (R := 1000000) (V1 m ρ c main_v40) = (m ((c : Thread nD τ).loc main_arg4)) := by
  rw [V1_v40]
  exact KLayout.ang_of_cat (R := 1000000) _ _ _

/-- The distance factor is the other program's, entry by entry: dividing by 18 is dividing by 9 and then by 2. -/
theorem dec_V1 (c : Dev nD) : decOf (R := 1000000) (V1 m ρ c main_v40) = val_main_v55 (F := Ideal) (m ((c : Thread nD τ).loc main_arg3)) (m ((c : Thread nD τ).loc main_arg6)) := by
  funext i
  obtain ⟨r, rfl⟩ : ∃ r : Fin 1000000, i = ix1 r := ⟨i 0, eq_ix1 i⟩
  rw [V1_v40]
  refine (KLayout.dec_of_cat (R := 1000000) _ _ _ r).trans ?_
  unfold decCol
  rw [Cert.LibRowOps.col1_host_apply]
  simp only [val_main_v55, val_main_v54, val_main_v53, val_main_v52, val_main_v51, val_main_v50, val_main_v49,
    val_main_cst_8, val_main_cst_9]
  show Ideal.exp (Ideal.div (-(val_main_v48 (F := Ideal) (m ((c : Thread nD τ).loc main_arg3)) (m ((c : Thread nD τ).loc main_arg6)) (ix1 r) * val_main_v48 (F := Ideal) (m ((c : Thread nD τ).loc main_arg3)) (m ((c : Thread nD τ).loc main_arg6)) (ix1 r)))
      (Ideal.ofBits .f32 0x41900000#32))
    = Ideal.exp (Ideal.div (Ideal.div (-(val_main_v48 (F := Ideal) (m ((c : Thread nD τ).loc main_arg3)) (m ((c : Thread nD τ).loc main_arg6)) (ix1 r) * val_main_v48 (F := Ideal) (m ((c : Thread nD τ).loc main_arg3)) (m ((c : Thread nD τ).loc main_arg6)) (ix1 r)))
      (Ideal.ofBits .f32 0x41100000#32)) (Ideal.ofBits .f32 0x40000000#32))
  rw [KLayout.div_9_2]

/-! ## The second region's operands -/

/-! An argument reads back as launched at the first region's exit: no operation before it and no write-back touches it. -/

theorem W2_arg5 (c : Dev nD) : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  after_results_simp <;> rfl

theorem W2_arg11 (c : Dev nD) : W2 m ρ c (Proc.devRef .tc main_arg11) = (m ((c : Thread nD τ).loc main_arg11)) := by
  rw [W2_of_ne m ρ c main_arg11 (by decide)]
  show StableHlo.after hostOps0 (W0 m ρ c) (Proc.devRef .tc main_arg11) = _
  after_results_simp <;> rfl

theorem W2_arg12 (c : Dev nD) : W2 m ρ c (Proc.devRef .tc main_arg12) = (m ((c : Thread nD τ).loc main_arg12)) := by
  rw [W2_of_ne m ρ c main_arg12 (by decide)]
  show StableHlo.after hostOps0 (W0 m ρ c) (Proc.devRef .tc main_arg12) = _
  after_results_simp <;> rfl

theorem W2_arg13 (c : Dev nD) : W2 m ρ c (Proc.devRef .tc main_arg13) = (m ((c : Thread nD τ).loc main_arg13)) := by
  rw [W2_of_ne m ρ c main_arg13 (by decide)]
  show StableHlo.after hostOps0 (W0 m ρ c) (Proc.devRef .tc main_arg13) = _
  after_results_simp <;> rfl

theorem W2_arg14 (c : Dev nD) : W2 m ρ c (Proc.devRef .tc main_arg14) = (m ((c : Thread nD τ).loc main_arg14)) := by
  rw [W2_of_ne m ρ c main_arg14 (by decide)]
  show StableHlo.after hostOps0 (W0 m ρ c) (Proc.devRef .tc main_arg14) = _
  after_results_simp <;> rfl

theorem V3_v1 (c : Dev nD) : V3 m ρ c main_v1 = (m ((c : Thread nD τ).loc main_arg1)) := by
  show StableHlo.after hostOps1 (W2 m ρ c) (Proc.devRef .tc main_v1) = _
  after_results_simp
  rw [W2_of_ne m ρ c main_v1 (by decide)]
  show StableHlo.after hostOps0 (W0 m ρ c) (Proc.devRef .tc main_v1) = _
  after_results_simp <;> rfl

theorem V3_v49 (c : Dev nD) : V3 m ρ c main_v49 = (m ((c : Thread nD τ).loc main_arg11)) := by
  show StableHlo.after hostOps1 (W2 m ρ c) (Proc.devRef .tc main_v49) = _
  after_results_simp
  rw [W2_arg11]
  rfl

theorem V3_arg12 (c : Dev nD) : V3 m ρ c main_arg12 = (m ((c : Thread nD τ).loc main_arg12)) := by
  show StableHlo.after hostOps1 (W2 m ρ c) (Proc.devRef .tc main_arg12) = _
  after_results_simp
  exact W2_arg12 m ρ c

theorem V3_v50 (c : Dev nD) : V3 m ρ c main_v50 = (m ((c : Thread nD τ).loc main_arg13)) := by
  show StableHlo.after hostOps1 (W2 m ρ c) (Proc.devRef .tc main_v50) = _
  after_results_simp
  rw [W2_arg13]
  rfl

theorem V3_arg14 (c : Dev nD) : V3 m ρ c main_arg14 = (m ((c : Thread nD τ).loc main_arg14)) := by
  show StableHlo.after hostOps1 (W2 m ρ c) (Proc.devRef .tc main_arg14) = _
  after_results_simp
  exact W2_arg14 m ρ c

/-- Reshaping ANY 400000 x 64 array to 200000 x 128 (and changing its float format, the identity here) pairs its rows. -/
theorem reshape_trunc (A : FVec Ideal S400000x64 .f32) :
    truncf (F := Ideal) .bf16 (fun i => shapeCast main_v47.ty.shape A shapeCasts_S400000x64_S200000x128 i) bitsLt_bf16_f32
      = pairRows A := by
  funext i
  exact congrFun (KLayout.reshape_pairs A shapeCasts_S400000x64_S200000x128) i

/-- The paired slot sums: the per-slot sums of whatever the first region left, two slots to a row. -/
theorem V3_v48 (c : Dev nD) : V3 m ρ c main_v48
    = pairRows (Host.scatterAdd scatter_S400000x64_S1000000x1_S1000000x64_1_0_0_1
        (broadcastInDim S400000x64 ![] bcast_S_S400000x64 (constant (F := Ideal) S_ .f32 0x00000000#32))
        (broadcastInDim S1000000x1 ![0] bcast_S1000000_S1000000x1_0 (m ((c : Thread nD τ).loc main_arg5)))
        ((dat0 (F := Ideal) (V1 m ρ) c).arrAt 8 cfg0.N)) := by
  show StableHlo.after hostOps1 (W2 m ρ c) (Proc.devRef .tc main_v48) = _
  after_results_simp
  rw [W2_arg5, show W2 m ρ c (Proc.devRef .tc main_v43) = (dat0 (F := Ideal) (V1 m ρ) c).arrAt 8 cfg0.N from W2_arr m ρ c 8]
  exact reshape_trunc _

/-! ## The result -/

-- the two bodies' stored values at an entry, and the other program's messages as the specification's
variable (hk0 : ∀ (v0 v2 : Vec Ideal S5000x64 .bf16) (v4 : Vec Ideal S5000x112 .bf16) (v6 : Vec Ideal S5000x17 .f32)
    (v12 v14 : Vec Ideal S256x64 .bf16) (v17 v22 : Vec Ideal S64 .f32) (p : Fin 5000) (q : Fin 64),
    k0_pay1 (F := Ideal) (k0_pay3 v6) (k0_pay5 v0 v2 v4 v6 v12 v17) (k0_pay6 v0 v2 v4 v6 v14 v22) (ix2 p q)
      = gatedAt (R := 5000) v0 v2 v4 (angOf v6) (decOf v6) v12 v17 v14 v22 p q)
  (hk1 : ∀ (v0 : Vec Ideal S4000x128 .bf16) (v2 : Vec Ideal S4000x112 .bf16) (v5 : Vec Ideal S240x128 .bf16)
    (v8 : Vec Ideal S128 .f32) (v15 : Vec Ideal S128x144 .bf16) (v18 : Vec Ideal S144 .f32) (p : Fin 4000) (q : Fin 144),
    k1_pay1 (F := Ideal) v0 v2 v5 v8 v15 v18 (ix2 p q) = edgeAt (E := 4000) v0 v2 v5 v8 v15 v18 p q)

include hk0 in
/-- The first region leaves the array of all messages, over the other program's stages. -/
theorem msgs (c : Dev nD) : (dat0 (F := Ideal) (V1 m ρ) c).arrAt 8 cfg0.N
    = gated (R := 1000000) (val_main_v8 (F := Ideal) (m ((c : Thread nD τ).loc main_arg0)) (m ((c : Thread nD τ).loc main_arg2))) (val_main_v17 (F := Ideal) (m ((c : Thread nD τ).loc main_arg0)) (m ((c : Thread nD τ).loc main_arg2))) (val_main_v24 (F := Ideal) (m ((c : Thread nD τ).loc main_arg1)) (m ((c : Thread nD τ).loc main_arg3)))
        (m ((c : Thread nD τ).loc main_arg4)) (val_main_v55 (F := Ideal) (m ((c : Thread nD τ).loc main_arg3)) (m ((c : Thread nD τ).loc main_arg6))) (m ((c : Thread nD τ).loc main_arg7)) (m ((c : Thread nD τ).loc main_arg8)) (m ((c : Thread nD τ).loc main_arg9)) (m ((c : Thread nD τ).loc main_arg10)) := by
  rw [KBlocks0.final (V1 m ρ) hk0 c]
  show gated (R := 1000000) (V1 m ρ c main_v10) (V1 m ρ c main_v19) (V1 m ρ c main_v26) (angOf (R := 1000000) (V1 m ρ c main_v40))
      (decOf (R := 1000000) (V1 m ρ c main_v40)) (V1 m ρ c main_v41) (V1 m ρ c main_arg8) (V1 m ρ c main_v42) (V1 m ρ c main_arg10) = _
  rw [V1_v10, V1_v19, V1_v26, ang_V1, dec_V1, V1_v41, V1_arg8, V1_v42, V1_arg10]

include hk0 hk1 in
/-- THE RESULT BUFFER at the end of the run: the specification's result of the paired per-slot sums of all messages. -/
theorem result (c : Dev nD) : W4 m ρ c (Proc.devRef .tc main_v51)
    = edge (E := 200000)
        (pairRows (Host.scatterAdd scatter_S400000x64_S1000000x1_S1000000x64_1_0_0_1
          (broadcastInDim S400000x64 ![] bcast_S_S400000x64 (constant (F := Ideal) S_ .f32 0x00000000#32))
          (broadcastInDim S1000000x1 ![0] bcast_S1000000_S1000000x1_0 (m ((c : Thread nD τ).loc main_arg5)))
          (gated (R := 1000000) (val_main_v8 (F := Ideal) (m ((c : Thread nD τ).loc main_arg0)) (m ((c : Thread nD τ).loc main_arg2))) (val_main_v17 (F := Ideal) (m ((c : Thread nD τ).loc main_arg0)) (m ((c : Thread nD τ).loc main_arg2))) (val_main_v24 (F := Ideal) (m ((c : Thread nD τ).loc main_arg1)) (m ((c : Thread nD τ).loc main_arg3)))
            (m ((c : Thread nD τ).loc main_arg4)) (val_main_v55 (F := Ideal) (m ((c : Thread nD τ).loc main_arg3)) (m ((c : Thread nD τ).loc main_arg6))) (m ((c : Thread nD τ).loc main_arg7)) (m ((c : Thread nD τ).loc main_arg8)) (m ((c : Thread nD τ).loc main_arg9)) (m ((c : Thread nD τ).loc main_arg10)))))
        (m ((c : Thread nD τ).loc main_arg1)) (m ((c : Thread nD τ).loc main_arg11)) (m ((c : Thread nD τ).loc main_arg12)) (m ((c : Thread nD τ).loc main_arg13)) (m ((c : Thread nD τ).loc main_arg14)) := by
  rw [show W4 m ρ c (Proc.devRef .tc main_v51) = (dat1 (F := Ideal) (V3 m ρ) c).arrAt 6 cfg1.N from W4_arr m ρ c 6,
    KBlocks1.final (V3 m ρ) hk1 c]
  show edge (E := 200000) (V3 m ρ c main_v48) (V3 m ρ c main_v1) (V3 m ρ c main_v49) (V3 m ρ c main_arg12) (V3 m ρ c main_v50)
      (V3 m ρ c main_arg14) = _
  rw [V3_v48, V3_v1, V3_v49, V3_arg12, V3_v50, V3_arg14, msgs m ρ hk0 c]

end Cert.EdgeMsg.KHost

end
-- ==== Proof.LibCols.lean ====
/-
  Rank-2 arrays read at `(p, q)` through three layout operations, generic in the extents: a slice of consecutive
  columns, a transpose, and one row laid down every row.
-/
import Idealize.ShloMosaic.Lib.ValueIdx
import Idealize.ShloMosaic.Lib.Pipeline.Value

noncomputable section

namespace Cert.LibCols

open Idealize.ShloMosaic Idealize.ShloMosaic.ValueIdx

/-- A slice of `w` columns starting at column `o`: at `(r, k)` it is the operand at `(r, o + k)`. -/
theorem slice_cols {α : Type} {N C w : Nat} (o : Nat) (x : (⟨2, ![N, C]⟩ : Shape).Idx → α)
    (h : (⟨2, ![N, C]⟩ : Shape).Slices ![0, o] ⟨2, ![N, w]⟩) (r : Fin N) (k : Fin w) (c : Fin C) (hc : c.val = o + k.val) :
    extractStridedSlice ⟨2, ![N, w]⟩ ![0, o] x h (ix2 r k) = x (ix2 r c) :=
  extractStridedSlice_apply ![0, o] x h (ix2 r k) (ix2 r c) (fun a => match a with
    | ⟨0, _⟩ => by show r.val = 0 + r.val; omega
    | ⟨1, _⟩ => hc)

/-- The transpose of an `[a, b]` array at `(j, i)` is the operand at `(i, j)`. -/
theorem transpose2_apply {α : Type} {a b : Nat} (x : (⟨2, ![a, b]⟩ : Shape).Idx → α)
    (h : (⟨2, ![a, b]⟩ : Shape).Transposes [1, 0] ⟨2, ![b, a]⟩) (i : Fin a) (j : Fin b) :
    transpose ⟨2, ![b, a]⟩ [1, 0] x h (ix2 j i) = x (ix2 i j) :=
  transpose_apply [1, 0] x h (ix2 j i) (ix2 i j) (fun bb => match bb with
    | ⟨0, _⟩ => rfl
    | ⟨1, _⟩ => rfl)

/-- One row laid down `m` rows: at `(p, q)` it is the row's entry `q`. -/
theorem bcastRow_apply {α : Type} {m n : Nat} (y : (⟨2, ![1, n]⟩ : Shape).Idx → α)
    (hb : (⟨2, ![1, n]⟩ : Shape).Broadcasts ⟨2, ![m, n]⟩) (p : Fin m) (q : Fin n) :
    broadcastTo ⟨2, ![m, n]⟩ y hb (ix2 p q) = y (ix2 (0 : Fin 1) q) :=
  broadcastTo_apply y hb (ix2 p q) (ix2 (0 : Fin 1) q) (by
    intro a
    match a with
    | ⟨0, _⟩ => rfl
    | ⟨1, _⟩ =>
      show q.val = if n = 1 then 0 else q.val
      split
      · have e : q.val < n := q.isLt; omega
      · rfl)

end Cert.LibCols

end
-- ==== Proof.KPay.lean ====
/-
  The two kernel bodies' stored values, read one entry at a time, are the specification's entries.

  The first body lays a sample's 256 features side by side (four blocks of columns: 64, 64, 112 and the first 16 of
  the 17 columns of the last operand), runs two dense layers over them, and stores logistic of the first times
  softplus of the second times the sample's distance factor (column 16 of the last operand): gatedAt. Its softplus is
  spelt max x 0 + log1p (e^(-|x|)) behind a guard that selects x itself where x is not a number; on the extended
  reals the guard never fires.

  The second body lays an edge's 240 features side by side (128 and 112 columns), runs a dense layer, x times
  logistic x, and a second dense layer: edgeAt.

  Each dense layer is a matrix product into a zero accumulator plus a bias vector laid along every row; read at
  (p, q) it is the sum over the contracted coordinate plus the bias' entry q.
-/
import proofs.«176142_j34437047779388_2_alg».proof.Proof.Gen.KernelIdeal.Skeleton
import proofs.«176142_j34437047779388_2_alg».proof.Proof.Spec
import proofs.«176142_j34437047779388_2_alg».proof.Proof.LibDotIdx
import proofs.«176142_j34437047779388_2_alg».proof.Proof.LibRowOps
import proofs.«176142_j34437047779388_2_alg».proof.Proof.LibKeepdims
import proofs.«176142_j34437047779388_2_alg».proof.Proof.LibCols

noncomputable section

open scoped BigOperators

namespace Cert.EdgeMsg.KPay

open Cert.KernelIdeal Cert.KernelIdeal.Gen Cert.EdgeMsg Idealize.ShloMosaic Idealize.ShloMosaic.ValueIdx

/-! ## Pointwise operations read at an index -/

theorem logistic_apply {s : Shape} {φ : FTy} (x : FVec Ideal s φ) (i : s.Idx) :
    logistic x i = Ideal.logistic (x i) := rfl

/-! ## The second kernel: dense, silu, dense over an edge's 240 features -/

/-- Two blocks of columns side by side, 128 then 112, read at (p, l): the edge's feature l. -/
theorem cat2_apply {φ : FTy} (x₁ : FVec Ideal S4000x128 φ) (x₂ : FVec Ideal S4000x112 φ)
    (h : Shape.Concatenates [S4000x128, S4000x112] S4000x240 1) (p : Fin 4000) (l : Fin 240) :
    concatenate S4000x240 1 [⟨S4000x128, x₁⟩, ⟨S4000x112, x₂⟩] h (ix2 p l) = hfeat (E := 4000) x₁ x₂ p l := by
  unfold hfeat
  split_ifs with hl
  · exact concatenate_pair_apply_left _ x₁ x₂ h (ix2 p l) rfl (ix2 p ⟨l.val, hl⟩)
      (fun b => match b with | ⟨0, _⟩ => rfl | ⟨1, _⟩ => rfl)
  · exact concatenate_pair_apply_right _ x₁ x₂ h (ix2 p l) rfl rfl (ix2 p ⟨l.val - 128, by have := l.isLt; omega⟩)
      (fun b hb => match b, hb with | ⟨0, _⟩, _ => rfl | ⟨1, _⟩, hb => absurd rfl hb)
      (by show l.val - 128 + 128 = l.val; omega)

/-- The second kernel's first dense layer, before its activation. -/
def hid (v0 : FVec Ideal S4000x128 .bf16) (v2 : FVec Ideal S4000x112 .bf16) (v5 : FVec Ideal S240x128 .bf16)
    (v8 : FVec Ideal S128 .f32) : FVec Ideal S4000x128 .f32 :=
  addf (matmul dot_S4000x240_S240x128_S4000x128_1_0_0_1_n_n none
      (concatenate S4000x240 1 [⟨S4000x128, shapeCast S4000x128 v0 shapeCasts_S4000x128_S4000x128⟩,
        ⟨S4000x112, shapeCast S4000x112 v2 shapeCasts_S4000x112_S4000x112⟩] concatenates_S4000x128_S4000x112_S4000x240_d1)
      (shapeCast S240x128 v5 shapeCasts_S240x128_S240x128) (constant S4000x128 .f32 0x00000000#32))
    (broadcastTo S4000x128 (shapeCast S1x128 v8 shapeCasts_S128_S1x128) broadcasts_S1x128_S4000x128)

/-- Entry (p, k) of the first dense layer: row p of the 240 features against column k, plus the bias. -/
theorem hid_at (v0 : FVec Ideal S4000x128 .bf16) (v2 : FVec Ideal S4000x112 .bf16) (v5 : FVec Ideal S240x128 .bf16)
    (v8 : FVec Ideal S128 .f32) (p : Fin 4000) (k : Fin 128) :
    hid v0 v2 v5 v8 (ix2 p k) = lin (hfeat (E := 4000) v0 v2) v5 v8 p k := by
  unfold hid lin
  rw [addf_apply, Cert.LibRowOps.rowVec_kernel_apply]
  congr 1
  refine (DotIdx.matmul_plain_zero_apply _ none _ _ p k).trans ?_
  refine Finset.sum_congr rfl fun l _ => ?_
  simp only [shapeCast_self]
  rw [cat2_apply]

theorem k1_pay1_eq (v0 : FVec Ideal S4000x128 .bf16) (v2 : FVec Ideal S4000x112 .bf16) (v5 : FVec Ideal S240x128 .bf16)
    (v8 : FVec Ideal S128 .f32) (v15 : FVec Ideal S128x144 .bf16) (v18 : FVec Ideal S144 .f32) :
    k1_pay1 (F := Ideal) v0 v2 v5 v8 v15 v18
      = addf (matmul dot_S4000x128_S128x144_S4000x144_1_0_0_1_n_n none
          (truncf .bf16 (mulf (hid v0 v2 v5 v8) (logistic (hid v0 v2 v5 v8))) bitsLt_bf16_f32)
          (shapeCast S128x144 v15 shapeCasts_S128x144_S128x144) (constant S4000x144 .f32 0x00000000#32))
        (broadcastTo S4000x144 (shapeCast S1x144 v18 shapeCasts_S144_S1x144) broadcasts_S1x144_S4000x144) := rfl

/-- The second kernel's stored value at (p, q) is the specification's entry. -/
theorem k1_at (v0 : Vec Ideal S4000x128 .bf16) (v2 : Vec Ideal S4000x112 .bf16) (v5 : Vec Ideal S240x128 .bf16)
    (v8 : Vec Ideal S128 .f32) (v15 : Vec Ideal S128x144 .bf16) (v18 : Vec Ideal S144 .f32) (p : Fin 4000) (q : Fin 144) :
    k1_pay1 (F := Ideal) v0 v2 v5 v8 v15 v18 (ix2 p q) = edgeAt (E := 4000) v0 v2 v5 v8 v15 v18 p q := by
  rw [k1_pay1_eq, addf_apply, Cert.LibRowOps.rowVec_kernel_apply]
  unfold edgeAt
  congr 1
  refine (DotIdx.matmul_plain_zero_apply _ none _ _ p q).trans ?_
  refine Finset.sum_congr rfl fun k _ => ?_
  rw [truncf_apply, mulf_apply, logistic_apply, shapeCast_self, hid_at]
  rfl

/-! ## The first kernel: gate times core times the distance factor -/

/-- The overflow-safe spelling of softplus, with its guard against a not-a-number argument: on the extended reals
    the guard d ≠ d is never taken, and subtracting or adding the zero constant changes nothing. -/
theorem softplus_select (x z : EReal) (hz : z = 0) :
    Scalar.select (Ideal.cmp .one (x - z) (x - z)) (x + z)
        (max x z + Ideal.log1p (Ideal.exp (z - max (x - z) (-(x - z))))) = softplus x := by
  subst hz
  have hc : Ideal.cmp .one (x - 0) (x - 0) = 0#1 := by simp [Ideal.cmp]
  rw [hc, select_zero, sub_zero, zero_sub]
  rfl

/-- Four blocks of columns side by side, 64, 64, 112 and 16, read at (p, k): the sample's feature k. -/
theorem cat4_apply {φ : FTy} (x₁ x₂ : FVec Ideal S5000x64 φ) (x₃ : FVec Ideal S5000x112 φ) (x₄ : FVec Ideal S5000x16 φ)
    (h : Shape.Concatenates [S5000x64, S5000x64, S5000x112, S5000x16] S5000x256 1) (p : Fin 5000) (k : Fin 256) :
    concatenate S5000x256 1 [⟨S5000x64, x₁⟩, ⟨S5000x64, x₂⟩, ⟨S5000x112, x₃⟩, ⟨S5000x16, x₄⟩] h (ix2 p k)
      = feat (R := 5000) x₁ x₂ x₃ x₄ p k := by
  unfold feat
  split_ifs with h0 h1 h2
  · exact concatenate_apply_piece (t := S5000x256) 1 [⟨S5000x64, x₁⟩, ⟨S5000x64, x₂⟩, ⟨S5000x112, x₃⟩, ⟨S5000x16, x₄⟩] h (ix2 p k) 0 (by show 0 < 4; omega) S5000x64 x₁ rfl rfl 0 rfl (ix2 p ⟨k.val, h0⟩)
      (fun b hb => match b, hb with | ⟨0, _⟩, _ => rfl | ⟨1, _⟩, hb => absurd rfl hb)
      (by show 0 + k.val = k.val; omega)
  · exact concatenate_apply_piece (t := S5000x256) 1 [⟨S5000x64, x₁⟩, ⟨S5000x64, x₂⟩, ⟨S5000x112, x₃⟩, ⟨S5000x16, x₄⟩] h (ix2 p k) 1 (by show 1 < 4; omega) S5000x64 x₂ rfl rfl 64 rfl (ix2 p ⟨k.val - 64, by omega⟩)
      (fun b hb => match b, hb with | ⟨0, _⟩, _ => rfl | ⟨1, _⟩, hb => absurd rfl hb)
      (by show 64 + (k.val - 64) = k.val; omega)
  · exact concatenate_apply_piece (t := S5000x256) 1 [⟨S5000x64, x₁⟩, ⟨S5000x64, x₂⟩, ⟨S5000x112, x₃⟩, ⟨S5000x16, x₄⟩] h (ix2 p k) 2 (by show 2 < 4; omega) S5000x112 x₃ rfl rfl 128 rfl (ix2 p ⟨k.val - 128, by omega⟩)
      (fun b hb => match b, hb with | ⟨0, _⟩, _ => rfl | ⟨1, _⟩, hb => absurd rfl hb)
      (by show 128 + (k.val - 128) = k.val; omega)
  · exact concatenate_apply_piece (t := S5000x256) 1 [⟨S5000x64, x₁⟩, ⟨S5000x64, x₂⟩, ⟨S5000x112, x₃⟩, ⟨S5000x16, x₄⟩] h (ix2 p k) 3 (by show 3 < 4; omega) S5000x16 x₄ rfl rfl 240 rfl
      (ix2 p ⟨k.val - 240, by have := k.isLt; omega⟩)
      (fun b hb => match b, hb with | ⟨0, _⟩, _ => rfl | ⟨1, _⟩, hb => absurd rfl hb)
      (by show 240 + (k.val - 240) = k.val; omega)

/-- The first 16 of the 17 columns, narrowed: the angle features. -/
theorem ang_eq (v6 : Vec Ideal S5000x17 .f32) :
    (truncf .bf16 (extractStridedSlice S5000x16 ![0, 0] (k0_pay2 v6) slices_S5000x17_o0_0_S5000x16) bitsLt_bf16_f32
      : FVec Ideal S5000x16 .bf16) = angOf (R := 5000) v6 := by
  funext i
  obtain ⟨r, k, rfl⟩ : ∃ (r : Fin 5000) (k : Fin 16), i = ix2 r k := ⟨i 0, i 1, eq_ix2 i⟩
  rw [truncf_apply, angOf_apply]
  unfold k0_pay2
  rw [shapeCast_self]
  exact Cert.LibCols.slice_cols 0 v6 _ r k ⟨k.val, by have := k.isLt; omega⟩ (by simp)

/-- The 256 features the first kernel lays side by side, at (p, k). -/
theorem k0_pay4_at (v0 v2 : Vec Ideal S5000x64 .bf16) (v4 : Vec Ideal S5000x112 .bf16) (v6 : Vec Ideal S5000x17 .f32)
    (p : Fin 5000) (k : Fin 256) :
    k0_pay4 (F := Ideal) v0 v2 v4 v6 (ix2 p k) = feat (R := 5000) v0 v2 v4 (angOf v6) p k := by
  have e : k0_pay4 (F := Ideal) v0 v2 v4 v6 (ix2 p k)
      = feat (R := 5000) (shapeCast S5000x64 v0 shapeCasts_S5000x64_S5000x64)
          (shapeCast S5000x64 v2 shapeCasts_S5000x64_S5000x64) (shapeCast S5000x112 v4 shapeCasts_S5000x112_S5000x112)
          (truncf .bf16 (extractStridedSlice S5000x16 ![0, 0] (k0_pay2 v6) slices_S5000x17_o0_0_S5000x16) bitsLt_bf16_f32
            : FVec Ideal S5000x16 .bf16) p k :=
    cat4_apply (φ := .bf16) _ _ _ _ concatenates_S5000x64_S5000x64_S5000x112_S5000x16_S5000x256_d1 p k
  rw [e, shapeCast_self, shapeCast_self, shapeCast_self, ang_eq]

/-- A dense layer of the first kernel over the 256 features, before its activation. -/
def pre0 (v0 v2 : Vec Ideal S5000x64 .bf16) (v4 : Vec Ideal S5000x112 .bf16) (v6 : Vec Ideal S5000x17 .f32)
    (w : FVec Ideal S256x64 .bf16) (b : FVec Ideal S64 .f32) : FVec Ideal S5000x64 .f32 :=
  addf (matmul dot_S5000x256_S256x64_S5000x64_1_0_0_1_n_n none (k0_pay4 v0 v2 v4 v6)
      (shapeCast S256x64 w shapeCasts_S256x64_S256x64) (constant S5000x64 .f32 0x00000000#32))
    (broadcastTo S5000x64 (shapeCast S1x64 b shapeCasts_S64_S1x64) broadcasts_S1x64_S5000x64)

/-- Entry (p, q) of a dense layer: row p of the 256 features against column q, plus the bias. -/
theorem pre0_at (v0 v2 : Vec Ideal S5000x64 .bf16) (v4 : Vec Ideal S5000x112 .bf16) (v6 : Vec Ideal S5000x17 .f32)
    (w : FVec Ideal S256x64 .bf16) (b : FVec Ideal S64 .f32) (p : Fin 5000) (q : Fin 64) :
    pre0 v0 v2 v4 v6 w b (ix2 p q) = lin (feat (R := 5000) v0 v2 v4 (angOf v6)) w b p q := by
  unfold pre0 lin
  rw [addf_apply, Cert.LibRowOps.rowVec_kernel_apply]
  congr 1
  refine (DotIdx.matmul_plain_zero_apply _ none _ _ p q).trans ?_
  refine Finset.sum_congr rfl fun k _ => ?_
  rw [shapeCast_self, k0_pay4_at]

/-- The gate at (p, q). -/
theorem k0_pay5_at (v0 v2 : Vec Ideal S5000x64 .bf16) (v4 : Vec Ideal S5000x112 .bf16) (v6 : Vec Ideal S5000x17 .f32)
    (v12 : Vec Ideal S256x64 .bf16) (v17 : Vec Ideal S64 .f32) (p : Fin 5000) (q : Fin 64) :
    k0_pay5 (F := Ideal) v0 v2 v4 v6 v12 v17 (ix2 p q)
      = Ideal.logistic (lin (feat (R := 5000) v0 v2 v4 (angOf v6)) v12 v17 p q) := by
  exact congrArg Ideal.logistic (pre0_at v0 v2 v4 v6 v12 v17 p q)

/-- The core at (p, q). -/
theorem k0_pay6_at (v0 v2 : Vec Ideal S5000x64 .bf16) (v4 : Vec Ideal S5000x112 .bf16) (v6 : Vec Ideal S5000x17 .f32)
    (v14 : Vec Ideal S256x64 .bf16) (v22 : Vec Ideal S64 .f32) (p : Fin 5000) (q : Fin 64) :
    k0_pay6 (F := Ideal) v0 v2 v4 v6 v14 v22 (ix2 p q)
      = softplus (lin (feat (R := 5000) v0 v2 v4 (angOf v6)) v14 v22 p q) := by
  rw [← pre0_at]
  exact softplus_select (pre0 v0 v2 v4 v6 v14 v22 (ix2 p q)) (Ideal.ofBits .f32 0x00000000#32) Ideal.ofBits_zero_f32

/-- The distance factor at row p: column 16 of the 17. -/
theorem k0_pay3_at (v6 : Vec Ideal S5000x17 .f32) (p : Fin 5000) :
    k0_pay3 (F := Ideal) v6 (ix2 p (0 : Fin 1)) = decOf (R := 5000) v6 (ix1 p) := by
  rw [decOf_apply]
  unfold k0_pay3 k0_pay2
  rw [shapeCast_self]
  exact Cert.LibCols.slice_cols 16 v6 _ p (0 : Fin 1) (16 : Fin 17) rfl

/-- The first kernel's stored value at (p, q) is the specification's entry. -/
theorem k0_at (v0 v2 : Vec Ideal S5000x64 .bf16) (v4 : Vec Ideal S5000x112 .bf16) (v6 : Vec Ideal S5000x17 .f32)
    (v12 v14 : Vec Ideal S256x64 .bf16) (v17 v22 : Vec Ideal S64 .f32) (p : Fin 5000) (q : Fin 64) :
    k0_pay1 (F := Ideal) (k0_pay3 v6) (k0_pay5 v0 v2 v4 v6 v12 v17) (k0_pay6 v0 v2 v4 v6 v14 v22) (ix2 p q)
      = gatedAt (R := 5000) v0 v2 v4 (angOf v6) (decOf v6) v12 v17 v14 v22 p q := by
  unfold k0_pay1 gatedAt
  rw [mulf_apply, mulf_apply, Cert.SupCon.Ker.broadcastTo_a1_ab_apply, k0_pay5_at, k0_pay6_at, k0_pay3_at]

end Cert.EdgeMsg.KPay

end
-- ==== Proof.LibFoldStretch.lean ====
/-
  A host program's fold of operations, read in stretches.

  A program that is a line of host operations ends with every buffer at the FOLD of the operations over the launch
  memory. Reading the whole fold back into one composed term repeats every shared intermediate once per reader and can
  be far too large to state; the fold splits at any position instead (after_take_drop, after_drop_split): the
  operations before the cut are folded first, and the rest is folded over what they leave, so each stretch is read
  against the contents the earlier stretches left, whatever they are. Last, an operation over a literal family of THREE
  operands (a concatenation of three arrays) read at its result buffer (nary3_result, and nary3_result' in the form a
  single simp pass over the fold uses).
-/
import Idealize.ShloMosaic.Lib.StableHlo.Run

noncomputable section

namespace Cert.LibFoldStretch

open Idealize.ShloMosaic Idealize.ShloMosaic.TcCoe Idealize.SL.Sem Idealize.ShloMosaic.StableHlo

section General

variable {τ' : Topo} {sig' : RefSig} {Val : EltTy → Type}

/-- The fold over a list is the fold over its first `n` operations followed by the fold over the rest. -/
theorem after_take_drop (n : Nat) : ∀ (l : List (HloOp τ' sig' Val)) (V : Valuation τ' sig' Val),
    after l V = after (l.drop n) (after (l.take n) V) := by
  induction n with
  | zero => intro l V; rfl
  | succ n ih =>
    intro l V
    cases l with
    | nil => rfl
    | cons op l =>
      simp only [List.take_succ_cons, List.drop_succ_cons, after_cons]
      exact ih l (op.result V)

/-- The fold over the operations from position `a` on: the next `n` of them first, then those from `a + n` on. -/
theorem after_drop_split (l : List (HloOp τ' sig' Val)) (a n b : Nat) (h : a + n = b) (V : Valuation τ' sig' Val) :
    after (l.drop a) V = after (l.drop b) (after ((l.drop a).take n) V) := by
  subst h
  rw [after_take_drop n (l.drop a) V, List.drop_drop]

end General

section Nary3

variable {τ' : Topo} {sig' : RefSig} {Val : EltTy → Type} {x a b y : Ref sig' .tc}

/-- An operation over a literal family of three operands: its result with each operand's contents at its own reference. -/
theorem nary3_result
    (f : ((k : Fin 3) → ((![x, a, b] : Fin 3 → Ref sig' .tc) k).ty.Contents Val) → y.ty.Contents Val) (hxs hy)
    (F : Valuation τ' sig' Val) :
    (nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig' .tc) k).ty.Contents Val) → y.ty.Contents Val) (hxs hy)
    (F : Valuation τ' sig' Val) :
    (nary (τ := τ') ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Nary3

end Cert.LibFoldStretch

end
-- ==== Proof.RefFold.lean ====
import proofs.«176142_j34437047779388_2_alg».proof.Proof.ReferenceRunP
import proofs.«176142_j34437047779388_2_alg».proof.Proof.ReferenceReadP
import proofs.«176142_j34437047779388_2_alg».proof.Proof.LibFoldStretch

/-!
The reference program's run, read back into named stages.

The reference's run ends with every buffer at the fold of its 111 operations over the launch memory. The fold is read
here in stretches: the list of operations is cut at the buffers that later operations read more than once, each
stretch is read against the contents the previous stretches left (any valuation that holds the earlier stages' values
at the buffers the stretch reads), and the stretches are chained from the last one backwards.
-/

set_option Elab.async false

noncomputable section

namespace Cert.EdgeMsg.RefFold

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP Cert.LibFoldStretch

section Typed

variable {sig' : RefSig} {T : BufTy} {Val : EltTy → Type}

/-- Contents carried to a typed reference's buffer and back are the contents. -/
theorem ofBuf_toBuf (x : TRef sig' T) (v : T.Contents Val) : x.ofBuf (x.toBuf v) = v := by
  obtain ⟨r, rfl, h2, h3⟩ := x
  rfl

end Typed

/-- At main_v39 the typed reference's contents are the buffer's. -/
theorem ofBuf_v39 (p1 : (main_v39 : Ref sig .tc).ty = (⟨S1000000x64, .f32⟩ : BufTy)) (p2 : (main_v39 : Ref sig .tc).space ≠ .host)
    (p3 : (main_v39 : Ref sig .tc).isScoped = false) (v : (⟨S1000000x64, .f32⟩ : BufTy).Contents (Elt Ideal)) :
    (TRef.of (T := ⟨S1000000x64, .f32⟩) main_v39 p1 p2 p3).ofBuf v = v := rfl

/-- At main_v40 the typed reference's contents are the buffer's. -/
theorem toBuf_v40 (p1 : (main_v40 : Ref sig .tc).ty = (⟨S1000000x64, .f32⟩ : BufTy)) (p2 : (main_v40 : Ref sig .tc).space ≠ .host)
    (p3 : (main_v40 : Ref sig .tc).isScoped = false) (v : (⟨S1000000x64, .f32⟩ : BufTy).Contents (Elt Ideal)) :
    (TRef.of (T := ⟨S1000000x64, .f32⟩) main_v40 p1 p2 p3).toBuf v = v := rfl

/-- At main_v71 the typed reference's contents are the buffer's. -/
theorem ofBuf_v71 (p1 : (main_v71 : Ref sig .tc).ty = (⟨S200000x128, .f32⟩ : BufTy)) (p2 : (main_v71 : Ref sig .tc).space ≠ .host)
    (p3 : (main_v71 : Ref sig .tc).isScoped = false) (v : (⟨S200000x128, .f32⟩ : BufTy).Contents (Elt Ideal)) :
    (TRef.of (T := ⟨S200000x128, .f32⟩) main_v71 p1 p2 p3).ofBuf v = v := rfl

/-- At main_v72 the typed reference's contents are the buffer's. -/
theorem toBuf_v72 (p1 : (main_v72 : Ref sig .tc).ty = (⟨S200000x128, .f32⟩ : BufTy)) (p2 : (main_v72 : Ref sig .tc).space ≠ .host)
    (p3 : (main_v72 : Ref sig .tc).isScoped = false) (v : (⟨S200000x128, .f32⟩ : BufTy).Contents (Elt Ideal)) :
    (TRef.of (T := ⟨S200000x128, .f32⟩) main_v72 p1 p2 p3).toBuf v = v := rfl

section Stretches

variable {x0 : (⟨S50000x64, .f32⟩ : BufTy).Contents (Elt Ideal)} {x1 : (⟨S200000x112, .f32⟩ : BufTy).Contents (Elt Ideal)} {x2 : (⟨S1000000x2, .i32⟩ : BufTy).Contents (Elt Ideal)} {x3 : (⟨S1000000, .i32⟩ : BufTy).Contents (Elt Ideal)} {x4 : (⟨S1000000x16, .f32⟩ : BufTy).Contents (Elt Ideal)} {x5 : (⟨S1000000, .i32⟩ : BufTy).Contents (Elt Ideal)} {x6 : (⟨S200000, .f32⟩ : BufTy).Contents (Elt Ideal)} {x7 : (⟨S256x64, .f32⟩ : BufTy).Contents (Elt Ideal)} {x8 : (⟨S64, .f32⟩ : BufTy).Contents (Elt Ideal)} {x9 : (⟨S256x64, .f32⟩ : BufTy).Contents (Elt Ideal)} {x10 : (⟨S64, .f32⟩ : BufTy).Contents (Elt Ideal)} {x11 : (⟨S240x128, .f32⟩ : BufTy).Contents (Elt Ideal)} {x12 : (⟨S128, .f32⟩ : BufTy).Contents (Elt Ideal)} {x13 : (⟨S128x144, .f32⟩ : BufTy).Contents (Elt Ideal)} {x14 : (⟨S144, .f32⟩ : BufTy).Contents (Elt Ideal)}
variable (W : Valuation τ sig (Elt Ideal))

/-! ### Operations 107 … 110 -/

/-- Operations 107 … 110 leave at main_v76 its stage, from any contents that hold the earlier stages at the buffers they read. -/
theorem S107_v76 (h_v72 : W (Proc.devRef .tc main_v72) = val_main_v72 (F := Ideal) x0 x1 x2 x3 x4 x5 x6 x7 x8 x9 x10 x11 x12) (h_arg13 : W (Proc.devRef .tc main_arg13) = x13) (h_arg14 : W (Proc.devRef .tc main_arg14) = x14) :
    after ((ops (F := Ideal)).drop 107) W (Proc.devRef .tc main_v76) = val_main_v76 (F := Ideal) x0 x1 x2 x3 x4 x5 x6 x7 x8 x9 x10 x11 x12 x13 x14 := by
  simp only [ops, List.drop_succ_cons, List.drop_zero]
  simp (disch := decide) only [after_cons, after_nil, nullary_result', unary_result', binary_result', ternary_result', reshape_result', nary4_result', nary3_result', nullary_result_ne', unary_result_ne', binary_result_ne', ternary_result_ne', reshape_result_ne', nary_result_ne']
  rw [h_v72, h_arg13, h_arg14]
  unfold val_main_v76 val_main_v75 val_main_v74 val_main_v73
  generalize val_main_v72 (F := Ideal) x0 x1 x2 x3 x4 x5 x6 x7 x8 x9 x10 x11 x12 = A0
  rfl

/-- The fold from position 107 on. -/
theorem T107 (h_v72 : W (Proc.devRef .tc main_v72) = val_main_v72 (F := Ideal) x0 x1 x2 x3 x4 x5 x6 x7 x8 x9 x10 x11 x12) (h_arg13 : W (Proc.devRef .tc main_arg13) = x13) (h_arg14 : W (Proc.devRef .tc main_arg14) = x14) :
    after ((ops (F := Ideal)).drop 107) W (Proc.devRef .tc main_v76) = val_main_v76 (F := Ideal) x0 x1 x2 x3 x4 x5 x6 x7 x8 x9 x10 x11 x12 x13 x14 :=
  S107_v76 W h_v72 h_arg13 h_arg14

/-! ### Operations 98 … 106 -/

/-- Operations 98 … 106 leave every buffer they do not write as it was. -/
theorem P98 (r : Ref sig .tc) (hr : r ∉ [main_call1_v0, main_call1_v1, main_call1_cst, main_call1_v2, main_call1_v3, main_call1_cst_0, main_call1_v4, main_call1_v5, main_v72]) :
    after (((ops (F := Ideal)).drop 98).take 9) W (Proc.devRef .tc r) = W (Proc.devRef .tc r) := by
  have n0 : r ≠ main_call1_v0 := by rintro rfl; exact hr (by decide)
  have n1 : r ≠ main_call1_v1 := by rintro rfl; exact hr (by decide)
  have n2 : r ≠ main_call1_cst := by rintro rfl; exact hr (by decide)
  have n3 : r ≠ main_call1_v2 := by rintro rfl; exact hr (by decide)
  have n4 : r ≠ main_call1_v3 := by rintro rfl; exact hr (by decide)
  have n5 : r ≠ main_call1_cst_0 := by rintro rfl; exact hr (by decide)
  have n6 : r ≠ main_call1_v4 := by rintro rfl; exact hr (by decide)
  have n7 : r ≠ main_call1_v5 := by rintro rfl; exact hr (by decide)
  have n8 : r ≠ main_v72 := by rintro rfl; exact hr (by decide)
  simp only [ops, List.drop_succ_cons, List.drop_zero, List.take_succ_cons, List.take_zero]
  simp (disch := assumption) only [after_cons, after_nil, nullary_result_ne', unary_result_ne', binary_result_ne', ternary_result_ne', reshape_result_ne', nary_result_ne']

/-- Operations 98 … 106 leave at main_v72 its stage, from any contents that hold the earlier stages at the buffers they read. -/
theorem S98_v72 (h_v71 : W (Proc.devRef .tc main_v71) = val_main_v71 (F := Ideal) x0 x1 x2 x3 x4 x5 x6 x7 x8 x9 x10 x11 x12) :
    after (((ops (F := Ideal)).drop 98).take 9) W (Proc.devRef .tc main_v72) = val_main_v72 (F := Ideal) x0 x1 x2 x3 x4 x5 x6 x7 x8 x9 x10 x11 x12 := by
  simp only [ops, List.drop_succ_cons, List.drop_zero, List.take_succ_cons, List.take_zero]
  simp (disch := decide) only [after_cons, after_nil, nullary_result', unary_result', binary_result', ternary_result', reshape_result', nary4_result', nary3_result', nullary_result_ne', unary_result_ne', binary_result_ne', ternary_result_ne', reshape_result_ne', nary_result_ne']
  rw [h_v71]
  simp only [ofBuf_toBuf, ofBuf_v39, toBuf_v40, ofBuf_v71, toBuf_v72]
  unfold val_main_v72 val_main_call1_v5 val_main_call1_v4 val_main_call1_cst_0 val_main_call1_v3 val_main_call1_v2 val_main_call1_cst val_main_call1_v1 val_main_call1_v0
  generalize val_main_v71 (F := Ideal) x0 x1 x2 x3 x4 x5 x6 x7 x8 x9 x10 x11 x12 = A0
  rfl

/-- The fold from position 98 on, from any contents that hold the earlier stages at the buffers still to be read. -/
theorem T98 (h_v71 : W (Proc.devRef .tc main_v71) = val_main_v71 (F := Ideal) x0 x1 x2 x3 x4 x5 x6 x7 x8 x9 x10 x11 x12) (h_arg13 : W (Proc.devRef .tc main_arg13) = x13) (h_arg14 : W (Proc.devRef .tc main_arg14) = x14) :
    after ((ops (F := Ideal)).drop 98) W (Proc.devRef .tc main_v76) = val_main_v76 (F := Ideal) x0 x1 x2 x3 x4 x5 x6 x7 x8 x9 x10 x11 x12 x13 x14 :=
  (congrFun (after_drop_split (ops (F := Ideal)) 98 9 107 rfl W) (Proc.devRef .tc main_v76)).trans
    (T107 _
      (S98_v72 W h_v71)
      ((P98 W main_arg13 (by decide)).trans h_arg13)
      ((P98 W main_arg14 (by decide)).trans h_arg14))

/-! ### Operations 94 … 97 -/

/-- Operations 94 … 97 leave every buffer they do not write as it was. -/
theorem P94 (r : Ref sig .tc) (hr : r ∉ [main_v68, main_v69, main_v70, main_v71]) :
    after (((ops (F := Ideal)).drop 94).take 4) W (Proc.devRef .tc r) = W (Proc.devRef .tc r) := by
  have n0 : r ≠ main_v68 := by rintro rfl; exact hr (by decide)
  have n1 : r ≠ main_v69 := by rintro rfl; exact hr (by decide)
  have n2 : r ≠ main_v70 := by rintro rfl; exact hr (by decide)
  have n3 : r ≠ main_v71 := by rintro rfl; exact hr (by decide)
  simp only [ops, List.drop_succ_cons, List.drop_zero, List.take_succ_cons, List.take_zero]
  simp (disch := assumption) only [after_cons, after_nil, nullary_result_ne', unary_result_ne', binary_result_ne', ternary_result_ne', reshape_result_ne', nary_result_ne']

/-- Operations 94 … 97 leave at main_v71 its stage, from any contents that hold the earlier stages at the buffers they read. -/
theorem S94_v71 (h_v67 : W (Proc.devRef .tc main_v67) = val_main_v67 (F := Ideal) x0 x1 x2 x3 x4 x5 x6 x7 x8 x9 x10) (h_arg11 : W (Proc.devRef .tc main_arg11) = x11) (h_arg12 : W (Proc.devRef .tc main_arg12) = x12) :
    after (((ops (F := Ideal)).drop 94).take 4) W (Proc.devRef .tc main_v71) = val_main_v71 (F := Ideal) x0 x1 x2 x3 x4 x5 x6 x7 x8 x9 x10 x11 x12 := by
  simp only [ops, List.drop_succ_cons, List.drop_zero, List.take_succ_cons, List.take_zero]
  simp (disch := decide) only [after_cons, after_nil, nullary_result', unary_result', binary_result', ternary_result', reshape_result', nary4_result', nary3_result', nullary_result_ne', unary_result_ne', binary_result_ne', ternary_result_ne', reshape_result_ne', nary_result_ne']
  rw [h_v67, h_arg11, h_arg12]
  unfold val_main_v71 val_main_v70 val_main_v69 val_main_v68
  generalize val_main_v67 (F := Ideal) x0 x1 x2 x3 x4 x5 x6 x7 x8 x9 x10 = A0
  rfl

/-- The fold from position 94 on, from any contents that hold the earlier stages at the buffers still to be read. -/
theorem T94 (h_v67 : W (Proc.devRef .tc main_v67) = val_main_v67 (F := Ideal) x0 x1 x2 x3 x4 x5 x6 x7 x8 x9 x10) (h_arg11 : W (Proc.devRef .tc main_arg11) = x11) (h_arg12 : W (Proc.devRef .tc main_arg12) = x12) (h_arg13 : W (Proc.devRef .tc main_arg13) = x13) (h_arg14 : W (Proc.devRef .tc main_arg14) = x14) :
    after ((ops (F := Ideal)).drop 94) W (Proc.devRef .tc main_v76) = val_main_v76 (F := Ideal) x0 x1 x2 x3 x4 x5 x6 x7 x8 x9 x10 x11 x12 x13 x14 :=
  (congrFun (after_drop_split (ops (F := Ideal)) 94 4 98 rfl W) (Proc.devRef .tc main_v76)).trans
    (T98 _
      (S94_v71 W h_v67 h_arg11 h_arg12)
      ((P94 W main_arg13 (by decide)).trans h_arg13)
      ((P94 W main_arg14 (by decide)).trans h_arg14))

/-! ### Operations 93 … 93 -/

/-- Operations 93 … 93 leave every buffer they do not write as it was. -/
theorem P93 (r : Ref sig .tc) (hr : r ∉ [main_v67]) :
    after (((ops (F := Ideal)).drop 93).take 1) W (Proc.devRef .tc r) = W (Proc.devRef .tc r) := by
  have n0 : r ≠ main_v67 := by rintro rfl; exact hr (by decide)
  simp only [ops, List.drop_succ_cons, List.drop_zero, List.take_succ_cons, List.take_zero]
  simp (disch := assumption) only [after_cons, after_nil, nullary_result_ne', unary_result_ne', binary_result_ne', ternary_result_ne', reshape_result_ne', nary_result_ne']

/-- Operations 93 … 93 leave at main_v67 its stage, from any contents that hold the earlier stages at the buffers they read. -/
theorem S93_v67 (h_v64 : W (Proc.devRef .tc main_v64) = val_main_v64 (F := Ideal) x0 x1 x2 x3 x4 x5 x6 x7 x8 x9 x10) (h_v66 : W (Proc.devRef .tc main_v66) = val_main_v66 (F := Ideal) x0 x1 x2 x3 x4 x5 x6 x7 x8 x9 x10) (h_arg1 : W (Proc.devRef .tc main_arg1) = x1) :
    after (((ops (F := Ideal)).drop 93).take 1) W (Proc.devRef .tc main_v67) = val_main_v67 (F := Ideal) x0 x1 x2 x3 x4 x5 x6 x7 x8 x9 x10 := by
  simp only [ops, List.drop_succ_cons, List.drop_zero, List.take_succ_cons, List.take_zero]
  simp (disch := decide) only [after_cons, after_nil, nullary_result', unary_result', binary_result', ternary_result', reshape_result', nary4_result', nary3_result', nullary_result_ne', unary_result_ne', binary_result_ne', ternary_result_ne', reshape_result_ne', nary_result_ne']
  rw [h_v64, h_v66, h_arg1]
  unfold val_main_v67
  generalize val_main_v64 (F := Ideal) x0 x1 x2 x3 x4 x5 x6 x7 x8 x9 x10 = A0
  generalize val_main_v66 (F := Ideal) x0 x1 x2 x3 x4 x5 x6 x7 x8 x9 x10 = A1
  rfl

/-- The fold from position 93 on, from any contents that hold the earlier stages at the buffers still to be read. -/
theorem T93 (h_v64 : W (Proc.devRef .tc main_v64) = val_main_v64 (F := Ideal) x0 x1 x2 x3 x4 x5 x6 x7 x8 x9 x10) (h_v66 : W (Proc.devRef .tc main_v66) = val_main_v66 (F := Ideal) x0 x1 x2 x3 x4 x5 x6 x7 x8 x9 x10) (h_arg1 : W (Proc.devRef .tc main_arg1) = x1) (h_arg11 : W (Proc.devRef .tc main_arg11) = x11) (h_arg12 : W (Proc.devRef .tc main_arg12) = x12) (h_arg13 : W (Proc.devRef .tc main_arg13) = x13) (h_arg14 : W (Proc.devRef .tc main_arg14) = x14) :
    after ((ops (F := Ideal)).drop 93) W (Proc.devRef .tc main_v76) = val_main_v76 (F := Ideal) x0 x1 x2 x3 x4 x5 x6 x7 x8 x9 x10 x11 x12 x13 x14 :=
  (congrFun (after_drop_split (ops (F := Ideal)) 93 1 94 rfl W) (Proc.devRef .tc main_v76)).trans
    (T94 _
      (S93_v67 W h_v64 h_v66 h_arg1)
      ((P93 W main_arg11 (by decide)).trans h_arg11)
      ((P93 W main_arg12 (by decide)).trans h_arg12)
      ((P93 W main_arg13 (by decide)).trans h_arg13)
      ((P93 W main_arg14 (by decide)).trans h_arg14))

/-! ### Operations 88 … 92 -/

/-- Operations 88 … 92 leave every buffer they do not write as it was. -/
theorem P88 (r : Ref sig .tc) (hr : r ∉ [main_v62, main_v63, main_v64, main_v65, main_v66]) :
    after (((ops (F := Ideal)).drop 88).take 5) W (Proc.devRef .tc r) = W (Proc.devRef .tc r) := by
  have n0 : r ≠ main_v62 := by rintro rfl; exact hr (by decide)
  have n1 : r ≠ main_v63 := by rintro rfl; exact hr (by decide)
  have n2 : r ≠ main_v64 := by rintro rfl; exact hr (by decide)
  have n3 : r ≠ main_v65 := by rintro rfl; exact hr (by decide)
  have n4 : r ≠ main_v66 := by rintro rfl; exact hr (by decide)
  simp only [ops, List.drop_succ_cons, List.drop_zero, List.take_succ_cons, List.take_zero]
  simp (disch := assumption) only [after_cons, after_nil, nullary_result_ne', unary_result_ne', binary_result_ne', ternary_result_ne', reshape_result_ne', nary_result_ne']

/-- Operations 88 … 92 leave at main_v64 its stage, from any contents that hold the earlier stages at the buffers they read. -/
theorem S88_v64 (h_v61 : W (Proc.devRef .tc main_v61) = val_main_v61 (F := Ideal) x0 x1 x2 x3 x4 x5 x6 x7 x8 x9 x10) :
    after (((ops (F := Ideal)).drop 88).take 5) W (Proc.devRef .tc main_v64) = val_main_v64 (F := Ideal) x0 x1 x2 x3 x4 x5 x6 x7 x8 x9 x10 := by
  simp only [ops, List.drop_succ_cons, List.drop_zero, List.take_succ_cons, List.take_zero]
  simp (disch := decide) only [after_cons, after_nil, nullary_result', unary_result', binary_result', ternary_result', reshape_result', nary4_result', nary3_result', nullary_result_ne', unary_result_ne', binary_result_ne', ternary_result_ne', reshape_result_ne', nary_result_ne']
  rw [h_v61]
  unfold val_main_v64 val_main_v63 val_main_v62
  generalize val_main_v61 (F := Ideal) x0 x1 x2 x3 x4 x5 x6 x7 x8 x9 x10 = A0
  rfl

/-- Operations 88 … 92 leave at main_v66 its stage, from any contents that hold the earlier stages at the buffers they read. -/
theorem S88_v66 (h_v61 : W (Proc.devRef .tc main_v61) = val_main_v61 (F := Ideal) x0 x1 x2 x3 x4 x5 x6 x7 x8 x9 x10) :
    after (((ops (F := Ideal)).drop 88).take 5) W (Proc.devRef .tc main_v66) = val_main_v66 (F := Ideal) x0 x1 x2 x3 x4 x5 x6 x7 x8 x9 x10 := by
  simp only [ops, List.drop_succ_cons, List.drop_zero, List.take_succ_cons, List.take_zero]
  simp (disch := decide) only [after_cons, after_nil, nullary_result', unary_result', binary_result', ternary_result', reshape_result', nary4_result', nary3_result', nullary_result_ne', unary_result_ne', binary_result_ne', ternary_result_ne', reshape_result_ne', nary_result_ne']
  rw [h_v61]
  unfold val_main_v66 val_main_v65 val_main_v62
  generalize val_main_v61 (F := Ideal) x0 x1 x2 x3 x4 x5 x6 x7 x8 x9 x10 = A0
  rfl

/-- The fold from position 88 on, from any contents that hold the earlier stages at the buffers still to be read. -/
theorem T88 (h_v61 : W (Proc.devRef .tc main_v61) = val_main_v61 (F := Ideal) x0 x1 x2 x3 x4 x5 x6 x7 x8 x9 x10) (h_arg1 : W (Proc.devRef .tc main_arg1) = x1) (h_arg11 : W (Proc.devRef .tc main_arg11) = x11) (h_arg12 : W (Proc.devRef .tc main_arg12) = x12) (h_arg13 : W (Proc.devRef .tc main_arg13) = x13) (h_arg14 : W (Proc.devRef .tc main_arg14) = x14) :
    after ((ops (F := Ideal)).drop 88) W (Proc.devRef .tc main_v76) = val_main_v76 (F := Ideal) x0 x1 x2 x3 x4 x5 x6 x7 x8 x9 x10 x11 x12 x13 x14 :=
  (congrFun (after_drop_split (ops (F := Ideal)) 88 5 93 rfl W) (Proc.devRef .tc main_v76)).trans
    (T93 _
      (S88_v64 W h_v61)
      (S88_v66 W h_v61)
      ((P88 W main_arg1 (by decide)).trans h_arg1)
      ((P88 W main_arg11 (by decide)).trans h_arg11)
      ((P88 W main_arg12 (by decide)).trans h_arg12)
      ((P88 W main_arg13 (by decide)).trans h_arg13)
      ((P88 W main_arg14 (by decide)).trans h_arg14))

/-! ### Operations 84 … 87 -/

/-- Operations 84 … 87 leave every buffer they do not write as it was. -/
theorem P84 (r : Ref sig .tc) (hr : r ∉ [main_cst_10, main_v59, main_v60, main_v61]) :
    after (((ops (F := Ideal)).drop 84).take 4) W (Proc.devRef .tc r) = W (Proc.devRef .tc r) := by
  have n0 : r ≠ main_cst_10 := by rintro rfl; exact hr (by decide)
  have n1 : r ≠ main_v59 := by rintro rfl; exact hr (by decide)
  have n2 : r ≠ main_v60 := by rintro rfl; exact hr (by decide)
  have n3 : r ≠ main_v61 := by rintro rfl; exact hr (by decide)
  simp only [ops, List.drop_succ_cons, List.drop_zero, List.take_succ_cons, List.take_zero]
  simp (disch := assumption) only [after_cons, after_nil, nullary_result_ne', unary_result_ne', binary_result_ne', ternary_result_ne', reshape_result_ne', nary_result_ne']

/-- Operations 84 … 87 leave at main_v61 its stage, from any contents that hold the earlier stages at the buffers they read. -/
theorem S84_v61 (h_v58 : W (Proc.devRef .tc main_v58) = val_main_v58 (F := Ideal) x0 x1 x2 x3 x4 x6 x7 x8 x9 x10) (h_arg5 : W (Proc.devRef .tc main_arg5) = x5) :
    after (((ops (F := Ideal)).drop 84).take 4) W (Proc.devRef .tc main_v61) = val_main_v61 (F := Ideal) x0 x1 x2 x3 x4 x5 x6 x7 x8 x9 x10 := by
  simp only [ops, List.drop_succ_cons, List.drop_zero, List.take_succ_cons, List.take_zero]
  simp (disch := decide) only [after_cons, after_nil, nullary_result', unary_result', binary_result', ternary_result', reshape_result', nary4_result', nary3_result', nullary_result_ne', unary_result_ne', binary_result_ne', ternary_result_ne', reshape_result_ne', nary_result_ne']
  rw [h_v58, h_arg5]
  unfold val_main_v61 val_main_v60 val_main_v59 val_main_cst_10
  generalize val_main_v58 (F := Ideal) x0 x1 x2 x3 x4 x6 x7 x8 x9 x10 = A0
  rfl

/-- The fold from position 84 on, from any contents that hold the earlier stages at the buffers still to be read. -/
theorem T84 (h_v58 : W (Proc.devRef .tc main_v58) = val_main_v58 (F := Ideal) x0 x1 x2 x3 x4 x6 x7 x8 x9 x10) (h_arg1 : W (Proc.devRef .tc main_arg1) = x1) (h_arg5 : W (Proc.devRef .tc main_arg5) = x5) (h_arg11 : W (Proc.devRef .tc main_arg11) = x11) (h_arg12 : W (Proc.devRef .tc main_arg12) = x12) (h_arg13 : W (Proc.devRef .tc main_arg13) = x13) (h_arg14 : W (Proc.devRef .tc main_arg14) = x14) :
    after ((ops (F := Ideal)).drop 84) W (Proc.devRef .tc main_v76) = val_main_v76 (F := Ideal) x0 x1 x2 x3 x4 x5 x6 x7 x8 x9 x10 x11 x12 x13 x14 :=
  (congrFun (after_drop_split (ops (F := Ideal)) 84 4 88 rfl W) (Proc.devRef .tc main_v76)).trans
    (T88 _
      (S84_v61 W h_v58 h_arg5)
      ((P84 W main_arg1 (by decide)).trans h_arg1)
      ((P84 W main_arg11 (by decide)).trans h_arg11)
      ((P84 W main_arg12 (by decide)).trans h_arg12)
      ((P84 W main_arg13 (by decide)).trans h_arg13)
      ((P84 W main_arg14 (by decide)).trans h_arg14))

/-! ### Operations 62 … 83 -/

/-- Operations 62 … 83 leave every buffer they do not write as it was. -/
theorem P62 (r : Ref sig .tc) (hr : r ∉ [main_v41, main_c_6, main_v42, main_v43, main_c_7, main_v44, main_v45, main_v46, main_v47, main_v48, main_v49, main_v50, main_cst_8, main_v51, main_v52, main_cst_9, main_v53, main_v54, main_v55, main_v56, main_v57, main_v58]) :
    after (((ops (F := Ideal)).drop 62).take 22) W (Proc.devRef .tc r) = W (Proc.devRef .tc r) := by
  have n0 : r ≠ main_v41 := by rintro rfl; exact hr (by decide)
  have n1 : r ≠ main_c_6 := by rintro rfl; exact hr (by decide)
  have n2 : r ≠ main_v42 := by rintro rfl; exact hr (by decide)
  have n3 : r ≠ main_v43 := by rintro rfl; exact hr (by decide)
  have n4 : r ≠ main_c_7 := by rintro rfl; exact hr (by decide)
  have n5 : r ≠ main_v44 := by rintro rfl; exact hr (by decide)
  have n6 : r ≠ main_v45 := by rintro rfl; exact hr (by decide)
  have n7 : r ≠ main_v46 := by rintro rfl; exact hr (by decide)
  have n8 : r ≠ main_v47 := by rintro rfl; exact hr (by decide)
  have n9 : r ≠ main_v48 := by rintro rfl; exact hr (by decide)
  have n10 : r ≠ main_v49 := by rintro rfl; exact hr (by decide)
  have n11 : r ≠ main_v50 := by rintro rfl; exact hr (by decide)
  have n12 : r ≠ main_cst_8 := by rintro rfl; exact hr (by decide)
  have n13 : r ≠ main_v51 := by rintro rfl; exact hr (by decide)
  have n14 : r ≠ main_v52 := by rintro rfl; exact hr (by decide)
  have n15 : r ≠ main_cst_9 := by rintro rfl; exact hr (by decide)
  have n16 : r ≠ main_v53 := by rintro rfl; exact hr (by decide)
  have n17 : r ≠ main_v54 := by rintro rfl; exact hr (by decide)
  have n18 : r ≠ main_v55 := by rintro rfl; exact hr (by decide)
  have n19 : r ≠ main_v56 := by rintro rfl; exact hr (by decide)
  have n20 : r ≠ main_v57 := by rintro rfl; exact hr (by decide)
  have n21 : r ≠ main_v58 := by rintro rfl; exact hr (by decide)
  simp only [ops, List.drop_succ_cons, List.drop_zero, List.take_succ_cons, List.take_zero]
  simp (disch := assumption) only [after_cons, after_nil, nullary_result_ne', unary_result_ne', binary_result_ne', ternary_result_ne', reshape_result_ne', nary_result_ne']

/-- Operations 62 … 83 leave at main_v58 its stage, from any contents that hold the earlier stages at the buffers they read. -/
theorem S62_v58 (h_v35 : W (Proc.devRef .tc main_v35) = val_main_v35 (F := Ideal) x0 x1 x2 x3 x4 x7 x8) (h_v40 : W (Proc.devRef .tc main_v40) = val_main_v40 (F := Ideal) x0 x1 x2 x3 x4 x9 x10) (h_arg3 : W (Proc.devRef .tc main_arg3) = x3) (h_arg6 : W (Proc.devRef .tc main_arg6) = x6) :
    after (((ops (F := Ideal)).drop 62).take 22) W (Proc.devRef .tc main_v58) = val_main_v58 (F := Ideal) x0 x1 x2 x3 x4 x6 x7 x8 x9 x10 := by
  simp only [ops, List.drop_succ_cons, List.drop_zero, List.take_succ_cons, List.take_zero]
  simp (disch := decide) only [after_cons, after_nil, nullary_result', unary_result', binary_result', ternary_result', reshape_result', nary4_result', nary3_result', nullary_result_ne', unary_result_ne', binary_result_ne', ternary_result_ne', reshape_result_ne', nary_result_ne']
  rw [h_v35, h_v40, h_arg3, h_arg6]
  unfold val_main_v58 val_main_v57 val_main_v56 val_main_v55 val_main_v54 val_main_v53 val_main_cst_9 val_main_v52 val_main_v51 val_main_cst_8 val_main_v50 val_main_v49 val_main_v48 val_main_v47 val_main_v46 val_main_v45 val_main_v44 val_main_c_7 val_main_v43 val_main_v42 val_main_c_6 val_main_v41
  generalize val_main_v35 (F := Ideal) x0 x1 x2 x3 x4 x7 x8 = A0
  generalize val_main_v40 (F := Ideal) x0 x1 x2 x3 x4 x9 x10 = A1
  rfl

/-- The fold from position 62 on, from any contents that hold the earlier stages at the buffers still to be read. -/
theorem T62 (h_v35 : W (Proc.devRef .tc main_v35) = val_main_v35 (F := Ideal) x0 x1 x2 x3 x4 x7 x8) (h_v40 : W (Proc.devRef .tc main_v40) = val_main_v40 (F := Ideal) x0 x1 x2 x3 x4 x9 x10) (h_arg1 : W (Proc.devRef .tc main_arg1) = x1) (h_arg3 : W (Proc.devRef .tc main_arg3) = x3) (h_arg5 : W (Proc.devRef .tc main_arg5) = x5) (h_arg6 : W (Proc.devRef .tc main_arg6) = x6) (h_arg11 : W (Proc.devRef .tc main_arg11) = x11) (h_arg12 : W (Proc.devRef .tc main_arg12) = x12) (h_arg13 : W (Proc.devRef .tc main_arg13) = x13) (h_arg14 : W (Proc.devRef .tc main_arg14) = x14) :
    after ((ops (F := Ideal)).drop 62) W (Proc.devRef .tc main_v76) = val_main_v76 (F := Ideal) x0 x1 x2 x3 x4 x5 x6 x7 x8 x9 x10 x11 x12 x13 x14 :=
  (congrFun (after_drop_split (ops (F := Ideal)) 62 22 84 rfl W) (Proc.devRef .tc main_v76)).trans
    (T84 _
      (S62_v58 W h_v35 h_v40 h_arg3 h_arg6)
      ((P62 W main_arg1 (by decide)).trans h_arg1)
      ((P62 W main_arg5 (by decide)).trans h_arg5)
      ((P62 W main_arg11 (by decide)).trans h_arg11)
      ((P62 W main_arg12 (by decide)).trans h_arg12)
      ((P62 W main_arg13 (by decide)).trans h_arg13)
      ((P62 W main_arg14 (by decide)).trans h_arg14))

/-! ### Operations 48 … 61 -/

/-- Operations 48 … 61 leave every buffer they do not write as it was. -/
theorem P48 (r : Ref sig .tc) (hr : r ∉ [main_call0_cst, main_call0_v0, main_call0_v1, main_call0_v2, main_call0_v3, main_call0_v4, main_call0_v5, main_call0_v6, main_call0_v7, main_call0_v8, main_call0_v9, main_call0_v10, main_call0_v11, main_v40]) :
    after (((ops (F := Ideal)).drop 48).take 14) W (Proc.devRef .tc r) = W (Proc.devRef .tc r) := by
  have n0 : r ≠ main_call0_cst := by rintro rfl; exact hr (by decide)
  have n1 : r ≠ main_call0_v0 := by rintro rfl; exact hr (by decide)
  have n2 : r ≠ main_call0_v1 := by rintro rfl; exact hr (by decide)
  have n3 : r ≠ main_call0_v2 := by rintro rfl; exact hr (by decide)
  have n4 : r ≠ main_call0_v3 := by rintro rfl; exact hr (by decide)
  have n5 : r ≠ main_call0_v4 := by rintro rfl; exact hr (by decide)
  have n6 : r ≠ main_call0_v5 := by rintro rfl; exact hr (by decide)
  have n7 : r ≠ main_call0_v6 := by rintro rfl; exact hr (by decide)
  have n8 : r ≠ main_call0_v7 := by rintro rfl; exact hr (by decide)
  have n9 : r ≠ main_call0_v8 := by rintro rfl; exact hr (by decide)
  have n10 : r ≠ main_call0_v9 := by rintro rfl; exact hr (by decide)
  have n11 : r ≠ main_call0_v10 := by rintro rfl; exact hr (by decide)
  have n12 : r ≠ main_call0_v11 := by rintro rfl; exact hr (by decide)
  have n13 : r ≠ main_v40 := by rintro rfl; exact hr (by decide)
  simp only [ops, List.drop_succ_cons, List.drop_zero, List.take_succ_cons, List.take_zero]
  simp (disch := assumption) only [after_cons, after_nil, nullary_result_ne', unary_result_ne', binary_result_ne', ternary_result_ne', reshape_result_ne', nary_result_ne']

/-- Operations 48 … 61 leave at main_v40 its stage, from any contents that hold the earlier stages at the buffers they read. -/
theorem S48_v40 (h_v39 : W (Proc.devRef .tc main_v39) = val_main_v39 (F := Ideal) x0 x1 x2 x3 x4 x9 x10) :
    after (((ops (F := Ideal)).drop 48).take 14) W (Proc.devRef .tc main_v40) = val_main_v40 (F := Ideal) x0 x1 x2 x3 x4 x9 x10 := by
  simp only [ops, List.drop_succ_cons, List.drop_zero, List.take_succ_cons, List.take_zero]
  simp (disch := decide) only [after_cons, after_nil, nullary_result', unary_result', binary_result', ternary_result', reshape_result', nary4_result', nary3_result', nullary_result_ne', unary_result_ne', binary_result_ne', ternary_result_ne', reshape_result_ne', nary_result_ne']
  rw [h_v39]
  simp only [ofBuf_toBuf, ofBuf_v39, toBuf_v40, ofBuf_v71, toBuf_v72]
  unfold val_main_v40 val_main_call0_v11 val_main_call0_v10 val_main_call0_v9 val_main_call0_v8 val_main_call0_v7 val_main_call0_v6 val_main_call0_v5 val_main_call0_v4 val_main_call0_v3 val_main_call0_v2 val_main_call0_v1 val_main_call0_v0 val_main_call0_cst
  generalize val_main_v39 (F := Ideal) x0 x1 x2 x3 x4 x9 x10 = A0
  rfl

/-- The fold from position 48 on, from any contents that hold the earlier stages at the buffers still to be read. -/
theorem T48 (h_v35 : W (Proc.devRef .tc main_v35) = val_main_v35 (F := Ideal) x0 x1 x2 x3 x4 x7 x8) (h_v39 : W (Proc.devRef .tc main_v39) = val_main_v39 (F := Ideal) x0 x1 x2 x3 x4 x9 x10) (h_arg1 : W (Proc.devRef .tc main_arg1) = x1) (h_arg3 : W (Proc.devRef .tc main_arg3) = x3) (h_arg5 : W (Proc.devRef .tc main_arg5) = x5) (h_arg6 : W (Proc.devRef .tc main_arg6) = x6) (h_arg11 : W (Proc.devRef .tc main_arg11) = x11) (h_arg12 : W (Proc.devRef .tc main_arg12) = x12) (h_arg13 : W (Proc.devRef .tc main_arg13) = x13) (h_arg14 : W (Proc.devRef .tc main_arg14) = x14) :
    after ((ops (F := Ideal)).drop 48) W (Proc.devRef .tc main_v76) = val_main_v76 (F := Ideal) x0 x1 x2 x3 x4 x5 x6 x7 x8 x9 x10 x11 x12 x13 x14 :=
  (congrFun (after_drop_split (ops (F := Ideal)) 48 14 62 rfl W) (Proc.devRef .tc main_v76)).trans
    (T62 _
      ((P48 W main_v35 (by decide)).trans h_v35)
      (S48_v40 W h_v39)
      ((P48 W main_arg1 (by decide)).trans h_arg1)
      ((P48 W main_arg3 (by decide)).trans h_arg3)
      ((P48 W main_arg5 (by decide)).trans h_arg5)
      ((P48 W main_arg6 (by decide)).trans h_arg6)
      ((P48 W main_arg11 (by decide)).trans h_arg11)
      ((P48 W main_arg12 (by decide)).trans h_arg12)
      ((P48 W main_arg13 (by decide)).trans h_arg13)
      ((P48 W main_arg14 (by decide)).trans h_arg14))

/-! ### Operations 36 … 47 -/

/-- Operations 36 … 47 leave every buffer they do not write as it was. -/
theorem P36 (r : Ref sig .tc) (hr : r ∉ [main_v30, main_v31, main_cst, main_v32, main_v33, main_cst_5, main_v34, main_v35, main_v36, main_v37, main_v38, main_v39]) :
    after (((ops (F := Ideal)).drop 36).take 12) W (Proc.devRef .tc r) = W (Proc.devRef .tc r) := by
  have n0 : r ≠ main_v30 := by rintro rfl; exact hr (by decide)
  have n1 : r ≠ main_v31 := by rintro rfl; exact hr (by decide)
  have n2 : r ≠ main_cst := by rintro rfl; exact hr (by decide)
  have n3 : r ≠ main_v32 := by rintro rfl; exact hr (by decide)
  have n4 : r ≠ main_v33 := by rintro rfl; exact hr (by decide)
  have n5 : r ≠ main_cst_5 := by rintro rfl; exact hr (by decide)
  have n6 : r ≠ main_v34 := by rintro rfl; exact hr (by decide)
  have n7 : r ≠ main_v35 := by rintro rfl; exact hr (by decide)
  have n8 : r ≠ main_v36 := by rintro rfl; exact hr (by decide)
  have n9 : r ≠ main_v37 := by rintro rfl; exact hr (by decide)
  have n10 : r ≠ main_v38 := by rintro rfl; exact hr (by decide)
  have n11 : r ≠ main_v39 := by rintro rfl; exact hr (by decide)
  simp only [ops, List.drop_succ_cons, List.drop_zero, List.take_succ_cons, List.take_zero]
  simp (disch := assumption) only [after_cons, after_nil, nullary_result_ne', unary_result_ne', binary_result_ne', ternary_result_ne', reshape_result_ne', nary_result_ne']

/-- Operations 36 … 47 leave at main_v35 its stage, from any contents that hold the earlier stages at the buffers they read. -/
theorem S36_v35 (h_v29 : W (Proc.devRef .tc main_v29) = val_main_v29 (F := Ideal) x0 x1 x2 x3 x4 x7 x8) :
    after (((ops (F := Ideal)).drop 36).take 12) W (Proc.devRef .tc main_v35) = val_main_v35 (F := Ideal) x0 x1 x2 x3 x4 x7 x8 := by
  simp only [ops, List.drop_succ_cons, List.drop_zero, List.take_succ_cons, List.take_zero]
  simp (disch := decide) only [after_cons, after_nil, nullary_result', unary_result', binary_result', ternary_result', reshape_result', nary4_result', nary3_result', nullary_result_ne', unary_result_ne', binary_result_ne', ternary_result_ne', reshape_result_ne', nary_result_ne']
  rw [h_v29]
  unfold val_main_v35 val_main_v34 val_main_cst_5 val_main_v33 val_main_v32 val_main_cst val_main_v31 val_main_v30
  generalize val_main_v29 (F := Ideal) x0 x1 x2 x3 x4 x7 x8 = A0
  rfl

/-- Operations 36 … 47 leave at main_v39 its stage, from any contents that hold the earlier stages at the buffers they read. -/
theorem S36_v39 (h_v25 : W (Proc.devRef .tc main_v25) = val_main_v25 (F := Ideal) x0 x1 x2 x3 x4) (h_arg9 : W (Proc.devRef .tc main_arg9) = x9) (h_arg10 : W (Proc.devRef .tc main_arg10) = x10) :
    after (((ops (F := Ideal)).drop 36).take 12) W (Proc.devRef .tc main_v39) = val_main_v39 (F := Ideal) x0 x1 x2 x3 x4 x9 x10 := by
  simp only [ops, List.drop_succ_cons, List.drop_zero, List.take_succ_cons, List.take_zero]
  simp (disch := decide) only [after_cons, after_nil, nullary_result', unary_result', binary_result', ternary_result', reshape_result', nary4_result', nary3_result', nullary_result_ne', unary_result_ne', binary_result_ne', ternary_result_ne', reshape_result_ne', nary_result_ne']
  rw [h_v25, h_arg9, h_arg10]
  unfold val_main_v39 val_main_v38 val_main_v37 val_main_v36
  generalize val_main_v25 (F := Ideal) x0 x1 x2 x3 x4 = A0
  rfl

/-- The fold from position 36 on, from any contents that hold the earlier stages at the buffers still to be read. -/
theorem T36 (h_v25 : W (Proc.devRef .tc main_v25) = val_main_v25 (F := Ideal) x0 x1 x2 x3 x4) (h_v29 : W (Proc.devRef .tc main_v29) = val_main_v29 (F := Ideal) x0 x1 x2 x3 x4 x7 x8) (h_arg1 : W (Proc.devRef .tc main_arg1) = x1) (h_arg3 : W (Proc.devRef .tc main_arg3) = x3) (h_arg5 : W (Proc.devRef .tc main_arg5) = x5) (h_arg6 : W (Proc.devRef .tc main_arg6) = x6) (h_arg9 : W (Proc.devRef .tc main_arg9) = x9) (h_arg10 : W (Proc.devRef .tc main_arg10) = x10) (h_arg11 : W (Proc.devRef .tc main_arg11) = x11) (h_arg12 : W (Proc.devRef .tc main_arg12) = x12) (h_arg13 : W (Proc.devRef .tc main_arg13) = x13) (h_arg14 : W (Proc.devRef .tc main_arg14) = x14) :
    after ((ops (F := Ideal)).drop 36) W (Proc.devRef .tc main_v76) = val_main_v76 (F := Ideal) x0 x1 x2 x3 x4 x5 x6 x7 x8 x9 x10 x11 x12 x13 x14 :=
  (congrFun (after_drop_split (ops (F := Ideal)) 36 12 48 rfl W) (Proc.devRef .tc main_v76)).trans
    (T48 _
      (S36_v35 W h_v29)
      (S36_v39 W h_v25 h_arg9 h_arg10)
      ((P36 W main_arg1 (by decide)).trans h_arg1)
      ((P36 W main_arg3 (by decide)).trans h_arg3)
      ((P36 W main_arg5 (by decide)).trans h_arg5)
      ((P36 W main_arg6 (by decide)).trans h_arg6)
      ((P36 W main_arg11 (by decide)).trans h_arg11)
      ((P36 W main_arg12 (by decide)).trans h_arg12)
      ((P36 W main_arg13 (by decide)).trans h_arg13)
      ((P36 W main_arg14 (by decide)).trans h_arg14))

/-! ### Operations 32 … 35 -/

/-- Operations 32 … 35 leave every buffer they do not write as it was. -/
theorem P32 (r : Ref sig .tc) (hr : r ∉ [main_v26, main_v27, main_v28, main_v29]) :
    after (((ops (F := Ideal)).drop 32).take 4) W (Proc.devRef .tc r) = W (Proc.devRef .tc r) := by
  have n0 : r ≠ main_v26 := by rintro rfl; exact hr (by decide)
  have n1 : r ≠ main_v27 := by rintro rfl; exact hr (by decide)
  have n2 : r ≠ main_v28 := by rintro rfl; exact hr (by decide)
  have n3 : r ≠ main_v29 := by rintro rfl; exact hr (by decide)
  simp only [ops, List.drop_succ_cons, List.drop_zero, List.take_succ_cons, List.take_zero]
  simp (disch := assumption) only [after_cons, after_nil, nullary_result_ne', unary_result_ne', binary_result_ne', ternary_result_ne', reshape_result_ne', nary_result_ne']

/-- Operations 32 … 35 leave at main_v29 its stage, from any contents that hold the earlier stages at the buffers they read. -/
theorem S32_v29 (h_v25 : W (Proc.devRef .tc main_v25) = val_main_v25 (F := Ideal) x0 x1 x2 x3 x4) (h_arg7 : W (Proc.devRef .tc main_arg7) = x7) (h_arg8 : W (Proc.devRef .tc main_arg8) = x8) :
    after (((ops (F := Ideal)).drop 32).take 4) W (Proc.devRef .tc main_v29) = val_main_v29 (F := Ideal) x0 x1 x2 x3 x4 x7 x8 := by
  simp only [ops, List.drop_succ_cons, List.drop_zero, List.take_succ_cons, List.take_zero]
  simp (disch := decide) only [after_cons, after_nil, nullary_result', unary_result', binary_result', ternary_result', reshape_result', nary4_result', nary3_result', nullary_result_ne', unary_result_ne', binary_result_ne', ternary_result_ne', reshape_result_ne', nary_result_ne']
  rw [h_v25, h_arg7, h_arg8]
  unfold val_main_v29 val_main_v28 val_main_v27 val_main_v26
  generalize val_main_v25 (F := Ideal) x0 x1 x2 x3 x4 = A0
  rfl

/-- The fold from position 32 on, from any contents that hold the earlier stages at the buffers still to be read. -/
theorem T32 (h_v25 : W (Proc.devRef .tc main_v25) = val_main_v25 (F := Ideal) x0 x1 x2 x3 x4) (h_arg1 : W (Proc.devRef .tc main_arg1) = x1) (h_arg3 : W (Proc.devRef .tc main_arg3) = x3) (h_arg5 : W (Proc.devRef .tc main_arg5) = x5) (h_arg6 : W (Proc.devRef .tc main_arg6) = x6) (h_arg7 : W (Proc.devRef .tc main_arg7) = x7) (h_arg8 : W (Proc.devRef .tc main_arg8) = x8) (h_arg9 : W (Proc.devRef .tc main_arg9) = x9) (h_arg10 : W (Proc.devRef .tc main_arg10) = x10) (h_arg11 : W (Proc.devRef .tc main_arg11) = x11) (h_arg12 : W (Proc.devRef .tc main_arg12) = x12) (h_arg13 : W (Proc.devRef .tc main_arg13) = x13) (h_arg14 : W (Proc.devRef .tc main_arg14) = x14) :
    after ((ops (F := Ideal)).drop 32) W (Proc.devRef .tc main_v76) = val_main_v76 (F := Ideal) x0 x1 x2 x3 x4 x5 x6 x7 x8 x9 x10 x11 x12 x13 x14 :=
  (congrFun (after_drop_split (ops (F := Ideal)) 32 4 36 rfl W) (Proc.devRef .tc main_v76)).trans
    (T36 _
      ((P32 W main_v25 (by decide)).trans h_v25)
      (S32_v29 W h_v25 h_arg7 h_arg8)
      ((P32 W main_arg1 (by decide)).trans h_arg1)
      ((P32 W main_arg3 (by decide)).trans h_arg3)
      ((P32 W main_arg5 (by decide)).trans h_arg5)
      ((P32 W main_arg6 (by decide)).trans h_arg6)
      ((P32 W main_arg9 (by decide)).trans h_arg9)
      ((P32 W main_arg10 (by decide)).trans h_arg10)
      ((P32 W main_arg11 (by decide)).trans h_arg11)
      ((P32 W main_arg12 (by decide)).trans h_arg12)
      ((P32 W main_arg13 (by decide)).trans h_arg13)
      ((P32 W main_arg14 (by decide)).trans h_arg14))

/-! ### Operations 31 … 31 -/

/-- Operations 31 … 31 leave every buffer they do not write as it was. -/
theorem P31 (r : Ref sig .tc) (hr : r ∉ [main_v25]) :
    after (((ops (F := Ideal)).drop 31).take 1) W (Proc.devRef .tc r) = W (Proc.devRef .tc r) := by
  have n0 : r ≠ main_v25 := by rintro rfl; exact hr (by decide)
  simp only [ops, List.drop_succ_cons, List.drop_zero, List.take_succ_cons, List.take_zero]
  simp (disch := assumption) only [after_cons, after_nil, nullary_result_ne', unary_result_ne', binary_result_ne', ternary_result_ne', reshape_result_ne', nary_result_ne']

/-- Operations 31 … 31 leave at main_v25 its stage, from any contents that hold the earlier stages at the buffers they read. -/
theorem S31_v25 (h_v8 : W (Proc.devRef .tc main_v8) = val_main_v8 (F := Ideal) x0 x2) (h_v17 : W (Proc.devRef .tc main_v17) = val_main_v17 (F := Ideal) x0 x2) (h_v24 : W (Proc.devRef .tc main_v24) = val_main_v24 (F := Ideal) x1 x3) (h_arg4 : W (Proc.devRef .tc main_arg4) = x4) :
    after (((ops (F := Ideal)).drop 31).take 1) W (Proc.devRef .tc main_v25) = val_main_v25 (F := Ideal) x0 x1 x2 x3 x4 := by
  simp only [ops, List.drop_succ_cons, List.drop_zero, List.take_succ_cons, List.take_zero]
  simp (disch := decide) only [after_cons, after_nil, nullary_result', unary_result', binary_result', ternary_result', reshape_result', nary4_result', nary3_result', nullary_result_ne', unary_result_ne', binary_result_ne', ternary_result_ne', reshape_result_ne', nary_result_ne']
  rw [h_v8, h_v17, h_v24, h_arg4]
  unfold val_main_v25
  generalize val_main_v8 (F := Ideal) x0 x2 = A0
  generalize val_main_v17 (F := Ideal) x0 x2 = A1
  generalize val_main_v24 (F := Ideal) x1 x3 = A2
  rfl

/-- The fold from position 31 on, from any contents that hold the earlier stages at the buffers still to be read. -/
theorem T31 (h_v8 : W (Proc.devRef .tc main_v8) = val_main_v8 (F := Ideal) x0 x2) (h_v17 : W (Proc.devRef .tc main_v17) = val_main_v17 (F := Ideal) x0 x2) (h_v24 : W (Proc.devRef .tc main_v24) = val_main_v24 (F := Ideal) x1 x3) (h_arg1 : W (Proc.devRef .tc main_arg1) = x1) (h_arg3 : W (Proc.devRef .tc main_arg3) = x3) (h_arg4 : W (Proc.devRef .tc main_arg4) = x4) (h_arg5 : W (Proc.devRef .tc main_arg5) = x5) (h_arg6 : W (Proc.devRef .tc main_arg6) = x6) (h_arg7 : W (Proc.devRef .tc main_arg7) = x7) (h_arg8 : W (Proc.devRef .tc main_arg8) = x8) (h_arg9 : W (Proc.devRef .tc main_arg9) = x9) (h_arg10 : W (Proc.devRef .tc main_arg10) = x10) (h_arg11 : W (Proc.devRef .tc main_arg11) = x11) (h_arg12 : W (Proc.devRef .tc main_arg12) = x12) (h_arg13 : W (Proc.devRef .tc main_arg13) = x13) (h_arg14 : W (Proc.devRef .tc main_arg14) = x14) :
    after ((ops (F := Ideal)).drop 31) W (Proc.devRef .tc main_v76) = val_main_v76 (F := Ideal) x0 x1 x2 x3 x4 x5 x6 x7 x8 x9 x10 x11 x12 x13 x14 :=
  (congrFun (after_drop_split (ops (F := Ideal)) 31 1 32 rfl W) (Proc.devRef .tc main_v76)).trans
    (T32 _
      (S31_v25 W h_v8 h_v17 h_v24 h_arg4)
      ((P31 W main_arg1 (by decide)).trans h_arg1)
      ((P31 W main_arg3 (by decide)).trans h_arg3)
      ((P31 W main_arg5 (by decide)).trans h_arg5)
      ((P31 W main_arg6 (by decide)).trans h_arg6)
      ((P31 W main_arg7 (by decide)).trans h_arg7)
      ((P31 W main_arg8 (by decide)).trans h_arg8)
      ((P31 W main_arg9 (by decide)).trans h_arg9)
      ((P31 W main_arg10 (by decide)).trans h_arg10)
      ((P31 W main_arg11 (by decide)).trans h_arg11)
      ((P31 W main_arg12 (by decide)).trans h_arg12)
      ((P31 W main_arg13 (by decide)).trans h_arg13)
      ((P31 W main_arg14 (by decide)).trans h_arg14))

/-! ### Operations 0 … 30 -/

/-- Operations 0 … 30 leave every buffer they do not write as it was. -/
theorem P0 (r : Ref sig .tc) (hr : r ∉ [main_v0, main_v1, main_c, main_v2, main_v3, main_c_0, main_v4, main_v5, main_v6, main_v7, main_v8, main_v9, main_v10, main_c_1, main_v11, main_v12, main_c_2, main_v13, main_v14, main_v15, main_v16, main_v17, main_c_3, main_v18, main_v19, main_c_4, main_v20, main_v21, main_v22, main_v23, main_v24]) :
    after (((ops (F := Ideal)).drop 0).take 31) W (Proc.devRef .tc r) = W (Proc.devRef .tc r) := by
  have n0 : r ≠ main_v0 := by rintro rfl; exact hr (by decide)
  have n1 : r ≠ main_v1 := by rintro rfl; exact hr (by decide)
  have n2 : r ≠ main_c := by rintro rfl; exact hr (by decide)
  have n3 : r ≠ main_v2 := by rintro rfl; exact hr (by decide)
  have n4 : r ≠ main_v3 := by rintro rfl; exact hr (by decide)
  have n5 : r ≠ main_c_0 := by rintro rfl; exact hr (by decide)
  have n6 : r ≠ main_v4 := by rintro rfl; exact hr (by decide)
  have n7 : r ≠ main_v5 := by rintro rfl; exact hr (by decide)
  have n8 : r ≠ main_v6 := by rintro rfl; exact hr (by decide)
  have n9 : r ≠ main_v7 := by rintro rfl; exact hr (by decide)
  have n10 : r ≠ main_v8 := by rintro rfl; exact hr (by decide)
  have n11 : r ≠ main_v9 := by rintro rfl; exact hr (by decide)
  have n12 : r ≠ main_v10 := by rintro rfl; exact hr (by decide)
  have n13 : r ≠ main_c_1 := by rintro rfl; exact hr (by decide)
  have n14 : r ≠ main_v11 := by rintro rfl; exact hr (by decide)
  have n15 : r ≠ main_v12 := by rintro rfl; exact hr (by decide)
  have n16 : r ≠ main_c_2 := by rintro rfl; exact hr (by decide)
  have n17 : r ≠ main_v13 := by rintro rfl; exact hr (by decide)
  have n18 : r ≠ main_v14 := by rintro rfl; exact hr (by decide)
  have n19 : r ≠ main_v15 := by rintro rfl; exact hr (by decide)
  have n20 : r ≠ main_v16 := by rintro rfl; exact hr (by decide)
  have n21 : r ≠ main_v17 := by rintro rfl; exact hr (by decide)
  have n22 : r ≠ main_c_3 := by rintro rfl; exact hr (by decide)
  have n23 : r ≠ main_v18 := by rintro rfl; exact hr (by decide)
  have n24 : r ≠ main_v19 := by rintro rfl; exact hr (by decide)
  have n25 : r ≠ main_c_4 := by rintro rfl; exact hr (by decide)
  have n26 : r ≠ main_v20 := by rintro rfl; exact hr (by decide)
  have n27 : r ≠ main_v21 := by rintro rfl; exact hr (by decide)
  have n28 : r ≠ main_v22 := by rintro rfl; exact hr (by decide)
  have n29 : r ≠ main_v23 := by rintro rfl; exact hr (by decide)
  have n30 : r ≠ main_v24 := by rintro rfl; exact hr (by decide)
  simp only [ops, List.drop_succ_cons, List.drop_zero, List.take_succ_cons, List.take_zero]
  simp (disch := assumption) only [after_cons, after_nil, nullary_result_ne', unary_result_ne', binary_result_ne', ternary_result_ne', reshape_result_ne', nary_result_ne']

/-- Operations 0 … 30 leave at main_v8 its stage, from any contents that hold the earlier stages at the buffers they read. -/
theorem S0_v8 (h_arg0 : W (Proc.devRef .tc main_arg0) = x0) (h_arg2 : W (Proc.devRef .tc main_arg2) = x2) :
    after (((ops (F := Ideal)).drop 0).take 31) W (Proc.devRef .tc main_v8) = val_main_v8 (F := Ideal) x0 x2 := by
  simp only [ops, List.drop_succ_cons, List.drop_zero, List.take_succ_cons, List.take_zero]
  simp (disch := decide) only [after_cons, after_nil, nullary_result', unary_result', binary_result', ternary_result', reshape_result', nary4_result', nary3_result', nullary_result_ne', unary_result_ne', binary_result_ne', ternary_result_ne', reshape_result_ne', nary_result_ne']
  rw [h_arg0, h_arg2]
  unfold val_main_v8 val_main_v7 val_main_v6 val_main_v5 val_main_v4 val_main_c_0 val_main_v3 val_main_v2 val_main_c val_main_v1 val_main_v0
  rfl

/-- Operations 0 … 30 leave at main_v17 its stage, from any contents that hold the earlier stages at the buffers they read. -/
theorem S0_v17 (h_arg0 : W (Proc.devRef .tc main_arg0) = x0) (h_arg2 : W (Proc.devRef .tc main_arg2) = x2) :
    after (((ops (F := Ideal)).drop 0).take 31) W (Proc.devRef .tc main_v17) = val_main_v17 (F := Ideal) x0 x2 := by
  simp only [ops, List.drop_succ_cons, List.drop_zero, List.take_succ_cons, List.take_zero]
  simp (disch := decide) only [after_cons, after_nil, nullary_result', unary_result', binary_result', ternary_result', reshape_result', nary4_result', nary3_result', nullary_result_ne', unary_result_ne', binary_result_ne', ternary_result_ne', reshape_result_ne', nary_result_ne']
  rw [h_arg0, h_arg2]
  unfold val_main_v17 val_main_v16 val_main_v15 val_main_v14 val_main_v13 val_main_c_2 val_main_v12 val_main_v11 val_main_c_1 val_main_v10 val_main_v9
  rfl

/-- Operations 0 … 30 leave at main_v24 its stage, from any contents that hold the earlier stages at the buffers they read. -/
theorem S0_v24 (h_arg1 : W (Proc.devRef .tc main_arg1) = x1) (h_arg3 : W (Proc.devRef .tc main_arg3) = x3) :
    after (((ops (F := Ideal)).drop 0).take 31) W (Proc.devRef .tc main_v24) = val_main_v24 (F := Ideal) x1 x3 := by
  simp only [ops, List.drop_succ_cons, List.drop_zero, List.take_succ_cons, List.take_zero]
  simp (disch := decide) only [after_cons, after_nil, nullary_result', unary_result', binary_result', ternary_result', reshape_result', nary4_result', nary3_result', nullary_result_ne', unary_result_ne', binary_result_ne', ternary_result_ne', reshape_result_ne', nary_result_ne']
  rw [h_arg1, h_arg3]
  unfold val_main_v24 val_main_v23 val_main_v22 val_main_v21 val_main_v20 val_main_c_4 val_main_v19 val_main_v18 val_main_c_3
  rfl

/-- The fold from position 0 on, from any contents that hold the earlier stages at the buffers still to be read. -/
theorem T0 (h_arg0 : W (Proc.devRef .tc main_arg0) = x0) (h_arg1 : W (Proc.devRef .tc main_arg1) = x1) (h_arg2 : W (Proc.devRef .tc main_arg2) = x2) (h_arg3 : W (Proc.devRef .tc main_arg3) = x3) (h_arg4 : W (Proc.devRef .tc main_arg4) = x4) (h_arg5 : W (Proc.devRef .tc main_arg5) = x5) (h_arg6 : W (Proc.devRef .tc main_arg6) = x6) (h_arg7 : W (Proc.devRef .tc main_arg7) = x7) (h_arg8 : W (Proc.devRef .tc main_arg8) = x8) (h_arg9 : W (Proc.devRef .tc main_arg9) = x9) (h_arg10 : W (Proc.devRef .tc main_arg10) = x10) (h_arg11 : W (Proc.devRef .tc main_arg11) = x11) (h_arg12 : W (Proc.devRef .tc main_arg12) = x12) (h_arg13 : W (Proc.devRef .tc main_arg13) = x13) (h_arg14 : W (Proc.devRef .tc main_arg14) = x14) :
    after ((ops (F := Ideal)).drop 0) W (Proc.devRef .tc main_v76) = val_main_v76 (F := Ideal) x0 x1 x2 x3 x4 x5 x6 x7 x8 x9 x10 x11 x12 x13 x14 :=
  (congrFun (after_drop_split (ops (F := Ideal)) 0 31 31 rfl W) (Proc.devRef .tc main_v76)).trans
    (T31 _
      (S0_v8 W h_arg0 h_arg2)
      (S0_v17 W h_arg0 h_arg2)
      (S0_v24 W h_arg1 h_arg3)
      ((P0 W main_arg1 (by decide)).trans h_arg1)
      ((P0 W main_arg3 (by decide)).trans h_arg3)
      ((P0 W main_arg4 (by decide)).trans h_arg4)
      ((P0 W main_arg5 (by decide)).trans h_arg5)
      ((P0 W main_arg6 (by decide)).trans h_arg6)
      ((P0 W main_arg7 (by decide)).trans h_arg7)
      ((P0 W main_arg8 (by decide)).trans h_arg8)
      ((P0 W main_arg9 (by decide)).trans h_arg9)
      ((P0 W main_arg10 (by decide)).trans h_arg10)
      ((P0 W main_arg11 (by decide)).trans h_arg11)
      ((P0 W main_arg12 (by decide)).trans h_arg12)
      ((P0 W main_arg13 (by decide)).trans h_arg13)
      ((P0 W main_arg14 (by decide)).trans h_arg14))

end Stretches

/-- The fold of the reference's 111 operations over the launch memory, read at its result buffer: the last named stage
    of the arguments' launch contents. -/
theorem ref_fold (m : (ℓ : Loc nD τ sig) → Buf (Elt Ideal) ℓ) (c : Dev nD) :
    StableHlo.after (Cert.ReferenceIdeal.ValueP.ops (F := Ideal)) (StableHlo.launchContents m c) (Proc.devRef .tc main_v76)
      = Cert.ReferenceIdeal.ReadP.val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  T0 (x0 := m ((c.tc : Thread nD τ).loc main_arg0)) (x1 := m ((c.tc : Thread nD τ).loc main_arg1)) (x2 := m ((c.tc : Thread nD τ).loc main_arg2)) (x3 := m ((c.tc : Thread nD τ).loc main_arg3)) (x4 := m ((c.tc : Thread nD τ).loc main_arg4)) (x5 := m ((c.tc : Thread nD τ).loc main_arg5)) (x6 := m ((c.tc : Thread nD τ).loc main_arg6)) (x7 := m ((c.tc : Thread nD τ).loc main_arg7)) (x8 := m ((c.tc : Thread nD τ).loc main_arg8)) (x9 := m ((c.tc : Thread nD τ).loc main_arg9)) (x10 := m ((c.tc : Thread nD τ).loc main_arg10)) (x11 := m ((c.tc : Thread nD τ).loc main_arg11)) (x12 := m ((c.tc : Thread nD τ).loc main_arg12)) (x13 := m ((c.tc : Thread nD τ).loc main_arg13)) (x14 := m ((c.tc : Thread nD τ).loc main_arg14)) (StableHlo.launchContents m c) rfl rfl rfl rfl rfl rfl rfl rfl rfl rfl rfl rfl rfl rfl rfl

end Cert.EdgeMsg.RefFold

end
-- ==== Proof.LibConcatCols.lean ====
/-
  Rank-2 arrays laid side by side along the columns, read at an entry.

  A concatenation of ANY number of rank-2 pieces along the columns reads, at (r, c), piece k at (r, c') where the
  piece's columns start at column pre of the result and pre + c' = c (concat_cols_apply). And an index is determined
  by its coordinates: one whose coordinates are a and b is ix2 a b (idx2_ext, idx1_ext) — the form in which an index
  function computed from literal shapes meets an index built from coordinates.
-/
import Idealize.ShloMosaic.Lib.ValueIdx
import Idealize.ShloMosaic.Lib.Pipeline.Value

noncomputable section

namespace Cert.LibConcatCols

open Idealize.ShloMosaic Idealize.ShloMosaic.ValueIdx

/-! ## Pieces laid side by side along the columns -/

/-- A concatenation of rank-2 pieces along the columns, at (r, c): piece k, whose columns start at column pre of the
    result, at (r, c') with pre + c' = c. -/
theorem concat_cols_apply {α : Type} {R C w : ℕ} (xs : List ((s : Shape) × (s.Idx → α)))
    (h : Shape.Concatenates (xs.map (·.1)) ⟨2, ![R, C]⟩ 1) (k : ℕ) (hk : k < xs.length)
    (x₁ : (⟨2, ![R, w]⟩ : Shape).Idx → α) (hxk : xs[k] = ⟨⟨2, ![R, w]⟩, x₁⟩) (pre : ℕ)
    (hpre : (((xs.take k).map (·.1)).map fun s : Shape =>
      if h : s.rank = 2 then s.size ((1 : Fin 2).cast h.symm) else 0).sum = pre)
    (r : Fin R) (c : Fin C) (c' : Fin w) (hc : pre + c'.val = c.val) :
    concatenate ⟨2, ![R, C]⟩ 1 xs h (ix2 r c) = x₁ (ix2 r c') :=
  concatenate_apply_piece (t := ⟨2, ![R, C]⟩) 1 xs h (ix2 r c) k hk ⟨2, ![R, w]⟩ x₁ hxk rfl pre hpre (ix2 r c')
    (fun b hb => by
      match b with
      | ⟨0, _⟩ => rfl
      | ⟨1, _⟩ => exact absurd rfl hb)
    hc

/-! ## Indices from their coordinates -/

/-- A rank-2 index with coordinates a and b is (a, b). -/
theorem idx2_ext {n0 n1 : ℕ} (i : (⟨2, ![n0, n1]⟩ : Shape).Idx) (a : Fin n0) (b : Fin n1)
    (h0 : (i 0).val = a.val) (h1 : (i 1).val = b.val) : i = ix2 a b :=
  funext fun d => Fin.ext (by
    match d with
    | ⟨0, _⟩ => exact h0
    | ⟨1, _⟩ => exact h1)

/-- A rank-1 index with coordinate a is (a). -/
theorem idx1_ext {n : ℕ} (i : (⟨1, ![n]⟩ : Shape).Idx) (a : Fin n) (h0 : (i 0).val = a.val) : i = ix1 a :=
  funext fun d => Fin.ext (by
    match d with
    | ⟨0, _⟩ => exact h0)

end Cert.LibConcatCols

end
-- ==== Proof.RefSpec.lean ====
/-
  The reference program's stages, read one entry at a time, are the specification's entries.

  The message array is gate times core times distance factor of the specification (ref_msgs), with the three gathered
  feature blocks and the gathered distance factor left as the program has them; the result is the specification's
  dense, silu, dense over the summed slots laid two to a row next to the edge's own features (ref_out), with the
  slot sums left as the program has them.
-/
import proofs.«176142_j34437047779388_2_alg».proof.Proof.ReferenceReadP
import proofs.«176142_j34437047779388_2_alg».proof.Proof.Spec
import proofs.«176142_j34437047779388_2_alg».proof.Proof.LibConcatCols

noncomputable section

open scoped BigOperators

namespace Cert.EdgeMsg.RefSpec

open Cert.ReferenceIdeal Cert.ReferenceIdeal.ReadP Cert.EdgeMsg Cert.LibConcatCols Idealize.ShloMosaic Idealize.ShloMosaic.ValueIdx

/-! ## The scalar forms -/

/-- The single-precision word 0x3F800000 is the number one. -/
theorem ofBits_one : Ideal.ofBits .f32 0x3F800000#32 = 1 := by
  simp [Ideal.ofBits, Ideal.ieee, -EReal.coe_mul]; norm_num

/-- One over one plus e^(-x), in the host's operations, is the logistic function. -/
theorem logistic_spelling (x : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf x)))
      = Ideal.logistic x := by
  show Ideal.div (Ideal.ofBits .f32 0x3F800000#32) (Ideal.ofBits .f32 0x3F800000#32 + Ideal.exp (-x)) = _
  rw [ofBits_one]
  rfl

/-- The guarded overflow-safe form of log (1 + e^x): a number never differs from itself, so the guard picks the
    overflow-safe branch, and subtracting zero changes nothing. -/
theorem softplus_spelling (x : Ideal .f32) :
    Scalar.select
        (FloatOps.cmpf .une (FloatOps.subf x (FloatOps.ofBits (F := Ideal) .f32 0x00000000#32))
          (FloatOps.subf x (FloatOps.ofBits (F := Ideal) .f32 0x00000000#32)))
        (FloatOps.addf x (FloatOps.ofBits (F := Ideal) .f32 0x00000000#32))
        (FloatOps.addf (FloatOps.maximumf x (FloatOps.ofBits (F := Ideal) .f32 0x00000000#32))
          (FloatOps.hostUnary .log1p (FloatOps.hostUnary .exp (FloatOps.hostNegf (FloatOps.hostAbsf
            (FloatOps.subf x (FloatOps.ofBits (F := Ideal) .f32 0x00000000#32)))))))
      = softplus x := by
  show Scalar.select (Ideal.cmp .une (x - Ideal.ofBits .f32 0x00000000#32) (x - Ideal.ofBits .f32 0x00000000#32))
      (x + Ideal.ofBits .f32 0x00000000#32)
      (max x (Ideal.ofBits .f32 0x00000000#32) + Ideal.log1p (Ideal.exp (-(max (x - Ideal.ofBits .f32 0x00000000#32)
        (-(x - Ideal.ofBits .f32 0x00000000#32)))))) = _
  have hc : ∀ d : EReal, Ideal.cmp .une d d = 0#1 := fun d => by simp [Ideal.cmp]
  rw [hc, select_zero, Ideal.ofBits_zero_f32, sub_zero]
  rfl

/-! ## The messages -/

section Msgs

variable (x0 : (⟨S50000x64, .f32⟩ : BufTy).Contents (Elt Ideal)) (x1 : (⟨S200000x112, .f32⟩ : BufTy).Contents (Elt Ideal)) (x2 : (⟨S1000000x2, .i32⟩ : BufTy).Contents (Elt Ideal)) (x3 : (⟨S1000000, .i32⟩ : BufTy).Contents (Elt Ideal)) (x4 : (⟨S1000000x16, .f32⟩ : BufTy).Contents (Elt Ideal))

/-- The 256 features of a sample are the four blocks side by side. -/
theorem v25_apply (r : Fin 1000000) (k : Fin 256) :
    val_main_v25 (F := Ideal) x0 x1 x2 x3 x4 (ix2 r k) = (feat (val_main_v8 (F := Ideal) x0 x2) (val_main_v17 (F := Ideal) x0 x2) (val_main_v24 (F := Ideal) x1 x3) x4) r k := by
  unfold val_main_v25 feat
  split_ifs with h0 h1 h2
  · exact concat_cols_apply _ _ 0 (by show (0 : ℕ) < 4; omega) (val_main_v8 (F := Ideal) x0 x2) rfl 0 rfl r k ⟨k.val, h0⟩
      (by show 0 + k.val = k.val; omega)
  · exact concat_cols_apply _ _ 1 (by show (1 : ℕ) < 4; omega) (val_main_v17 (F := Ideal) x0 x2) rfl 64 rfl r k ⟨k.val - 64, by omega⟩
      (by show 64 + (k.val - 64) = k.val; omega)
  · exact concat_cols_apply _ _ 2 (by show (2 : ℕ) < 4; omega) (val_main_v24 (F := Ideal) x1 x3) rfl 128 rfl r k ⟨k.val - 128, by omega⟩
      (by show 128 + (k.val - 128) = k.val; omega)
  · exact concat_cols_apply _ _ 3 (by show (3 : ℕ) < 4; omega) x4 rfl 240 rfl r k ⟨k.val - 240, by have := k.isLt; omega⟩
      (by show 240 + (k.val - 240) = k.val; omega)

/-- The gate's dense layer. -/
theorem lin_f (x7 : (⟨S256x64, .f32⟩ : BufTy).Contents (Elt Ideal)) (x8 : (⟨S64, .f32⟩ : BufTy).Contents (Elt Ideal)) (r : Fin 1000000) (j : Fin 64) :
    val_main_v29 (F := Ideal) x0 x1 x2 x3 x4 x7 x8 (ix2 r j) = lin (feat (val_main_v8 (F := Ideal) x0 x2) (val_main_v17 (F := Ideal) x0 x2) (val_main_v24 (F := Ideal) x1 x3) x4) x7 x8 r j := by
  rw [val_main_v29_apply, val_main_v26_apply, val_main_v28_apply, val_main_v27_apply]
  refine congrArg₂ (· + ·) (Finset.sum_congr rfl fun k _ => ?_) (congrArg x8 (idx1_ext _ j rfl))
  rw [idx2_ext (lidx_main_v26 (ix2 r j) k) r k rfl rfl, idx2_ext (ridx_main_v26 (ix2 r j) k) k j rfl rfl, v25_apply]

/-- The core's dense layer. -/
theorem lin_s (x9 : (⟨S256x64, .f32⟩ : BufTy).Contents (Elt Ideal)) (x10 : (⟨S64, .f32⟩ : BufTy).Contents (Elt Ideal)) (r : Fin 1000000) (j : Fin 64) :
    val_main_v39 (F := Ideal) x0 x1 x2 x3 x4 x9 x10 (ix2 r j) = lin (feat (val_main_v8 (F := Ideal) x0 x2) (val_main_v17 (F := Ideal) x0 x2) (val_main_v24 (F := Ideal) x1 x3) x4) x9 x10 r j := by
  rw [val_main_v39_apply, val_main_v36_apply, val_main_v38_apply, val_main_v37_apply]
  refine congrArg₂ (· + ·) (Finset.sum_congr rfl fun k _ => ?_) (congrArg x10 (idx1_ext _ j rfl))
  rw [idx2_ext (lidx_main_v36 (ix2 r j) k) r k rfl rfl, idx2_ext (ridx_main_v36 (ix2 r j) k) k j rfl rfl, v25_apply]

/-- The message array is the specification's: gate times core times distance factor. -/
theorem ref_msgs (x6 : (⟨S200000, .f32⟩ : BufTy).Contents (Elt Ideal)) (x7 : (⟨S256x64, .f32⟩ : BufTy).Contents (Elt Ideal)) (x8 : (⟨S64, .f32⟩ : BufTy).Contents (Elt Ideal)) (x9 : (⟨S256x64, .f32⟩ : BufTy).Contents (Elt Ideal)) (x10 : (⟨S64, .f32⟩ : BufTy).Contents (Elt Ideal)) :
    val_main_v58 (F := Ideal) x0 x1 x2 x3 x4 x6 x7 x8 x9 x10
      = gated (val_main_v8 (F := Ideal) x0 x2) (val_main_v17 (F := Ideal) x0 x2) (val_main_v24 (F := Ideal) x1 x3) x4
          (val_main_v55 (F := Ideal) x3 x6) x7 x8 x9 x10 := by
  funext i
  obtain ⟨r, j, rfl⟩ : ∃ (r : Fin 1000000) (j : Fin 64), i = ix2 r j := ⟨i 0, i 1, eq_ix2 i⟩
  rw [gated_apply]
  unfold gatedAt
  rw [← lin_f x0 x1 x2 x3 x4 x7 x8 r j, ← lin_s x0 x1 x2 x3 x4 x9 x10 r j]
  simp only [val_main_v58_apply, val_main_v41_apply, val_main_v35_apply, val_main_v34_apply, val_main_cst_5_apply,
    val_main_v33_apply, val_main_v32_apply, val_main_cst_apply, val_main_v31_apply, val_main_v30_apply,
    val_main_v40_apply, val_main_call0_v4_apply, val_main_call0_v3_apply, val_main_call0_v2_apply,
    val_main_call0_cst_apply, val_main_call0_v6_apply, val_main_call0_v5_apply, val_main_call0_v11_apply,
    val_main_call0_v1_apply, val_main_call0_v0_apply, val_main_call0_v10_apply, val_main_call0_v9_apply,
    val_main_call0_v8_apply, val_main_call0_v7_apply, val_main_v57_apply, val_main_v56_apply]
  rw [logistic_spelling, softplus_spelling, idx1_ext (idx_main_v56 (idx_main_v57 (ix2 r j))) r rfl]
  rfl

end Msgs

/-! ## The result -/

/-- x times one over one plus e^(-x), in the host's operations, is silu. -/
theorem silu_spelling (x : Ideal .f32) :
    FloatOps.mulf x (FloatOps.hostDivf (FloatOps.ofBits (F := Ideal) .f32 0x3F800000#32)
      (FloatOps.addf (FloatOps.ofBits (F := Ideal) .f32 0x3F800000#32) (FloatOps.hostUnary .exp (FloatOps.hostNegf x))))
      = silu x := by
  rw [logistic_spelling]
  rfl

section Out

variable (x0 : (⟨S50000x64, .f32⟩ : BufTy).Contents (Elt Ideal)) (x1 : (⟨S200000x112, .f32⟩ : BufTy).Contents (Elt Ideal)) (x2 : (⟨S1000000x2, .i32⟩ : BufTy).Contents (Elt Ideal)) (x3 : (⟨S1000000, .i32⟩ : BufTy).Contents (Elt Ideal)) (x4 : (⟨S1000000x16, .f32⟩ : BufTy).Contents (Elt Ideal)) (x5 : (⟨S1000000, .i32⟩ : BufTy).Contents (Elt Ideal)) (x6 : (⟨S200000, .f32⟩ : BufTy).Contents (Elt Ideal)) (x7 : (⟨S256x64, .f32⟩ : BufTy).Contents (Elt Ideal)) (x8 : (⟨S64, .f32⟩ : BufTy).Contents (Elt Ideal)) (x9 : (⟨S256x64, .f32⟩ : BufTy).Contents (Elt Ideal)) (x10 : (⟨S64, .f32⟩ : BufTy).Contents (Elt Ideal))

/-- The 240 features of an edge: its two summed slots, rows 2e and 2e + 1 of the slot sums, side by side, then its own
    112 features. Row-major, entry (e, u, c) of the slot sums seen as 200000 by 2 by 64 is entry (2e + u, c). -/
theorem v67_apply (e : Fin 200000) (l : Fin 240) :
    val_main_v67 (F := Ideal) x0 x1 x2 x3 x4 x5 x6 x7 x8 x9 x10 (ix2 e l) = (hfeat (pairRows (val_main_v61 (F := Ideal) x0 x1 x2 x3 x4 x5 x6 x7 x8 x9 x10)) x1) e l := by
  unfold val_main_v67 hfeat
  by_cases h0 : l.val < 64
  · rw [dif_pos (show l.val < 128 by omega), pairRows_apply]
    refine (concat_cols_apply _ _ 0 (by show (0 : ℕ) < 3; omega) (val_main_v64 (F := Ideal) x0 x1 x2 x3 x4 x5 x6 x7 x8 x9 x10) rfl 0 rfl e l ⟨l.val, h0⟩
      (by show 0 + l.val = l.val; omega)).trans ?_
    rw [val_main_v64_apply, val_main_v63_apply, val_main_v62_apply]
    refine congrArg (val_main_v61 (F := Ideal) x0 x1 x2 x3 x4 x5 x6 x7 x8 x9 x10) (idx2_ext _ _ _ ?_ ?_)
    · show (((e.val * 64 + l.val) / 64 * 2 + 0) * 64 + (e.val * 64 + l.val) % 64) / 64 = 2 * e.val + l.val / 64
      omega
    · show (((e.val * 64 + l.val) / 64 * 2 + 0) * 64 + (e.val * 64 + l.val) % 64) % 64 = l.val % 64
      omega
  · by_cases h1 : l.val < 128
    · rw [dif_pos h1, pairRows_apply]
      refine (concat_cols_apply _ _ 1 (by show (1 : ℕ) < 3; omega) (val_main_v66 (F := Ideal) x0 x1 x2 x3 x4 x5 x6 x7 x8 x9 x10) rfl 64 rfl e l ⟨l.val - 64, by omega⟩
        (by show 64 + (l.val - 64) = l.val; omega)).trans ?_
      rw [val_main_v66_apply, val_main_v65_apply, val_main_v62_apply]
      refine congrArg (val_main_v61 (F := Ideal) x0 x1 x2 x3 x4 x5 x6 x7 x8 x9 x10) (idx2_ext _ _ _ ?_ ?_)
      · show (((e.val * 64 + (l.val - 64)) / 64 * 2 + (1 + 0)) * 64 + (e.val * 64 + (l.val - 64)) % 64) / 64
          = 2 * e.val + l.val / 64
        omega
      · show (((e.val * 64 + (l.val - 64)) / 64 * 2 + (1 + 0)) * 64 + (e.val * 64 + (l.val - 64)) % 64) % 64
          = l.val % 64
        omega
    · rw [dif_neg h1]
      exact concat_cols_apply _ _ 2 (by show (2 : ℕ) < 3; omega) x1 rfl 128 rfl e l ⟨l.val - 128, by have := l.isLt; omega⟩
        (by show 128 + (l.val - 128) = l.val; omega)

/-- The first dense layer. -/
theorem lin_1 (x11 : (⟨S240x128, .f32⟩ : BufTy).Contents (Elt Ideal)) (x12 : (⟨S128, .f32⟩ : BufTy).Contents (Elt Ideal)) (e : Fin 200000) (k : Fin 128) :
    val_main_v71 (F := Ideal) x0 x1 x2 x3 x4 x5 x6 x7 x8 x9 x10 x11 x12 (ix2 e k) = lin (hfeat (pairRows (val_main_v61 (F := Ideal) x0 x1 x2 x3 x4 x5 x6 x7 x8 x9 x10)) x1) x11 x12 e k := by
  rw [val_main_v71_apply, val_main_v68_apply, val_main_v70_apply, val_main_v69_apply]
  refine congrArg₂ (· + ·) (Finset.sum_congr rfl fun l _ => ?_) (congrArg x12 (idx1_ext _ k rfl))
  rw [idx2_ext (lidx_main_v68 (ix2 e k) l) e l rfl rfl, idx2_ext (ridx_main_v68 (ix2 e k) l) l k rfl rfl, v67_apply]

/-- silu of the first dense layer. -/
theorem v72_apply (x11 : (⟨S240x128, .f32⟩ : BufTy).Contents (Elt Ideal)) (x12 : (⟨S128, .f32⟩ : BufTy).Contents (Elt Ideal)) (e : Fin 200000) (k : Fin 128) :
    val_main_v72 (F := Ideal) x0 x1 x2 x3 x4 x5 x6 x7 x8 x9 x10 x11 x12 (ix2 e k) = silu (val_main_v71 (F := Ideal) x0 x1 x2 x3 x4 x5 x6 x7 x8 x9 x10 x11 x12 (ix2 e k)) := by
  rw [val_main_v72_apply, val_main_call1_v5_apply, val_main_call1_v4_apply, val_main_call1_cst_0_apply,
    val_main_call1_v3_apply, val_main_call1_v2_apply, val_main_call1_cst_apply, val_main_call1_v1_apply,
    val_main_call1_v0_apply]
  exact silu_spelling _

/-- The result is the specification's: dense, silu, dense over the paired slot sums and the edge's own features. -/
theorem ref_out (x11 : (⟨S240x128, .f32⟩ : BufTy).Contents (Elt Ideal)) (x12 : (⟨S128, .f32⟩ : BufTy).Contents (Elt Ideal)) (x13 : (⟨S128x144, .f32⟩ : BufTy).Contents (Elt Ideal)) (x14 : (⟨S144, .f32⟩ : BufTy).Contents (Elt Ideal)) :
    val_main_v76 (F := Ideal) x0 x1 x2 x3 x4 x5 x6 x7 x8 x9 x10 x11 x12 x13 x14
      = edge (pairRows (val_main_v61 (F := Ideal) x0 x1 x2 x3 x4 x5 x6 x7 x8 x9 x10)) x1 x11 x12 x13 x14 := by
  funext i
  obtain ⟨e, j, rfl⟩ : ∃ (e : Fin 200000) (j : Fin 144), i = ix2 e j := ⟨i 0, i 1, eq_ix2 i⟩
  rw [edge_apply]
  unfold edgeAt
  rw [val_main_v76_apply, val_main_v73_apply, val_main_v75_apply, val_main_v74_apply]
  refine congrArg₂ (· + ·) (Finset.sum_congr rfl fun k _ => ?_) (congrArg x14 (idx1_ext _ j rfl))
  rw [idx2_ext (lidx_main_v73 (ix2 e j) k) e k rfl rfl, idx2_ext (ridx_main_v73 (ix2 e j) k) k j rfl rfl, v72_apply,
    lin_1]

end Out

end Cert.EdgeMsg.RefSpec

end
-- ==== Proof.Bridge.lean ====
/-
  The two programs' result buffers end at one and the same array.

  OUT is that array as a function of the fifteen argument arrays: the specification's result (dense, silu, dense) of
  the per-slot sums of all messages, two slots to a row, beside the edges' own features. The second program's run
  folds its operations to its last stage, which is OUT, stage by stage and entry by entry. The first program's result
  buffer ends at what its second region leaves, which is the specification's result of the paired per-slot sums of what
  its first region leaves, the array of all messages: OUT again, the per-slot sum being one and the same operation of
  equal operands on both sides.
-/
import proofs.«176142_j34437047779388_2_alg».proof.Proof.KHost
import proofs.«176142_j34437047779388_2_alg».proof.Proof.KPay
import proofs.«176142_j34437047779388_2_alg».proof.Proof.RefFold
import proofs.«176142_j34437047779388_2_alg».proof.Proof.RefSpec

set_option maxRecDepth 16384

noncomputable section

namespace Cert.EdgeMsg.Bridge

open Cert.EdgeMsg Idealize.ShloMosaic Idealize.ShloMosaic.TcCoe Idealize.SL.Sem
open Cert.ReferenceIdeal.ReadP (val_main_v58 val_main_v61 val_main_v76)

/-- The common result, of the fifteen argument arrays. -/
def OUT (x0 : (⟨Cert.ReferenceIdeal.S50000x64, .f32⟩ : BufTy).Contents (Elt Ideal))
    (x1 : (⟨Cert.ReferenceIdeal.S200000x112, .f32⟩ : BufTy).Contents (Elt Ideal))
    (x2 : (⟨Cert.ReferenceIdeal.S1000000x2, .i32⟩ : BufTy).Contents (Elt Ideal))
    (x3 : (⟨Cert.ReferenceIdeal.S1000000, .i32⟩ : BufTy).Contents (Elt Ideal))
    (x4 : (⟨Cert.ReferenceIdeal.S1000000x16, .f32⟩ : BufTy).Contents (Elt Ideal))
    (x5 : (⟨Cert.ReferenceIdeal.S1000000, .i32⟩ : BufTy).Contents (Elt Ideal))
    (x6 : (⟨Cert.ReferenceIdeal.S200000, .f32⟩ : BufTy).Contents (Elt Ideal))
    (x7 : (⟨Cert.ReferenceIdeal.S256x64, .f32⟩ : BufTy).Contents (Elt Ideal))
    (x8 : (⟨Cert.ReferenceIdeal.S64, .f32⟩ : BufTy).Contents (Elt Ideal))
    (x9 : (⟨Cert.ReferenceIdeal.S256x64, .f32⟩ : BufTy).Contents (Elt Ideal))
    (x10 : (⟨Cert.ReferenceIdeal.S64, .f32⟩ : BufTy).Contents (Elt Ideal))
    (x11 : (⟨Cert.ReferenceIdeal.S240x128, .f32⟩ : BufTy).Contents (Elt Ideal))
    (x12 : (⟨Cert.ReferenceIdeal.S128, .f32⟩ : BufTy).Contents (Elt Ideal))
    (x13 : (⟨Cert.ReferenceIdeal.S128x144, .f32⟩ : BufTy).Contents (Elt Ideal))
    (x14 : (⟨Cert.ReferenceIdeal.S144, .f32⟩ : BufTy).Contents (Elt Ideal)) : Mat 200000 144 :=
  edge (E := 200000) (pairRows (val_main_v61 (F := Ideal) x0 x1 x2 x3 x4 x5 x6 x7 x8 x9 x10)) x1 x11 x12 x13 x14

/-- The second program's last buffer, folded over the launch memory, is OUT of its arguments. -/
theorem ref_out (m' : (ℓ : Loc Cert.ReferenceIdeal.nD Cert.ReferenceIdeal.τ Cert.ReferenceIdeal.sig) → Buf (Elt Ideal) ℓ)
    (c : Dev Cert.ReferenceIdeal.nD) :
    StableHlo.after (Cert.ReferenceIdeal.ValueP.ops (F := Ideal)) (StableHlo.launchContents m' c)
        (Proc.devRef .tc Cert.ReferenceIdeal.main_v76)
      = OUT (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14)) := by
  rw [RefFold.ref_fold m' c, RefSpec.ref_out]
  rfl

/-- The first program's result buffer at the end of its run is OUT of its arguments. -/
theorem kernel_out (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.GenP.W4 m ρ c (Proc.devRef .tc Cert.KernelIdeal.main_v51)
      = OUT (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14)) := by
  rw [KHost.result m ρ KPay.k0_at KPay.k1_at c]
  unfold OUT
  unfold val_main_v61
  rw [RefSpec.ref_msgs]
  rfl

end Cert.EdgeMsg.Bridge

end
-- ==== Proof.lean ====
/-
  Two programs for one computation on a graph of atoms and edges, and the proof that they agree.

  For each of a million samples (an edge seen from one of its ends, with two atoms and an angular part) a message is
  computed from 256 features — the two atoms' 64 each, the edge's 112, 16 angle features — as
  logistic (z Wf + bf) · softplus (z Ws + bs) · exp (-(d d) / 18), d the edge's length; messages are summed into
  400000 slots, two per edge; and each edge's two slot sums beside its own 112 features go through a dense layer,
  silu, and a second dense layer. The first program does the two dense stages in two pipelined kernels over blocks of
  5000 samples and 4000 edges, the gathers and the per-slot sum on the host; the second is the plain array program.

  On the extended reals the two results are the same array, Bridge.OUT of the arguments:
  · a block of rows computes what the whole array computes on those rows (Spec: gatedAt_congr, edgeAt_congr), and the
    blocks tile their arrays (KBlocks0, KBlocks1), so each kernel leaves one whole-array function of what it finds;
  · what the kernels find are the second program's own stages (KHost) — the gathers of tables whose change of float
    format is the identity, the same index arithmetic — except the distance factor, where dividing by 18 is dividing
    by 9 and then by 2 (KLayout.div_9_2; no finiteness is used anywhere), and the reshape of the slot sums, which lays
    two slots side by side as the second program's two slices and concatenation do (KLayout.reshape_pairs, RefSpec);
  · the kernels' logistic is 1 / (1 + exp (-x)) by definition, their softplus and silu the host's, entry by entry
    (KPay, RefSpec);
  · the per-slot sum is one and the same operation of equal operands on both sides and is never opened.
  Each program runs to completion with its arguments untouched: the first by its frame certificate (both at the word
  level and on the extended reals), the second because none of its operations writes an argument (RefArgs).
  Nothing was rewritten between the word-level kernel and its idealization.
-/
import proofs.«176142_j34437047779388_2_alg».proof.Defs
import proofs.«176142_j34437047779388_2_alg».proof.Proof.Gen.Kernel
import proofs.«176142_j34437047779388_2_alg».proof.Proof.Gen.KernelIdeal
import proofs.«176142_j34437047779388_2_alg».proof.Proof.Gen.ReferenceIdeal
import proofs.«176142_j34437047779388_2_alg».proof.Proof.Gen.Pre_finite_inputs
import proofs.«176142_j34437047779388_2_alg».proof.Proof.KernelFrameP
import proofs.«176142_j34437047779388_2_alg».proof.Proof.KernelIdealFrameP
import proofs.«176142_j34437047779388_2_alg».proof.Proof.KRun
import proofs.«176142_j34437047779388_2_alg».proof.Proof.RefArgs
import proofs.«176142_j34437047779388_2_alg».proof.Proof.Bridge
import Idealize.ShloMosaic.Adequacy
import Idealize.ShloMosaic.Init

noncomputable section

namespace Cert.Proof

open Idealize.ShloMosaic Idealize.ShloMosaic.TcCoe Idealize.SL.Sem Cert.EdgeMsg

theorem frame_k : Cert.frame_Kernel := fun m ρ _ => Cert.Kernel.GenP.frame m ρ

theorem frame_ki : Cert.frame_KernelIdeal := fun m ρ _ => Cert.KernelIdeal.GenP.frame m ρ

/-- The second program runs to completion and none of its operations writes an argument. -/
theorem frame_ri : Cert.frame_ReferenceIdeal := fun m ρ _ =>
  (θ_run Cert.ReferenceIdeal.defs _ _).mono (fun r h c =>
    ⟨(h c Cert.ReferenceIdeal.main_arg0).trans (RefArgs.kept0 m c),
     (h c Cert.ReferenceIdeal.main_arg1).trans (RefArgs.kept1 m c),
     (h c Cert.ReferenceIdeal.main_arg2).trans (RefArgs.kept2 m c),
     (h c Cert.ReferenceIdeal.main_arg3).trans (RefArgs.kept3 m c),
     (h c Cert.ReferenceIdeal.main_arg4).trans (RefArgs.kept4 m c),
     (h c Cert.ReferenceIdeal.main_arg5).trans (RefArgs.kept5 m c),
     (h c Cert.ReferenceIdeal.main_arg6).trans (RefArgs.kept6 m c),
     (h c Cert.ReferenceIdeal.main_arg7).trans (RefArgs.kept7 m c),
     (h c Cert.ReferenceIdeal.main_arg8).trans (RefArgs.kept8 m c),
     (h c Cert.ReferenceIdeal.main_arg9).trans (RefArgs.kept9 m c),
     (h c Cert.ReferenceIdeal.main_arg10).trans (RefArgs.kept10 m c),
     (h c Cert.ReferenceIdeal.main_arg11).trans (RefArgs.kept11 m c),
     (h c Cert.ReferenceIdeal.main_arg12).trans (RefArgs.kept12 m c),
     (h c Cert.ReferenceIdeal.main_arg13).trans (RefArgs.kept13 m c),
     (h c Cert.ReferenceIdeal.main_arg14).trans (RefArgs.kept14 m c)⟩)
    (Cert.ReferenceIdeal.ValueP.run_fold (F := Ideal) m ρ)

/-- Both programs end with the common result, Bridge.OUT of the (agreeing) arguments, and their arguments untouched. -/
theorem algebraic : Cert.algebraic_KernelIdeal_ReferenceIdeal := by
  intro m ρ m' ρ' _ hagree
  refine ⟨fun c => Bridge.OUT (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono (fun r h c => ⟨(h c).1.trans (Bridge.kernel_out m ρ c), (h c).2⟩)
      (KRun.run_result (F := Ideal) m ρ)
  · refine (θ_run Cert.ReferenceIdeal.defs _ _).mono (fun r h c => ⟨?_,
      (h c Cert.ReferenceIdeal.main_arg0).trans (RefArgs.kept0 m' c),
      (h c Cert.ReferenceIdeal.main_arg1).trans (RefArgs.kept1 m' c),
      (h c Cert.ReferenceIdeal.main_arg2).trans (RefArgs.kept2 m' c),
      (h c Cert.ReferenceIdeal.main_arg3).trans (RefArgs.kept3 m' c),
      (h c Cert.ReferenceIdeal.main_arg4).trans (RefArgs.kept4 m' c),
      (h c Cert.ReferenceIdeal.main_arg5).trans (RefArgs.kept5 m' c),
      (h c Cert.ReferenceIdeal.main_arg6).trans (RefArgs.kept6 m' c),
      (h c Cert.ReferenceIdeal.main_arg7).trans (RefArgs.kept7 m' c),
      (h c Cert.ReferenceIdeal.main_arg8).trans (RefArgs.kept8 m' c),
      (h c Cert.ReferenceIdeal.main_arg9).trans (RefArgs.kept9 m' c),
      (h c Cert.ReferenceIdeal.main_arg10).trans (RefArgs.kept10 m' c),
      (h c Cert.ReferenceIdeal.main_arg11).trans (RefArgs.kept11 m' c),
      (h c Cert.ReferenceIdeal.main_arg12).trans (RefArgs.kept12 m' c),
      (h c Cert.ReferenceIdeal.main_arg13).trans (RefArgs.kept13 m' c),
      (h c Cert.ReferenceIdeal.main_arg14).trans (RefArgs.kept14 m' c)⟩)
      (Cert.ReferenceIdeal.ValueP.run_fold (F := Ideal) m' ρ')
    refine ((h c Cert.ReferenceIdeal.main_v76).trans (Bridge.ref_out m' c)).trans ?_
    obtain ⟨e0, e1, e2, e3, e4, e5, e6, e7, e8, e9, e10, e11, e12, e13, e14⟩ := hagree c
    rw [e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
